-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x600000 32) (main_arg2 : FVec F S256x128 .f32) (main_arg3 : FVec F S128 .f32) (main_arg4 : FVec F S128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 48
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000x128, .f32⟩
  | .hbm, ⟨38, _⟩ => ⟨S_, .f32⟩
  | .hbm, ⟨39, _⟩ => ⟨S50000x128, .f32⟩
  | .hbm, ⟨40, _⟩ => ⟨S650000x1, .i32⟩
  | .hbm, ⟨41, _⟩ => ⟨S50000x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_15 : BitVec 32 := 0#32
  let v30 : BitVec 1 := Scalar.cmpi .ne v29 c0_i32_15
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  scatter_S50000_S650000x1_S650000_n_0_0_1_wf : ScatterDims.WF S50000 S650000x1 S650000 [] [0] [0] 1
  dot_S5000x256_S256x128_S5000x128_1_0_0_1_n_n_wf : DotDims.WF S5000x256 S256x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30_1) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S50000x128 : Shape := ⟨2, ![50000, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x256_S256x128_S50000x128_1_0_0_1_n_n_wf : DotDims.WF S50000x256 S256x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KBRegion0.lean ====
/-
  The first call (the linear layer with the source-side scale), one core, a grid of ten points: at point `t` the body
  multiplies rows `5000·t … 5000·t + 4999` of `x` by the whole of `W` and scales row `r` of the product by entry `r` of the
  degree column; the result is rows `5000·t …` of the output. Here: the body run on its buffers, and the data the
  pipeline's launch theorem asks of a call whose body reads its input blocks and stores its output block whole.
  Everything is stated for any interpretation of the float operations.
-/
import proofs.«123185_j37778532336358_2_alg».proof.Proof.Gen.Kernel.Launch
import proofs.«123185_j37778532336358_2_alg».proof.Proof.Gen.Kernel.Skeleton
import proofs.«123185_j37778532336358_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the call is entered
variable (V : (c : Dev nD) → (b : Ref sig .tc) → Buf (Elt F) ((c : Thread nD τ).loc b))

/-- Window `w`'s block at grid point `t`: the rows `5000·t … 5000·t + 4999` of its array for a row-blocked window, the
    whole array for a window whose index map is constant. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body runs at point `t` the buffer of input window 0 holds that window's block at `t`, whether the block was
    moved there at `t` or at an earlier point with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- When the body runs at point `t` the buffer of input window 1 holds that window's block at `t`, whether the block was
    moved there at `t` or at an earlier point with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- When the body runs at point `t` the buffer of input window 2 holds that window's block at `t`, whether the block was
    moved there at `t` or at an earlier point with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of a `5000x256` buffer as one rectangle. -/
abbrev rect_S5000x256 : Rect S5000x256 := Rect.unit (s := S5000x256) ![0, 0] S5000x256.size inb_S5000x256_S5000x256_0_0
/-- The whole of a `256x128` buffer as one rectangle. -/
abbrev rect_S256x128 : Rect S256x128 := Rect.unit (s := S256x128) ![0, 0] S256x128.size inb_S256x128_S256x128_0_0
/-- The whole of a `5000x1` buffer as one rectangle. -/
abbrev rect_S5000x1 : Rect S5000x1 := Rect.unit (s := S5000x1) ![0, 0] S5000x1.size inb_S5000x1_S5000x1_0_0
/-- The whole of a `5000x128` buffer as one rectangle. -/
abbrev rect_S5000x128 : Rect S5000x128 := Rect.unit (s := S5000x128) ![0, 0] S5000x128.size inb_S5000x128_S5000x128_0_0

/-- What the body leaves in the output window's buffer, as a function of the input blocks: its one store, of the
    body's arithmetic `k0_pay1` of the loaded blocks, over the whole buffer. -/
def out0_3 (x0 : Vec F S5000x256 .f32) (x1 : Vec F S256x128 .f32) (x2 : Vec F S5000x1 .f32) : Vec F S5000x128 .f32 :=
  View.canon [⟨rect_S5000x128, k0_pay1 (View.ld x0 rect_S5000x256) (View.ld x1 rect_S256x128) (View.ld x2 rect_S5000x1)⟩]

/-- The one stored rectangle is the whole buffer. -/
theorem cover0_3 (p0 : Vec F S5000x128 .f32) (y : S5000x128.Idx) :
    ∃ pc ∈ ([⟨rect_S5000x128, p0⟩] : List (View.Piece (Elt F) S5000x128 .f32)), y ∈ pc.1.set :=
  View.cover_of_tiled [⟨rect_S5000x128, p0⟩] S5000x128.size (by rfl) y

set_option maxHeartbeats 4000000 in
/-- The body, run on whole buffers holding the input blocks `x0 …` and an output buffer holding anything, ends with
    the inputs' buffers as they were and the output's at `out0_3` of the inputs; it faults nowhere. -/
theorem sound_kernel0 (c : Dev nD) (E : Set ℕ) (i : grid0.Coords) (arg0 : Memref sig .tc .vmem S5000x256 .f32) (harg0 : arg0.IsWhole) (arg1 : Memref sig .tc .vmem S256x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x256 .f32) (x1 : Vec F S256x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_prescale_kernel i arg0 harg0 arg1 harg1 arg2 harg2 arg3 harg3) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this call on core `c`: its arrays as the call finds them; after the body at point `t` each
    input's buffer still at its block and the output's at `out0_3` of the blocks; nothing else of the core is touched,
    nothing is owed, every buffer is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; what the body does not name
    passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.KBRegion1.lean ====
/- REGION 1 (the batch-norm statistics call: a grid of ten points over row blocks of the aggregated features) — the
   ingredients of its half of the frame, stated at the buffer contents `V` the region is entered with:
   the windows' blocks (`iblk1`), the body's triple in its three control cases (first point: the two scratch
   accumulators are zeroed, then gain the block's column sums and column sums of squares; middle points: they gain
   the block's; last point: they gain the block's and the two outputs receive the mean and the variance), what the
   accumulators hold after each point as a recursion over the points (`acc1`), the invariant carried from point to
   point (`PhiS`: the accumulators owned at `acc1`'s values, every other scoped buffer unopened, the generator
   register), the proof data (`dat1`), the body obligation, and the invariant's entry and exit. Generic in the
   float interpretation. -/
import proofs.«123185_j37778532336358_2_alg».proof.Proof.Gen.Kernel.Launch
import proofs.«123185_j37778532336358_2_alg».proof.Proof.Gen.Kernel.Skeleton
import proofs.«123185_j37778532336358_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional's condition (is this the grid's first point?), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's condition (is this the grid's last point?). -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last point the two outputs are idle and not written back; at the last point they are live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## Whole-buffer loads and stores -/

/-- The zero offsets of a rank-two rectangle, as the program spells them. -/
theorem zeros2 : (![0, 0] : Fin 2 → ℕ) = fun _ => 0 := by funext a; fin_cases a <;> rfl

/-- A load of a whole memref held at the raw contents that read `X`, through the whole-shape rectangle at zero
    offsets, reads `X`. -/
theorem readAt_whole {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho]

/-- After a last store through the whole-shape rectangle the buffer reads as that store's payload, whatever it held
    and whatever was stored before. -/
theorem read_writes_whole {s : Shape} {e : EltTy} (v : View sig .tc .vmem s e) (f : v.ty.Contents (Elt F))
    {off : Fin s.rank → ℕ} (ho : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self .., View.mem_set_unit_zero ho inb y⟩),
    View.canon_cons_unit_zero ho]

/-- A load through the whole-shape rectangle after a last store through it reads that store's payload. -/
theorem readCov_whole {s : Shape} {e : EltTy} (v : View sig .tc .vmem s e)
    {off : Fin s.rank → ℕ} (ho : off = fun _ => 0) (inb : ∀ a, off a + s.size a ≤ s.size a)
    (w : s.Idx → Elt F e) (L : List (View.Piece (Elt F) s e)) :
    v.readCov ((⟨Rect.unit off s.size inb, w⟩ : View.Piece (Elt F) s e) :: L) (Rect.unit off s.size inb).toLoadRect = w := by
  rw [View.readCov_eq_canon_ld _ _ _ (fun y => ⟨_, List.mem_cons_self .., View.mem_set_unit_zero ho inb y⟩),
    View.canon_cons_unit_zero ho, View.ld_unit_zero ho]

/-! ## The body's triple, case by case -/

set_option maxHeartbeats 2000000 in
/-- AT THE FIRST POINT (first conditional taken, second not): on whole memrefs — the inputs' at `x0 x1 x2`, the two
    outputs' at contents handed back untouched, the two scratch accumulators at anything — the body zeroes the
    accumulators and adds this block's column sums and column sums of squares to them. -/
theorem kernel1_A (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : cond1_0 i) (hc1 : ¬cond1_1 i)
    (x0 : Vec F S5000x128 .f32) (x1 : Vec F S5000x1 .f32) (x2 xi3 xi4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k1_pay4 x0 x1 x2 (k1_pay1 (F := F)))
            ∗ owns (c : Thread nD τ) arg7 fullShare (k1_pay5 x0 x1 x2 (k1_pay2 (F := F)))) -∗ K ⟨⟩))
      ⊢ wp frame (wpE (defs₀ (F := F)) Variants.none c none) E (cc1__bn_stats_kernel i arg1 harg1 arg2 harg2 arg3 harg3 arg4 harg4 arg5 harg5 arg6 harg6 arg7 harg7) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_run_names)
    rw [read_writes_whole _ _ zeros2, readAt_whole harg1 x0 zeros2, readAt_whole harg2 x1 zeros2, readAt_whole harg3 x2 zeros2,
      readCov_whole _ zeros2]
  iexists _; isplitr
  swap; · iexact HS1
  ipureintro
  (try sl_unfold_run_names)
  rw [read_writes_whole _ _ zeros2, readAt_whole harg1 x0 zeros2, readAt_whole harg2 x1 zeros2, readAt_whole harg3 x2 zeros2,
    readCov_whole _ zeros2]

set_option maxHeartbeats 2000000 in
/-- AT A MIDDLE POINT (neither conditional taken): the accumulators, held at what the point before left (`xs0 xs1`),
    gain this block's column sums and column sums of squares; the outputs are handed back untouched. -/
theorem kernel1_B (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : ¬cond1_1 i)
    (x0 : Vec F S5000x128 .f32) (x1 : Vec F S5000x1 .f32) (x2 xi3 xi4 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k1_pay4 x0 x1 x2 xs0)
            ∗ owns (c : Thread nD τ) arg7 fullShare (k1_pay5 x0 x1 x2 xs1)) -∗ K ⟨⟩))
      ⊢ wp frame (wpE (defs₀ (F := F)) Variants.none c none) E (cc1__bn_stats_kernel i arg1 harg1 arg2 harg2 arg3 harg3 arg4 harg4 arg5 harg5 arg6 harg6 arg7 harg7) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_run_names)
    rw [read_writes_whole _ _ zeros2, readAt_whole harg1 x0 zeros2, readAt_whole harg2 x1 zeros2, readAt_whole harg3 x2 zeros2,
      readAt_whole harg6 xs0 zeros2]
  iexists _; isplitr
  swap; · iexact HS1
  ipureintro
  (try sl_unfold_run_names)
  rw [read_writes_whole _ _ zeros2, readAt_whole harg1 x0 zeros2, readAt_whole harg2 x1 zeros2, readAt_whole harg3 x2 zeros2,
    readAt_whole harg7 xs1 zeros2]

set_option maxHeartbeats 2000000 in
/-- AT THE LAST POINT (first conditional not taken, second taken): the accumulators gain this block's sums, and the
    two outputs — held at anything — receive the mean and the variance computed from the accumulators. -/
theorem kernel1_C (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : cond1_1 i)
    (x0 : Vec F S5000x128 .f32) (x1 : Vec F S5000x1 .f32) (x2 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k1_pay6 (k1_pay4 x0 x1 x2 xs0))
            ∗ owns (c : Thread nD τ) arg5 fullShare (k1_pay7 (k1_pay4 x0 x1 x2 xs0) (k1_pay5 x0 x1 x2 xs1))
            ∗ owns (c : Thread nD τ) arg6 fullShare (k1_pay4 x0 x1 x2 xs0)
            ∗ owns (c : Thread nD τ) arg7 fullShare (k1_pay5 x0 x1 x2 xs1)) -∗ K ⟨⟩))
      ⊢ wp frame (wpE (defs₀ (F := F)) Variants.none c none) E (cc1__bn_stats_kernel i arg1 harg1 arg2 harg2 arg3 harg3 arg4 harg4 arg5 harg5 arg6 harg6 arg7 harg7) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    (try sl_unfold_run_names)
    rw [read_writes_whole _ _ zeros2, readCov_whole _ zeros2, readAt_whole harg1 x0 zeros2, readAt_whole harg2 x1 zeros2, readAt_whole harg3 x2 zeros2,
      readAt_whole harg6 xs0 zeros2]
  isplitl [H4]
  · iexists _; isplitr
    swap; · iexact H4
    ipureintro
    (try sl_unfold_run_names)
    rw [read_writes_whole _ _ zeros2, readCov_whole _ zeros2, readCov_whole _ zeros2, readAt_whole harg1 x0 zeros2, readAt_whole harg2 x1 zeros2, readAt_whole harg3 x2 zeros2,
      readAt_whole harg6 xs0 zeros2, readAt_whole harg7 xs1 zeros2]
  isplitl [HS0]
  · iexists _; isplitr
    swap; · iexact HS0
    ipureintro
    (try sl_unfold_run_names)
    rw [read_writes_whole _ _ zeros2, readAt_whole harg1 x0 zeros2, readAt_whole harg2 x1 zeros2, readAt_whole harg3 x2 zeros2,
      readAt_whole harg6 xs0 zeros2]
  iexists _; isplitr
  swap; · iexact HS1
  ipureintro
  (try sl_unfold_run_names)
  rw [read_writes_whole _ _ zeros2, readAt_whole harg1 x0 zeros2, readAt_whole harg2 x1 zeros2, readAt_whole harg3 x2 zeros2,
    readAt_whole harg7 xs1 zeros2]

/-! ## The staging memrefs, the scratch operands, the invariant's shape -/

/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
/-- The two scratch accumulators (running column sums, running column sums of squares): whole scoped buffers passed
    beside the windows, carried from point to point. -/
abbrev scM0 : Memref sig .tc .vmem S1x128 .f32 := Memref.whole cc1_scratch0
abbrev scM1 : Memref sig .tc .vmem S1x128 .f32 := Memref.whole cc1_scratch1

/-- The core's scoped buffers that are neither a staging buffer of this pipeline nor one of its two accumulators
    (the other pipelines' staging buffers), each at some contents: carried through every point unopened. -/
abbrev rest1 (c : Dev nD) : sProp 𝕄 := Pipeline.scopedRestBut spec1 c [cc1_scratch0, cc1_scratch1]

/-- The class's region invariant, split at the two accumulators: each owned at some contents, the rest unopened, and
    the generator register at some state. -/
theorem PhiA1_eq (c : Dev nD) :
    (Pipeline.ΦA spec1 c : sProp 𝕄)
      = iprop((((∃ d, owns (c : Thread nD τ) scM0 fullShare d) ∗ (∃ d, owns (c : Thread nD τ) scM1 fullShare d)) ∗ rest1 c) ∗ (∃ r, prngReg c r)) := by
  unfold Pipeline.ΦA
  rw [Pipeline.scopedRest_split_of_list spec1 c [cc1_scratch0, cc1_scratch1] (by decide) (by decide)]
  simp only [scM0, scM1, owns_whole]; try rfl

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulators hold after each point -/

/-- THE ACCUMULATION. What the two scratch accumulators hold after the body at position `n`: at the first point the
    zeroed accumulators plus the first block's contribution, afterwards what the point before left plus this block's. -/
def acc1 (c : Dev nD) : (n : ℕ) → n < cfg1.N → Vec F S1x128 .f32 × Vec F S1x128 .f32
  | 0, hn => (k1_pay4 (iblk1 V c 0 ⟨0, hn⟩) (iblk1 V c 1 ⟨0, hn⟩) (iblk1 V c 2 ⟨0, hn⟩) (k1_pay1 (F := F)),
      k1_pay5 (iblk1 V c 0 ⟨0, hn⟩) (iblk1 V c 1 ⟨0, hn⟩) (iblk1 V c 2 ⟨0, hn⟩) (k1_pay2 (F := F)))
  | n + 1, hn => (k1_pay4 (iblk1 V c 0 ⟨n + 1, hn⟩) (iblk1 V c 1 ⟨n + 1, hn⟩) (iblk1 V c 2 ⟨n + 1, hn⟩) (acc1 c n (Nat.lt_of_succ_lt hn)).1,
      k1_pay5 (iblk1 V c 0 ⟨n + 1, hn⟩) (iblk1 V c 1 ⟨n + 1, hn⟩) (iblk1 V c 2 ⟨n + 1, hn⟩) (acc1 c n (Nat.lt_of_succ_lt hn)).2)

theorem acc1_zero (c : Dev nD) (hn : 0 < cfg1.N) :
    acc1 V c 0 hn = (k1_pay4 (iblk1 V c 0 ⟨0, hn⟩) (iblk1 V c 1 ⟨0, hn⟩) (iblk1 V c 2 ⟨0, hn⟩) (k1_pay1 (F := F)),
      k1_pay5 (iblk1 V c 0 ⟨0, hn⟩) (iblk1 V c 1 ⟨0, hn⟩) (iblk1 V c 2 ⟨0, hn⟩) (k1_pay2 (F := F))) := rfl

theorem acc1_succ (c : Dev nD) (n : ℕ) (hn : n + 1 < cfg1.N) :
    acc1 V c (n + 1) hn = (k1_pay4 (iblk1 V c 0 ⟨n + 1, hn⟩) (iblk1 V c 1 ⟨n + 1, hn⟩) (iblk1 V c 2 ⟨n + 1, hn⟩) (acc1 V c n (Nat.lt_of_succ_lt hn)).1,
      k1_pay5 (iblk1 V c 0 ⟨n + 1, hn⟩) (iblk1 V c 1 ⟨n + 1, hn⟩) (iblk1 V c 2 ⟨n + 1, hn⟩) (acc1 V c n (Nat.lt_of_succ_lt hn)).2) := rfl

/-- `acc1` at the first point, stated at a point. -/
theorem acc1_first (c : Dev nD) (t : Fin cfg1.N) (hz : t.val = 0) :
    acc1 V c t.val t.isLt = (k1_pay4 (iblk1 V c 0 t) (iblk1 V c 1 t) (iblk1 V c 2 t) (k1_pay1 (F := F)),
      k1_pay5 (iblk1 V c 0 t) (iblk1 V c 1 t) (iblk1 V c 2 t) (k1_pay2 (F := F))) := by
  obtain ⟨n, hn⟩ := t
  cases n with
  | zero => rfl
  | succ n => exact absurd hz (Nat.succ_ne_zero n)

/-- `acc1` at a later point, stated at a point: over what the point before left. -/
theorem acc1_pos (c : Dev nD) (t : Fin cfg1.N) (hz : t.val ≠ 0) :
    acc1 V c t.val t.isLt = (k1_pay4 (iblk1 V c 0 t) (iblk1 V c 1 t) (iblk1 V c 2 t) (acc1 V c (t.val - 1) (Nat.lt_of_le_of_lt (Nat.sub_le _ _) t.isLt)).1,
      k1_pay5 (iblk1 V c 0 t) (iblk1 V c 1 t) (iblk1 V c 2 t) (acc1 V c (t.val - 1) (Nat.lt_of_le_of_lt (Nat.sub_le _ _) t.isLt)).2) := by
  obtain ⟨n, hn⟩ := t
  cases n with
  | zero => exact absurd rfl hz
  | succ n => rfl

/-! ## The region invariant, point by point -/

/-- The invariant before position `n`: before the first point the class's (every scratch at anything); afterwards
    the two accumulators owned at what the point before left in them, the rest of the scoped buffers unopened, and the
    generator register at some state. -/
def PhiS (c : Dev nD) : (n : ℕ) → n ≤ cfg1.N → sProp 𝕄
  | 0, _ => Pipeline.ΦA spec1 c
  | n + 1, hn => iprop(((owns (c : Thread nD τ) scM0 fullShare (acc1 V c n hn).1 ∗ owns (c : Thread nD τ) scM1 fullShare (acc1 V c n hn).2) ∗ rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM0 fullShare (acc1 V c n hn).1 ∗ owns (c : Thread nD τ) scM1 fullShare (acc1 V c n hn).2) ∗ rest1 c) ∗ (∃ r, prngReg c r)) := rfl

theorem PhiS_pos (c : Dev nD) (n : ℕ) (h : n ≤ cfg1.N) (hz : n ≠ 0) :
    PhiS V c n h = iprop(((owns (c : Thread nD τ) scM0 fullShare (acc1 V c (n - 1) (by omega)).1 ∗ owns (c : Thread nD τ) scM1 fullShare (acc1 V c (n - 1) (by omega)).2) ∗ rest1 c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the two outputs' at the mean and the variance computed from the accumulators
    as they stand after that point (consulted at the last point only: elsewhere the outputs are idle); the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (acc1 V c t.val t.isLt).1
    | ⟨4, _⟩ => k1_pay7 (acc1 V c t.val t.isLt).1 (acc1 V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) : (dat1 V c).after 3 t = k1_pay6 (acc1 V c t.val t.isLt).1 := by dsimp only [dat1]
theorem after1_4' (c : Dev nD) (t : Fin cfg1.N) : (dat1 V c).after 4 t = k1_pay7 (acc1 V c t.val t.isLt).1 (acc1 V c t.val t.isLt).2 := by dsimp only [dat1]
/-- At the last point: the mean and the variance of the whole accumulation. -/
theorem after1_3 (c : Dev nD) (h9 : 9 < cfg1.N) : (dat1 V c).after 3 ⟨9, h9⟩ = k1_pay6 (acc1 V c 9 h9).1 := by dsimp only [dat1]
theorem after1_4 (c : Dev nD) (h9 : 9 < cfg1.N) : (dat1 V c).after 4 ⟨9, h9⟩ = k1_pay7 (acc1 V c 9 h9).1 (acc1 V c 9 h9).2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point is the first, a middle one or the last,
    and that case's triple applies; the invariant hands the body the two accumulators at what the point before left
    (at anything at the first point) and takes them back at this point's contents; the rest of the scoped buffers, the
    generator register and the core's debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt (show cfg1.N = 10 from N_1)
  by_cases h0 : t.val = 0
  · -- the first point
    have h9 : ¬t.val = 9 := by omega
    have hc0 : cond1_0 (grid1.coords t) := (hcond1_0 t).mpr h0
    have hc1 : ¬cond1_1 (grid1.coords t) := fun h => h9 ((hcond1_1 t).mp h)
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t hc1) (noFlush1_3 t hc1)]
    rw [Dat.leavesExact_idle (dat1 V c) 4 t (idleAt1_4 t hc1) (noFlush1_4 t hc1)]
    rw [acc1_first V c t h0]
    rw [PhiS_castSucc V c t, PhiS_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (kernel1_A c Set.univ (grid1.coords t) _ _ _ _ _ _ _ _ _ _ _ _ _ _ hc0 hc1 (iblk1 V c 0 t) (iblk1 V c 1 t) (iblk1 V c 2 t) _ _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · by_cases h9 : t.val = 9
    · -- the last point
      have hc0 : ¬cond1_0 (grid1.coords t) := fun h => h0 ((hcond1_0 t).mp h)
      have hc1 : cond1_1 (grid1.coords t) := (hcond1_1 t).mpr h9
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t hc1], after1_3']
      rw [show (dat1 V c).leavesExact 4 t = owns (c : Thread nD τ) (ms1_4 t) fullShare ((dat1 V c).after 4 t) from by
        unfold Dat.leavesExact; rw [liveAt1_4 t hc1], after1_4']
      rw [acc1_pos V c t h0]
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel1_C c Set.univ (grid1.coords t) _ _ _ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · -- a middle point
      have hc0 : ¬cond1_0 (grid1.coords t) := fun h => h0 ((hcond1_0 t).mp h)
      have hc1 : ¬cond1_1 (grid1.coords t) := fun h => h9 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [Dat.leavesExact_idle (dat1 V c) 4 t (idleAt1_4 t hc1) (noFlush1_4 t hc1)]
      rw [acc1_pos V c t h0]
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel1_B c Set.univ (grid1.coords t) _ _ _ _ _ _ _ _ _ _ _ _ _ _ hc0 hc1 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Region

end Cert.Kernel.Hand1

end
-- ==== Proof.KBRegion2.lean ====
/-
  The third call (normalise, scale, shift, clamp at zero), one core, a grid of ten points: at point `t` the body takes rows
  `5000·t … 5000·t + 4999` of the aggregated array and of the degree column, and the whole rows `b`, mean, variance, `γ`, `β`,
  and stores `max (γ · ((a · d + b) − mean) · rsqrt (variance + ε) + β) 0` as rows `5000·t …` of the output. Here: the body
  run on its buffers, and the data the pipeline's launch theorem asks of a call whose body reads its input blocks and
  stores its output block whole. Everything is stated for any interpretation of the float operations.
-/
import proofs.«123185_j37778532336358_2_alg».proof.Proof.Gen.Kernel.Launch
import proofs.«123185_j37778532336358_2_alg».proof.Proof.Gen.Kernel.Skeleton
import proofs.«123185_j37778532336358_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the call is entered
variable (V : (c : Dev nD) → (b : Ref sig .tc) → Buf (Elt F) ((c : Thread nD τ).loc b))

/-- Window `w`'s block at grid point `t`: the rows `5000·t … 5000·t + 4999` of its array for a row-blocked window, the
    whole array for a window whose index map is constant. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- When the body runs at point `t` the buffer of input window 0 holds that window's block at `t`, whether the block was
    moved there at `t` or at an earlier point with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 1 holds that window's block at `t`, whether the block was
    moved there at `t` or at an earlier point with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 2 holds that window's block at `t`, whether the block was
    moved there at `t` or at an earlier point with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 3 holds that window's block at `t`, whether the block was
    moved there at `t` or at an earlier point with the same block index. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 4 holds that window's block at `t`, whether the block was
    moved there at `t` or at an earlier point with the same block index. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 5 holds that window's block at `t`, whether the block was
    moved there at `t` or at an earlier point with the same block index. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 6 holds that window's block at `t`, whether the block was
    moved there at `t` or at an earlier point with the same block index. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The whole of a `5000x128` buffer as one rectangle. -/
abbrev rect_S5000x128 : Rect S5000x128 := Rect.unit (s := S5000x128) ![0, 0] S5000x128.size inb_S5000x128_S5000x128_0_0
/-- The whole of a `5000x1` buffer as one rectangle. -/
abbrev rect_S5000x1 : Rect S5000x1 := Rect.unit (s := S5000x1) ![0, 0] S5000x1.size inb_S5000x1_S5000x1_0_0
/-- The whole of a `1x128` buffer as one rectangle. -/
abbrev rect_S1x128 : Rect S1x128 := Rect.unit (s := S1x128) ![0, 0] S1x128.size inb_S1x128_S1x128_0_0

/-- What the body leaves in the output window's buffer, as a function of the input blocks: its one store, of the
    body's arithmetic `k2_pay1` of the loaded blocks, over the whole buffer. -/
def out2_7 (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) : Vec F S5000x128 .f32 :=
  View.canon [⟨rect_S5000x128, k2_pay1 (View.ld x0 rect_S5000x128) (View.ld x1 rect_S5000x1) (View.ld x2 rect_S1x128) (View.ld x4 rect_S1x128) (View.ld x5 rect_S1x128) (View.ld x3 rect_S1x128) (View.ld x6 rect_S1x128)⟩]

/-- The one stored rectangle is the whole buffer. -/
theorem cover2_7 (p0 : Vec F S5000x128 .f32) (y : S5000x128.Idx) :
    ∃ pc ∈ ([⟨rect_S5000x128, p0⟩] : List (View.Piece (Elt F) S5000x128 .f32)), y ∈ pc.1.set :=
  View.cover_of_tiled [⟨rect_S5000x128, p0⟩] S5000x128.size (by rfl) y

set_option maxHeartbeats 4000000 in
/-- The body, run on whole buffers holding the input blocks `x0 …` and an output buffer holding anything, ends with
    the inputs' buffers as they were and the output's at `out2_7` of the inputs; it faults nowhere. -/
theorem sound_kernel2 (c : Dev nD) (E : Set ℕ) (i : grid2.Coords) (arg0 : Memref sig .tc .vmem S5000x128 .f32) (harg0 : arg0.IsWhole) (arg1 : Memref sig .tc .vmem S5000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__bn_apply_kernel i arg0 harg0 arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The proof data of this call on core `c`: its arrays as the call finds them; after the body at point `t` each
    input's buffer still at its block and the output's at `out2_7` of the blocks; nothing else of the core is touched,
    nothing is owed, every buffer is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the input buffers hold their blocks, so `sound_kernel2` applies; what the body does not name
    passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand2

end
-- ==== Proof.KBRun.lean ====
/-
  The whole program's run. Its entry function is three stretches of host operations, the first call, a fourth stretch,
  the second call, the third call. Here: the contents of every buffer at each boundary between two of these items, as a
  fold from the launch memory (a stretch applies its operations; a call leaves its arrays at what its pipeline's
  write-backs leave and every other buffer as it found it); each call as a segment over the state "every buffer outside
  the pipelines' staging storage at the boundary's contents"; and the run: every fair execution from a memory with zero
  counters terminates, faults nowhere, and ends with every such buffer at the last boundary's contents. The argument
  arrays are written by no item, so they end as launched. Everything is stated for any interpretation of the float
  operations.
-/
import proofs.«123185_j37778532336358_2_alg».proof.Proof.KBRegion0
import proofs.«123185_j37778532336358_2_alg».proof.Proof.KBRegion1
import proofs.«123185_j37778532336358_2_alg».proof.Proof.KBRegion2
import proofs.«123185_j37778532336358_2_alg».proof.Proof.Gen.Kernel.Regions

set_option maxRecDepth 16384

noncomputable section

namespace Cert.Kernel.HandRun

open Cert.Kernel.Hand0 Cert.Kernel.Hand1 Cert.Kernel.Hand2
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- At launch. -/
abbrev W0 : Dev nD → Valuation τ sig (Elt F) := fun c b => (s₀ m ρ).mem ((c : Dev nD), b)
/-- After the first stretch (edge lists, degrees, their inverse square roots' inputs). -/
abbrev W1 : Dev nD → Valuation τ sig (Elt F) := fun c => StableHlo.after hostOps0 (W0 m ρ c)
/-- After the second stretch (the select of the inverse square root where the degree is positive). -/
abbrev W2 : Dev nD → Valuation τ sig (Elt F) := fun c => StableHlo.after hostOps0_1 (W1 m ρ c)
/-- After the third stretch (the degree scale as a column): the first call's entry. -/
abbrev W3 : Dev nD → Valuation τ sig (Elt F) := fun c => StableHlo.after hostOps0_2 (W2 m ρ c)
abbrev X3 : (c : Dev nD) → (b : Ref sig .tc) → Buf (Elt F) ((c : Thread nD τ).loc b) := fun c b => W3 m ρ c b
/-- After call 0: its arrays at what the pipeline's write-backs leave (an input array as entered), every other buffer as
    entered. -/
def W4 (c : Dev nD) : Valuation τ sig (Elt F) :=
  Pipeline.withArrays spec0 c (W3 m ρ c) fun w => (dat0 (X3 m ρ) c).arrAt w cfg0.N
theorem W4_arr (c : Dev nD) (w : Fin cfg0.W) :
    W4 m ρ c (Proc.devRef .tc (Pipeline.arrRef spec0 w)) = (dat0 (X3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's references. -/
abbrev X4 : (c : Dev nD) → (b : Ref sig .tc) → Buf (Elt F) ((c : Thread nD τ).loc b) := fun c b => W4 m ρ c b
theorem hF0 (c : Dev nD) (w : Fin cfg0.W) : (dat0 (X3 m ρ) c).arrAt w cfg0.N = X4 m ρ c (Pipeline.arrRef spec0 w) :=
  (W4_arr m ρ c w).symm
theorem hrest0 (c : Dev nD) : ∀ b, b ∉ Finset.univ.image (Pipeline.arrRef spec0) → X4 m ρ c b = X3 m ρ c b :=
  fun b hb => W4_of_ne m ρ c b fun w e => hb (Finset.mem_image.mpr ⟨w, Finset.mem_univ _, e⟩)

/-- After the fourth stretch (the gather of scaled rows and their scatter-add; the bias, scale and shift as rows): the second
    call's entry. -/
abbrev W5 : Dev nD → Valuation τ sig (Elt F) := fun c => StableHlo.after hostOps1 (W4 m ρ c)
abbrev X5 : (c : Dev nD) → (b : Ref sig .tc) → Buf (Elt F) ((c : Thread nD τ).loc b) := fun c b => W5 m ρ c b
/-- After call 1: its arrays at what the pipeline's write-backs leave (an input array as entered), every other buffer as
    entered. -/
def W6 (c : Dev nD) : Valuation τ sig (Elt F) :=
  Pipeline.withArrays spec1 c (W5 m ρ c) fun w => (dat1 (X5 m ρ) c).arrAt w cfg1.N
theorem W6_arr (c : Dev nD) (w : Fin cfg1.W) :
    W6 m ρ c (Proc.devRef .tc (Pipeline.arrRef spec1 w)) = (dat1 (X5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the core's references. -/
abbrev X6 : (c : Dev nD) → (b : Ref sig .tc) → Buf (Elt F) ((c : Thread nD τ).loc b) := fun c b => W6 m ρ c b
theorem hF1 (c : Dev nD) (w : Fin cfg1.W) : (dat1 (X5 m ρ) c).arrAt w cfg1.N = X6 m ρ c (Pipeline.arrRef spec1 w) :=
  (W6_arr m ρ c w).symm
theorem hrest1 (c : Dev nD) : ∀ b, b ∉ Finset.univ.image (Pipeline.arrRef spec1) → X6 m ρ c b = X5 m ρ c b :=
  fun b hb => W6_of_ne m ρ c b fun w e => hb (Finset.mem_image.mpr ⟨w, Finset.mem_univ _, e⟩)

/-- After call 2: its arrays at what the pipeline's write-backs leave (an input array as entered), every other buffer as
    entered. -/
def W7 (c : Dev nD) : Valuation τ sig (Elt F) :=
  Pipeline.withArrays spec2 c (W6 m ρ c) fun w => (dat2 (X6 m ρ) c).arrAt w cfg2.N
theorem W7_arr (c : Dev nD) (w : Fin cfg2.W) :
    W7 m ρ c (Proc.devRef .tc (Pipeline.arrRef spec2 w)) = (dat2 (X6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the core's references. -/
abbrev X7 : (c : Dev nD) → (b : Ref sig .tc) → Buf (Elt F) ((c : Thread nD τ).loc b) := fun c b => W7 m ρ c b
theorem hF2 (c : Dev nD) (w : Fin cfg2.W) : (dat2 (X6 m ρ) c).arrAt w cfg2.N = X7 m ρ c (Pipeline.arrRef spec2 w) :=
  (W7_arr m ρ c w).symm
theorem hrest2 (c : Dev nD) : ∀ b, b ∉ Finset.univ.image (Pipeline.arrRef spec2) → X7 m ρ c b = X6 m ρ c b :=
  fun b hb => W7_of_ne m ρ c b fun w e => hb (Finset.mem_image.mpr ⟨w, Finset.mem_univ _, e⟩)

/-! ## The argument arrays end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := (W4_arr m ρ c 0).trans (((dat0 (X3 m ρ) c).arrAt_in 0 rfl _).trans (A_eq0 (X3 m ρ) c 0))
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := (W4_arr m ρ c 1).trans (((dat0 (X3 m ρ) c).arrAt_in 1 rfl _).trans (A_eq0 (X3 m ρ) c 1))
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide : main_arg5 ∉ hostOps1_W)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the state between items -/

/-- Each pipeline's proof data at its call's entry contents. -/
def pdats : (p : Fin 3) → (c : Dev nD) → Dat τ (Elt F) Unit ℕ (UR sig nD τ) ℕ (Pipeline.pin (pcfgs (F := F)) adm p) c
  | ⟨0, _⟩ => fun c => dat0 (X3 m ρ) c
  | ⟨1, _⟩ => fun c => dat1 (X5 m ρ) c
  | ⟨2, _⟩ => fun c => dat2 (X6 m ρ) c
abbrev 𝒱₀ : Variants := Variants.none
/-- No core waits on another. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed. -/
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- Call 0 over the state "every buffer outside the pipelines' staging storage at `W3`, the generator register at
    some state, nothing owed": its arrays are split out of those buffers on entry and put back, at what the
    write-backs leave, on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (X3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (X3 m ρ c) (X4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the state "every buffer outside the pipelines' staging storage at `W5`, the generator register at
    some state, nothing owed": its arrays are split out of those buffers on entry and put back, at what the
    write-backs leave, on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (X5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((show Pipeline.ΦA spec1 c ⊢ (pdats m ρ 1 c).Φ 0 from hin1 (X5 m ρ) c)); unfold Pipeline.ΦA
    iintro ⟨Hp, -, Hr⟩
    isplitl [Hr]; · iexact Hr
    iexact Hp
  hout c := by
    rw [Pipeline.ownSems0_none]; refine .trans ((show (pdats m ρ 1 c).Φ (Fin.last _) ⊢ Pipeline.ΦA spec1 c from hout1 (X5 m ρ) c)) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (X5 m ρ c) (X6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the state "every buffer outside the pipelines' staging storage at `W6`, the generator register at
    some state, nothing owed": its arrays are split out of those buffers on entry and put back, at what the
    write-backs leave, on exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (X6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (X6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (X6 m ρ c) (X7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ) ]
/-- The entry function is the run of the segments. -/
theorem main_run (c : Dev nD) : main (F := F) c = Pipeline.Seg.run (segs m ρ) := (main_chain c).trans (by chain_rfl)

set_option backward.isDefEq.respectTransparency.types false in
/-- THE RUN: from any memory with zero counters every fair execution of the entry function terminates, nothing faulting,
    and every buffer outside the pipelines' staging storage ends at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every fair execution terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- The run with the result array named: it ends at what the third call's write-backs leave. -/
theorem run_result : θ_run defs (onTc (τ := τ) (main (F := F))) ⟨m, fun _ => 0, ρ⟩ (fun r => ∀ c : Dev nD,
      r.2.mem ((c.tc : Thread nD τ).loc main_v31) = (dat2 (X6 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v31 (by decide))).trans (W7_arr m ρ c 7),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.Kernel.HandRun

end
-- ==== Proof.KIRegion0.lean ====
/-
  The first call (the linear layer with the source-side scale), one core, a grid of ten points: at point `t` the body
  multiplies rows `5000·t … 5000·t + 4999` of `x` by the whole of `W` and scales row `r` of the product by entry `r` of the
  degree column; the result is rows `5000·t …` of the output. Here: the body run on its buffers, and the data the
  pipeline's launch theorem asks of a call whose body reads its input blocks and stores its output block whole.
  Everything is stated for any interpretation of the float operations.
-/
import proofs.«123185_j37778532336358_2_alg».proof.Proof.Gen.KernelIdeal.Launch
import proofs.«123185_j37778532336358_2_alg».proof.Proof.Gen.KernelIdeal.Skeleton
import proofs.«123185_j37778532336358_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the call is entered
variable (V : (c : Dev nD) → (b : Ref sig .tc) → Buf (Elt F) ((c : Thread nD τ).loc b))

/-- Window `w`'s block at grid point `t`: the rows `5000·t … 5000·t + 4999` of its array for a row-blocked window, the
    whole array for a window whose index map is constant. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body runs at point `t` the buffer of input window 0 holds that window's block at `t`, whether the block was
    moved there at `t` or at an earlier point with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- When the body runs at point `t` the buffer of input window 1 holds that window's block at `t`, whether the block was
    moved there at `t` or at an earlier point with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- When the body runs at point `t` the buffer of input window 2 holds that window's block at `t`, whether the block was
    moved there at `t` or at an earlier point with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of a `5000x256` buffer as one rectangle. -/
abbrev rect_S5000x256 : Rect S5000x256 := Rect.unit (s := S5000x256) ![0, 0] S5000x256.size inb_S5000x256_S5000x256_0_0
/-- The whole of a `256x128` buffer as one rectangle. -/
abbrev rect_S256x128 : Rect S256x128 := Rect.unit (s := S256x128) ![0, 0] S256x128.size inb_S256x128_S256x128_0_0
/-- The whole of a `5000x1` buffer as one rectangle. -/
abbrev rect_S5000x1 : Rect S5000x1 := Rect.unit (s := S5000x1) ![0, 0] S5000x1.size inb_S5000x1_S5000x1_0_0
/-- The whole of a `5000x128` buffer as one rectangle. -/
abbrev rect_S5000x128 : Rect S5000x128 := Rect.unit (s := S5000x128) ![0, 0] S5000x128.size inb_S5000x128_S5000x128_0_0

/-- What the body leaves in the output window's buffer, as a function of the input blocks: its one store, of the
    body's arithmetic `k0_pay1` of the loaded blocks, over the whole buffer. -/
def out0_3 (x0 : Vec F S5000x256 .f32) (x1 : Vec F S256x128 .f32) (x2 : Vec F S5000x1 .f32) : Vec F S5000x128 .f32 :=
  View.canon [⟨rect_S5000x128, k0_pay1 (View.ld x0 rect_S5000x256) (View.ld x1 rect_S256x128) (View.ld x2 rect_S5000x1)⟩]

/-- The one stored rectangle is the whole buffer. -/
theorem cover0_3 (p0 : Vec F S5000x128 .f32) (y : S5000x128.Idx) :
    ∃ pc ∈ ([⟨rect_S5000x128, p0⟩] : List (View.Piece (Elt F) S5000x128 .f32)), y ∈ pc.1.set :=
  View.cover_of_tiled [⟨rect_S5000x128, p0⟩] S5000x128.size (by rfl) y

set_option maxHeartbeats 4000000 in
/-- The body, run on whole buffers holding the input blocks `x0 …` and an output buffer holding anything, ends with
    the inputs' buffers as they were and the output's at `out0_3` of the inputs; it faults nowhere. -/
theorem sound_kernel0 (c : Dev nD) (E : Set ℕ) (i : grid0.Coords) (arg0 : Memref sig .tc .vmem S5000x256 .f32) (harg0 : arg0.IsWhole) (arg1 : Memref sig .tc .vmem S256x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x256 .f32) (x1 : Vec F S256x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_prescale_kernel i arg0 harg0 arg1 harg1 arg2 harg2 arg3 harg3) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this call on core `c`: its arrays as the call finds them; after the body at point `t` each
    input's buffer still at its block and the output's at `out0_3` of the blocks; nothing else of the core is touched,
    nothing is owed, every buffer is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; what the body does not name
    passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.KIRegion1.lean ====
/- REGION 1 (the batch-norm statistics call: a grid of ten points over row blocks of the aggregated features) — the
   ingredients of its half of the frame, stated at the buffer contents `V` the region is entered with:
   the windows' blocks (`iblk1`), the body's triple in its three control cases (first point: the two scratch
   accumulators are zeroed, then gain the block's column sums and column sums of squares; middle points: they gain
   the block's; last point: they gain the block's and the two outputs receive the mean and the variance), what the
   accumulators hold after each point as a recursion over the points (`acc1`), the invariant carried from point to
   point (`PhiS`: the accumulators owned at `acc1`'s values, every other scoped buffer unopened, the generator
   register), the proof data (`dat1`), the body obligation, and the invariant's entry and exit. Generic in the
   float interpretation. -/
import proofs.«123185_j37778532336358_2_alg».proof.Proof.Gen.KernelIdeal.Launch
import proofs.«123185_j37778532336358_2_alg».proof.Proof.Gen.KernelIdeal.Skeleton
import proofs.«123185_j37778532336358_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional's condition (is this the grid's first point?), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's condition (is this the grid's last point?). -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last point the two outputs are idle and not written back; at the last point they are live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## Whole-buffer loads and stores -/

/-- The zero offsets of a rank-two rectangle, as the program spells them. -/
theorem zeros2 : (![0, 0] : Fin 2 → ℕ) = fun _ => 0 := by funext a; fin_cases a <;> rfl

/-- A load of a whole memref held at the raw contents that read `X`, through the whole-shape rectangle at zero
    offsets, reads `X`. -/
theorem readAt_whole {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho]

/-- After a last store through the whole-shape rectangle the buffer reads as that store's payload, whatever it held
    and whatever was stored before. -/
theorem read_writes_whole {s : Shape} {e : EltTy} (v : View sig .tc .vmem s e) (f : v.ty.Contents (Elt F))
    {off : Fin s.rank → ℕ} (ho : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self .., View.mem_set_unit_zero ho inb y⟩),
    View.canon_cons_unit_zero ho]

/-- A load through the whole-shape rectangle after a last store through it reads that store's payload. -/
theorem readCov_whole {s : Shape} {e : EltTy} (v : View sig .tc .vmem s e)
    {off : Fin s.rank → ℕ} (ho : off = fun _ => 0) (inb : ∀ a, off a + s.size a ≤ s.size a)
    (w : s.Idx → Elt F e) (L : List (View.Piece (Elt F) s e)) :
    v.readCov ((⟨Rect.unit off s.size inb, w⟩ : View.Piece (Elt F) s e) :: L) (Rect.unit off s.size inb).toLoadRect = w := by
  rw [View.readCov_eq_canon_ld _ _ _ (fun y => ⟨_, List.mem_cons_self .., View.mem_set_unit_zero ho inb y⟩),
    View.canon_cons_unit_zero ho, View.ld_unit_zero ho]

/-! ## The body's triple, case by case -/

set_option maxHeartbeats 2000000 in
/-- AT THE FIRST POINT (first conditional taken, second not): on whole memrefs — the inputs' at `x0 x1 x2`, the two
    outputs' at contents handed back untouched, the two scratch accumulators at anything — the body zeroes the
    accumulators and adds this block's column sums and column sums of squares to them. -/
theorem kernel1_A (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : cond1_0 i) (hc1 : ¬cond1_1 i)
    (x0 : Vec F S5000x128 .f32) (x1 : Vec F S5000x1 .f32) (x2 xi3 xi4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k1_pay4 x0 x1 x2 (k1_pay1 (F := F)))
            ∗ owns (c : Thread nD τ) arg7 fullShare (k1_pay5 x0 x1 x2 (k1_pay2 (F := F)))) -∗ K ⟨⟩))
      ⊢ wp frame (wpE (defs₀ (F := F)) Variants.none c none) E (cc1__bn_stats_kernel i arg1 harg1 arg2 harg2 arg3 harg3 arg4 harg4 arg5 harg5 arg6 harg6 arg7 harg7) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_run_names)
    rw [read_writes_whole _ _ zeros2, readAt_whole harg1 x0 zeros2, readAt_whole harg2 x1 zeros2, readAt_whole harg3 x2 zeros2,
      readCov_whole _ zeros2]
  iexists _; isplitr
  swap; · iexact HS1
  ipureintro
  (try sl_unfold_run_names)
  rw [read_writes_whole _ _ zeros2, readAt_whole harg1 x0 zeros2, readAt_whole harg2 x1 zeros2, readAt_whole harg3 x2 zeros2,
    readCov_whole _ zeros2]

set_option maxHeartbeats 2000000 in
/-- AT A MIDDLE POINT (neither conditional taken): the accumulators, held at what the point before left (`xs0 xs1`),
    gain this block's column sums and column sums of squares; the outputs are handed back untouched. -/
theorem kernel1_B (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : ¬cond1_1 i)
    (x0 : Vec F S5000x128 .f32) (x1 : Vec F S5000x1 .f32) (x2 xi3 xi4 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k1_pay4 x0 x1 x2 xs0)
            ∗ owns (c : Thread nD τ) arg7 fullShare (k1_pay5 x0 x1 x2 xs1)) -∗ K ⟨⟩))
      ⊢ wp frame (wpE (defs₀ (F := F)) Variants.none c none) E (cc1__bn_stats_kernel i arg1 harg1 arg2 harg2 arg3 harg3 arg4 harg4 arg5 harg5 arg6 harg6 arg7 harg7) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    (try sl_unfold_run_names)
    rw [read_writes_whole _ _ zeros2, readAt_whole harg1 x0 zeros2, readAt_whole harg2 x1 zeros2, readAt_whole harg3 x2 zeros2,
      readAt_whole harg6 xs0 zeros2]
  iexists _; isplitr
  swap; · iexact HS1
  ipureintro
  (try sl_unfold_run_names)
  rw [read_writes_whole _ _ zeros2, readAt_whole harg1 x0 zeros2, readAt_whole harg2 x1 zeros2, readAt_whole harg3 x2 zeros2,
    readAt_whole harg7 xs1 zeros2]

set_option maxHeartbeats 2000000 in
/-- AT THE LAST POINT (first conditional not taken, second taken): the accumulators gain this block's sums, and the
    two outputs — held at anything — receive the mean and the variance computed from the accumulators. -/
theorem kernel1_C (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : cond1_1 i)
    (x0 : Vec F S5000x128 .f32) (x1 : Vec F S5000x1 .f32) (x2 xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k1_pay6 (k1_pay4 x0 x1 x2 xs0))
            ∗ owns (c : Thread nD τ) arg5 fullShare (k1_pay7 (k1_pay4 x0 x1 x2 xs0) (k1_pay5 x0 x1 x2 xs1))
            ∗ owns (c : Thread nD τ) arg6 fullShare (k1_pay4 x0 x1 x2 xs0)
            ∗ owns (c : Thread nD τ) arg7 fullShare (k1_pay5 x0 x1 x2 xs1)) -∗ K ⟨⟩))
      ⊢ wp frame (wpE (defs₀ (F := F)) Variants.none c none) E (cc1__bn_stats_kernel i arg1 harg1 arg2 harg2 arg3 harg3 arg4 harg4 arg5 harg5 arg6 harg6 arg7 harg7) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    (try sl_unfold_run_names)
    rw [read_writes_whole _ _ zeros2, readCov_whole _ zeros2, readAt_whole harg1 x0 zeros2, readAt_whole harg2 x1 zeros2, readAt_whole harg3 x2 zeros2,
      readAt_whole harg6 xs0 zeros2]
  isplitl [H4]
  · iexists _; isplitr
    swap; · iexact H4
    ipureintro
    (try sl_unfold_run_names)
    rw [read_writes_whole _ _ zeros2, readCov_whole _ zeros2, readCov_whole _ zeros2, readAt_whole harg1 x0 zeros2, readAt_whole harg2 x1 zeros2, readAt_whole harg3 x2 zeros2,
      readAt_whole harg6 xs0 zeros2, readAt_whole harg7 xs1 zeros2]
  isplitl [HS0]
  · iexists _; isplitr
    swap; · iexact HS0
    ipureintro
    (try sl_unfold_run_names)
    rw [read_writes_whole _ _ zeros2, readAt_whole harg1 x0 zeros2, readAt_whole harg2 x1 zeros2, readAt_whole harg3 x2 zeros2,
      readAt_whole harg6 xs0 zeros2]
  iexists _; isplitr
  swap; · iexact HS1
  ipureintro
  (try sl_unfold_run_names)
  rw [read_writes_whole _ _ zeros2, readAt_whole harg1 x0 zeros2, readAt_whole harg2 x1 zeros2, readAt_whole harg3 x2 zeros2,
    readAt_whole harg7 xs1 zeros2]

/-! ## The staging memrefs, the scratch operands, the invariant's shape -/

/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
/-- The two scratch accumulators (running column sums, running column sums of squares): whole scoped buffers passed
    beside the windows, carried from point to point. -/
abbrev scM0 : Memref sig .tc .vmem S1x128 .f32 := Memref.whole cc1_scratch0
abbrev scM1 : Memref sig .tc .vmem S1x128 .f32 := Memref.whole cc1_scratch1

/-- The core's scoped buffers that are neither a staging buffer of this pipeline nor one of its two accumulators
    (the other pipelines' staging buffers), each at some contents: carried through every point unopened. -/
abbrev rest1 (c : Dev nD) : sProp 𝕄 := Pipeline.scopedRestBut spec1 c [cc1_scratch0, cc1_scratch1]

/-- The class's region invariant, split at the two accumulators: each owned at some contents, the rest unopened, and
    the generator register at some state. -/
theorem PhiA1_eq (c : Dev nD) :
    (Pipeline.ΦA spec1 c : sProp 𝕄)
      = iprop((((∃ d, owns (c : Thread nD τ) scM0 fullShare d) ∗ (∃ d, owns (c : Thread nD τ) scM1 fullShare d)) ∗ rest1 c) ∗ (∃ r, prngReg c r)) := by
  unfold Pipeline.ΦA
  rw [Pipeline.scopedRest_split_of_list spec1 c [cc1_scratch0, cc1_scratch1] (by decide) (by decide)]
  simp only [scM0, scM1, owns_whole]; try rfl

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulators hold after each point -/

/-- THE ACCUMULATION. What the two scratch accumulators hold after the body at position `n`: at the first point the
    zeroed accumulators plus the first block's contribution, afterwards what the point before left plus this block's. -/
def acc1 (c : Dev nD) : (n : ℕ) → n < cfg1.N → Vec F S1x128 .f32 × Vec F S1x128 .f32
  | 0, hn => (k1_pay4 (iblk1 V c 0 ⟨0, hn⟩) (iblk1 V c 1 ⟨0, hn⟩) (iblk1 V c 2 ⟨0, hn⟩) (k1_pay1 (F := F)),
      k1_pay5 (iblk1 V c 0 ⟨0, hn⟩) (iblk1 V c 1 ⟨0, hn⟩) (iblk1 V c 2 ⟨0, hn⟩) (k1_pay2 (F := F)))
  | n + 1, hn => (k1_pay4 (iblk1 V c 0 ⟨n + 1, hn⟩) (iblk1 V c 1 ⟨n + 1, hn⟩) (iblk1 V c 2 ⟨n + 1, hn⟩) (acc1 c n (Nat.lt_of_succ_lt hn)).1,
      k1_pay5 (iblk1 V c 0 ⟨n + 1, hn⟩) (iblk1 V c 1 ⟨n + 1, hn⟩) (iblk1 V c 2 ⟨n + 1, hn⟩) (acc1 c n (Nat.lt_of_succ_lt hn)).2)

theorem acc1_zero (c : Dev nD) (hn : 0 < cfg1.N) :
    acc1 V c 0 hn = (k1_pay4 (iblk1 V c 0 ⟨0, hn⟩) (iblk1 V c 1 ⟨0, hn⟩) (iblk1 V c 2 ⟨0, hn⟩) (k1_pay1 (F := F)),
      k1_pay5 (iblk1 V c 0 ⟨0, hn⟩) (iblk1 V c 1 ⟨0, hn⟩) (iblk1 V c 2 ⟨0, hn⟩) (k1_pay2 (F := F))) := rfl

theorem acc1_succ (c : Dev nD) (n : ℕ) (hn : n + 1 < cfg1.N) :
    acc1 V c (n + 1) hn = (k1_pay4 (iblk1 V c 0 ⟨n + 1, hn⟩) (iblk1 V c 1 ⟨n + 1, hn⟩) (iblk1 V c 2 ⟨n + 1, hn⟩) (acc1 V c n (Nat.lt_of_succ_lt hn)).1,
      k1_pay5 (iblk1 V c 0 ⟨n + 1, hn⟩) (iblk1 V c 1 ⟨n + 1, hn⟩) (iblk1 V c 2 ⟨n + 1, hn⟩) (acc1 V c n (Nat.lt_of_succ_lt hn)).2) := rfl

/-- `acc1` at the first point, stated at a point. -/
theorem acc1_first (c : Dev nD) (t : Fin cfg1.N) (hz : t.val = 0) :
    acc1 V c t.val t.isLt = (k1_pay4 (iblk1 V c 0 t) (iblk1 V c 1 t) (iblk1 V c 2 t) (k1_pay1 (F := F)),
      k1_pay5 (iblk1 V c 0 t) (iblk1 V c 1 t) (iblk1 V c 2 t) (k1_pay2 (F := F))) := by
  obtain ⟨n, hn⟩ := t
  cases n with
  | zero => rfl
  | succ n => exact absurd hz (Nat.succ_ne_zero n)

/-- `acc1` at a later point, stated at a point: over what the point before left. -/
theorem acc1_pos (c : Dev nD) (t : Fin cfg1.N) (hz : t.val ≠ 0) :
    acc1 V c t.val t.isLt = (k1_pay4 (iblk1 V c 0 t) (iblk1 V c 1 t) (iblk1 V c 2 t) (acc1 V c (t.val - 1) (Nat.lt_of_le_of_lt (Nat.sub_le _ _) t.isLt)).1,
      k1_pay5 (iblk1 V c 0 t) (iblk1 V c 1 t) (iblk1 V c 2 t) (acc1 V c (t.val - 1) (Nat.lt_of_le_of_lt (Nat.sub_le _ _) t.isLt)).2) := by
  obtain ⟨n, hn⟩ := t
  cases n with
  | zero => exact absurd rfl hz
  | succ n => rfl

/-! ## The region invariant, point by point -/

/-- The invariant before position `n`: before the first point the class's (every scratch at anything); afterwards
    the two accumulators owned at what the point before left in them, the rest of the scoped buffers unopened, and the
    generator register at some state. -/
def PhiS (c : Dev nD) : (n : ℕ) → n ≤ cfg1.N → sProp 𝕄
  | 0, _ => Pipeline.ΦA spec1 c
  | n + 1, hn => iprop(((owns (c : Thread nD τ) scM0 fullShare (acc1 V c n hn).1 ∗ owns (c : Thread nD τ) scM1 fullShare (acc1 V c n hn).2) ∗ rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM0 fullShare (acc1 V c n hn).1 ∗ owns (c : Thread nD τ) scM1 fullShare (acc1 V c n hn).2) ∗ rest1 c) ∗ (∃ r, prngReg c r)) := rfl

theorem PhiS_pos (c : Dev nD) (n : ℕ) (h : n ≤ cfg1.N) (hz : n ≠ 0) :
    PhiS V c n h = iprop(((owns (c : Thread nD τ) scM0 fullShare (acc1 V c (n - 1) (by omega)).1 ∗ owns (c : Thread nD τ) scM1 fullShare (acc1 V c (n - 1) (by omega)).2) ∗ rest1 c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the two outputs' at the mean and the variance computed from the accumulators
    as they stand after that point (consulted at the last point only: elsewhere the outputs are idle); the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (acc1 V c t.val t.isLt).1
    | ⟨4, _⟩ => k1_pay7 (acc1 V c t.val t.isLt).1 (acc1 V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) : (dat1 V c).after 3 t = k1_pay6 (acc1 V c t.val t.isLt).1 := by dsimp only [dat1]
theorem after1_4' (c : Dev nD) (t : Fin cfg1.N) : (dat1 V c).after 4 t = k1_pay7 (acc1 V c t.val t.isLt).1 (acc1 V c t.val t.isLt).2 := by dsimp only [dat1]
/-- At the last point: the mean and the variance of the whole accumulation. -/
theorem after1_3 (c : Dev nD) (h9 : 9 < cfg1.N) : (dat1 V c).after 3 ⟨9, h9⟩ = k1_pay6 (acc1 V c 9 h9).1 := by dsimp only [dat1]
theorem after1_4 (c : Dev nD) (h9 : 9 < cfg1.N) : (dat1 V c).after 4 ⟨9, h9⟩ = k1_pay7 (acc1 V c 9 h9).1 (acc1 V c 9 h9).2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point is the first, a middle one or the last,
    and that case's triple applies; the invariant hands the body the two accumulators at what the point before left
    (at anything at the first point) and takes them back at this point's contents; the rest of the scoped buffers, the
    generator register and the core's debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt (show cfg1.N = 10 from N_1)
  by_cases h0 : t.val = 0
  · -- the first point
    have h9 : ¬t.val = 9 := by omega
    have hc0 : cond1_0 (grid1.coords t) := (hcond1_0 t).mpr h0
    have hc1 : ¬cond1_1 (grid1.coords t) := fun h => h9 ((hcond1_1 t).mp h)
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t hc1) (noFlush1_3 t hc1)]
    rw [Dat.leavesExact_idle (dat1 V c) 4 t (idleAt1_4 t hc1) (noFlush1_4 t hc1)]
    rw [acc1_first V c t h0]
    rw [PhiS_castSucc V c t, PhiS_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (kernel1_A c Set.univ (grid1.coords t) _ _ _ _ _ _ _ _ _ _ _ _ _ _ hc0 hc1 (iblk1 V c 0 t) (iblk1 V c 1 t) (iblk1 V c 2 t) _ _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · by_cases h9 : t.val = 9
    · -- the last point
      have hc0 : ¬cond1_0 (grid1.coords t) := fun h => h0 ((hcond1_0 t).mp h)
      have hc1 : cond1_1 (grid1.coords t) := (hcond1_1 t).mpr h9
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t hc1], after1_3']
      rw [show (dat1 V c).leavesExact 4 t = owns (c : Thread nD τ) (ms1_4 t) fullShare ((dat1 V c).after 4 t) from by
        unfold Dat.leavesExact; rw [liveAt1_4 t hc1], after1_4']
      rw [acc1_pos V c t h0]
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel1_C c Set.univ (grid1.coords t) _ _ _ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · -- a middle point
      have hc0 : ¬cond1_0 (grid1.coords t) := fun h => h0 ((hcond1_0 t).mp h)
      have hc1 : ¬cond1_1 (grid1.coords t) := fun h => h9 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [Dat.leavesExact_idle (dat1 V c) 4 t (idleAt1_4 t hc1) (noFlush1_4 t hc1)]
      rw [acc1_pos V c t h0]
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel1_B c Set.univ (grid1.coords t) _ _ _ _ _ _ _ _ _ _ _ _ _ _ hc0 hc1 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Region

end Cert.KernelIdeal.Hand1

end
-- ==== Proof.KIRegion2.lean ====
/-
  The third call (normalise, scale, shift, clamp at zero), one core, a grid of ten points: at point `t` the body takes rows
  `5000·t … 5000·t + 4999` of the aggregated array and of the degree column, and the whole rows `b`, mean, variance, `γ`, `β`,
  and stores `max (γ · ((a · d + b) − mean) · rsqrt (variance + ε) + β) 0` as rows `5000·t …` of the output. Here: the body
  run on its buffers, and the data the pipeline's launch theorem asks of a call whose body reads its input blocks and
  stores its output block whole. Everything is stated for any interpretation of the float operations.
-/
import proofs.«123185_j37778532336358_2_alg».proof.Proof.Gen.KernelIdeal.Launch
import proofs.«123185_j37778532336358_2_alg».proof.Proof.Gen.KernelIdeal.Skeleton
import proofs.«123185_j37778532336358_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the call is entered
variable (V : (c : Dev nD) → (b : Ref sig .tc) → Buf (Elt F) ((c : Thread nD τ).loc b))

/-- Window `w`'s block at grid point `t`: the rows `5000·t … 5000·t + 4999` of its array for a row-blocked window, the
    whole array for a window whose index map is constant. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- When the body runs at point `t` the buffer of input window 0 holds that window's block at `t`, whether the block was
    moved there at `t` or at an earlier point with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 1 holds that window's block at `t`, whether the block was
    moved there at `t` or at an earlier point with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 2 holds that window's block at `t`, whether the block was
    moved there at `t` or at an earlier point with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 3 holds that window's block at `t`, whether the block was
    moved there at `t` or at an earlier point with the same block index. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 4 holds that window's block at `t`, whether the block was
    moved there at `t` or at an earlier point with the same block index. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 5 holds that window's block at `t`, whether the block was
    moved there at `t` or at an earlier point with the same block index. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- When the body runs at point `t` the buffer of input window 6 holds that window's block at `t`, whether the block was
    moved there at `t` or at an earlier point with the same block index. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The whole of a `5000x128` buffer as one rectangle. -/
abbrev rect_S5000x128 : Rect S5000x128 := Rect.unit (s := S5000x128) ![0, 0] S5000x128.size inb_S5000x128_S5000x128_0_0
/-- The whole of a `5000x1` buffer as one rectangle. -/
abbrev rect_S5000x1 : Rect S5000x1 := Rect.unit (s := S5000x1) ![0, 0] S5000x1.size inb_S5000x1_S5000x1_0_0
/-- The whole of a `1x128` buffer as one rectangle. -/
abbrev rect_S1x128 : Rect S1x128 := Rect.unit (s := S1x128) ![0, 0] S1x128.size inb_S1x128_S1x128_0_0

/-- What the body leaves in the output window's buffer, as a function of the input blocks: its one store, of the
    body's arithmetic `k2_pay1` of the loaded blocks, over the whole buffer. -/
def out2_7 (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) : Vec F S5000x128 .f32 :=
  View.canon [⟨rect_S5000x128, k2_pay1 (View.ld x0 rect_S5000x128) (View.ld x1 rect_S5000x1) (View.ld x2 rect_S1x128) (View.ld x4 rect_S1x128) (View.ld x5 rect_S1x128) (View.ld x3 rect_S1x128) (View.ld x6 rect_S1x128)⟩]

/-- The one stored rectangle is the whole buffer. -/
theorem cover2_7 (p0 : Vec F S5000x128 .f32) (y : S5000x128.Idx) :
    ∃ pc ∈ ([⟨rect_S5000x128, p0⟩] : List (View.Piece (Elt F) S5000x128 .f32)), y ∈ pc.1.set :=
  View.cover_of_tiled [⟨rect_S5000x128, p0⟩] S5000x128.size (by rfl) y

set_option maxHeartbeats 4000000 in
/-- The body, run on whole buffers holding the input blocks `x0 …` and an output buffer holding anything, ends with
    the inputs' buffers as they were and the output's at `out2_7` of the inputs; it faults nowhere. -/
theorem sound_kernel2 (c : Dev nD) (E : Set ℕ) (i : grid2.Coords) (arg0 : Memref sig .tc .vmem S5000x128 .f32) (harg0 : arg0.IsWhole) (arg1 : Memref sig .tc .vmem S5000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__bn_apply_kernel i arg0 harg0 arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The proof data of this call on core `c`: its arrays as the call finds them; after the body at point `t` each
    input's buffer still at its block and the output's at `out2_7` of the blocks; nothing else of the core is touched,
    nothing is owed, every buffer is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the input buffers hold their blocks, so `sound_kernel2` applies; what the body does not name
    passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand2

end
-- ==== Proof.KIRun.lean ====
/-
  The whole program's run. Its entry function is three stretches of host operations, the first call, a fourth stretch,
  the second call, the third call. Here: the contents of every buffer at each boundary between two of these items, as a
  fold from the launch memory (a stretch applies its operations; a call leaves its arrays at what its pipeline's
  write-backs leave and every other buffer as it found it); each call as a segment over the state "every buffer outside
  the pipelines' staging storage at the boundary's contents"; and the run: every fair execution from a memory with zero
  counters terminates, faults nowhere, and ends with every such buffer at the last boundary's contents. The argument
  arrays are written by no item, so they end as launched. Everything is stated for any interpretation of the float
  operations.
-/
import proofs.«123185_j37778532336358_2_alg».proof.Proof.KIRegion0
import proofs.«123185_j37778532336358_2_alg».proof.Proof.KIRegion1
import proofs.«123185_j37778532336358_2_alg».proof.Proof.KIRegion2
import proofs.«123185_j37778532336358_2_alg».proof.Proof.Gen.KernelIdeal.Regions

set_option maxRecDepth 16384

noncomputable section

namespace Cert.KernelIdeal.HandRun

open Cert.KernelIdeal.Hand0 Cert.KernelIdeal.Hand1 Cert.KernelIdeal.Hand2
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- At launch. -/
abbrev W0 : Dev nD → Valuation τ sig (Elt F) := fun c b => (s₀ m ρ).mem ((c : Dev nD), b)
/-- After the first stretch (edge lists, degrees, their inverse square roots' inputs). -/
abbrev W1 : Dev nD → Valuation τ sig (Elt F) := fun c => StableHlo.after hostOps0 (W0 m ρ c)
/-- After the second stretch (the select of the inverse square root where the degree is positive). -/
abbrev W2 : Dev nD → Valuation τ sig (Elt F) := fun c => StableHlo.after hostOps0_1 (W1 m ρ c)
/-- After the third stretch (the degree scale as a column): the first call's entry. -/
abbrev W3 : Dev nD → Valuation τ sig (Elt F) := fun c => StableHlo.after hostOps0_2 (W2 m ρ c)
abbrev X3 : (c : Dev nD) → (b : Ref sig .tc) → Buf (Elt F) ((c : Thread nD τ).loc b) := fun c b => W3 m ρ c b
/-- After call 0: its arrays at what the pipeline's write-backs leave (an input array as entered), every other buffer as
    entered. -/
def W4 (c : Dev nD) : Valuation τ sig (Elt F) :=
  Pipeline.withArrays spec0 c (W3 m ρ c) fun w => (dat0 (X3 m ρ) c).arrAt w cfg0.N
theorem W4_arr (c : Dev nD) (w : Fin cfg0.W) :
    W4 m ρ c (Proc.devRef .tc (Pipeline.arrRef spec0 w)) = (dat0 (X3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's references. -/
abbrev X4 : (c : Dev nD) → (b : Ref sig .tc) → Buf (Elt F) ((c : Thread nD τ).loc b) := fun c b => W4 m ρ c b
theorem hF0 (c : Dev nD) (w : Fin cfg0.W) : (dat0 (X3 m ρ) c).arrAt w cfg0.N = X4 m ρ c (Pipeline.arrRef spec0 w) :=
  (W4_arr m ρ c w).symm
theorem hrest0 (c : Dev nD) : ∀ b, b ∉ Finset.univ.image (Pipeline.arrRef spec0) → X4 m ρ c b = X3 m ρ c b :=
  fun b hb => W4_of_ne m ρ c b fun w e => hb (Finset.mem_image.mpr ⟨w, Finset.mem_univ _, e⟩)

/-- After the fourth stretch (the gather of scaled rows and their scatter-add; the bias, scale and shift as rows): the second
    call's entry. -/
abbrev W5 : Dev nD → Valuation τ sig (Elt F) := fun c => StableHlo.after hostOps1 (W4 m ρ c)
abbrev X5 : (c : Dev nD) → (b : Ref sig .tc) → Buf (Elt F) ((c : Thread nD τ).loc b) := fun c b => W5 m ρ c b
/-- After call 1: its arrays at what the pipeline's write-backs leave (an input array as entered), every other buffer as
    entered. -/
def W6 (c : Dev nD) : Valuation τ sig (Elt F) :=
  Pipeline.withArrays spec1 c (W5 m ρ c) fun w => (dat1 (X5 m ρ) c).arrAt w cfg1.N
theorem W6_arr (c : Dev nD) (w : Fin cfg1.W) :
    W6 m ρ c (Proc.devRef .tc (Pipeline.arrRef spec1 w)) = (dat1 (X5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the core's references. -/
abbrev X6 : (c : Dev nD) → (b : Ref sig .tc) → Buf (Elt F) ((c : Thread nD τ).loc b) := fun c b => W6 m ρ c b
theorem hF1 (c : Dev nD) (w : Fin cfg1.W) : (dat1 (X5 m ρ) c).arrAt w cfg1.N = X6 m ρ c (Pipeline.arrRef spec1 w) :=
  (W6_arr m ρ c w).symm
theorem hrest1 (c : Dev nD) : ∀ b, b ∉ Finset.univ.image (Pipeline.arrRef spec1) → X6 m ρ c b = X5 m ρ c b :=
  fun b hb => W6_of_ne m ρ c b fun w e => hb (Finset.mem_image.mpr ⟨w, Finset.mem_univ _, e⟩)

/-- After call 2: its arrays at what the pipeline's write-backs leave (an input array as entered), every other buffer as
    entered. -/
def W7 (c : Dev nD) : Valuation τ sig (Elt F) :=
  Pipeline.withArrays spec2 c (W6 m ρ c) fun w => (dat2 (X6 m ρ) c).arrAt w cfg2.N
theorem W7_arr (c : Dev nD) (w : Fin cfg2.W) :
    W7 m ρ c (Proc.devRef .tc (Pipeline.arrRef spec2 w)) = (dat2 (X6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the core's references. -/
abbrev X7 : (c : Dev nD) → (b : Ref sig .tc) → Buf (Elt F) ((c : Thread nD τ).loc b) := fun c b => W7 m ρ c b
theorem hF2 (c : Dev nD) (w : Fin cfg2.W) : (dat2 (X6 m ρ) c).arrAt w cfg2.N = X7 m ρ c (Pipeline.arrRef spec2 w) :=
  (W7_arr m ρ c w).symm
theorem hrest2 (c : Dev nD) : ∀ b, b ∉ Finset.univ.image (Pipeline.arrRef spec2) → X7 m ρ c b = X6 m ρ c b :=
  fun b hb => W7_of_ne m ρ c b fun w e => hb (Finset.mem_image.mpr ⟨w, Finset.mem_univ _, e⟩)

/-! ## The argument arrays end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := (W4_arr m ρ c 0).trans (((dat0 (X3 m ρ) c).arrAt_in 0 rfl _).trans (A_eq0 (X3 m ρ) c 0))
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := (W4_arr m ρ c 1).trans (((dat0 (X3 m ρ) c).arrAt_in 1 rfl _).trans (A_eq0 (X3 m ρ) c 1))
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide : main_arg5 ∉ hostOps1_W)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the state between items -/

/-- Each pipeline's proof data at its call's entry contents. -/
def pdats : (p : Fin 3) → (c : Dev nD) → Dat τ (Elt F) Unit ℕ (UR sig nD τ) ℕ (Pipeline.pin (pcfgs (F := F)) adm p) c
  | ⟨0, _⟩ => fun c => dat0 (X3 m ρ) c
  | ⟨1, _⟩ => fun c => dat1 (X5 m ρ) c
  | ⟨2, _⟩ => fun c => dat2 (X6 m ρ) c
abbrev 𝒱₀ : Variants := Variants.none
/-- No core waits on another. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed. -/
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- Call 0 over the state "every buffer outside the pipelines' staging storage at `W3`, the generator register at
    some state, nothing owed": its arrays are split out of those buffers on entry and put back, at what the
    write-backs leave, on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (X3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (X3 m ρ c) (X4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the state "every buffer outside the pipelines' staging storage at `W5`, the generator register at
    some state, nothing owed": its arrays are split out of those buffers on entry and put back, at what the
    write-backs leave, on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (X5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((show Pipeline.ΦA spec1 c ⊢ (pdats m ρ 1 c).Φ 0 from hin1 (X5 m ρ) c)); unfold Pipeline.ΦA
    iintro ⟨Hp, -, Hr⟩
    isplitl [Hr]; · iexact Hr
    iexact Hp
  hout c := by
    rw [Pipeline.ownSems0_none]; refine .trans ((show (pdats m ρ 1 c).Φ (Fin.last _) ⊢ Pipeline.ΦA spec1 c from hout1 (X5 m ρ) c)) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (X5 m ρ c) (X6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the state "every buffer outside the pipelines' staging storage at `W6`, the generator register at
    some state, nothing owed": its arrays are split out of those buffers on entry and put back, at what the
    write-backs leave, on exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (X6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (X6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (X6 m ρ c) (X7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ) ]
/-- The entry function is the run of the segments. -/
theorem main_run (c : Dev nD) : main (F := F) c = Pipeline.Seg.run (segs m ρ) := (main_chain c).trans (by chain_rfl)

set_option backward.isDefEq.respectTransparency.types false in
/-- THE RUN: from any memory with zero counters every fair execution of the entry function terminates, nothing faulting,
    and every buffer outside the pipelines' staging storage ends at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every fair execution terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- The run with the result array named: it ends at what the third call's write-backs leave. -/
theorem run_result : θ_run defs (onTc (τ := τ) (main (F := F))) ⟨m, fun _ => 0, ρ⟩ (fun r => ∀ c : Dev nD,
      r.2.mem ((c.tc : Thread nD τ).loc main_v31) = (dat2 (X6 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v31 (by decide))).trans (W7_arr m ρ c 7),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.HandRun

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.KIHost.lean ====
/-
  The idealized kernel program's buffers between its items, read at an index (the float operations exact, on the
  extended reals).

  * Which buffers an item leaves alone: a call changes only its output arrays, a stretch of host operations only the
    buffers its operations write; so the degree column, the bias / scale / shift rows and the aggregated array reach
    the later calls as the earlier items left them.
  * The fourth stretch: row `n` of the aggregated array is the sum, over the edges `e` whose target index is `n`, of row
    `s(e)` of the first call's output, `s(e)` the edge's source index made non-negative and cut into the table.
  * The small re-layouts: a column `[50000, 1]` of a vector `[50000]`, a row `[1, 128]` of a vector `[128]`.
-/
import proofs.«123185_j37778532336358_2_alg».proof.Proof.KIRun
import proofs.«123185_j37778532336358_2_alg».proof.Proof.LibRowScatter
import proofs.«123185_j37778532336358_2_alg».proof.Proof.LibAfter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandHost

open Cert.KernelIdeal Cert.KernelIdeal.Gen Cert.KernelIdeal.Hand0 Cert.KernelIdeal.Hand1 Cert.KernelIdeal.Hand2 Cert.KernelIdeal.HandRun
open Idealize.ShloMosaic Idealize.ShloMosaic.TcCoe Idealize.ShloMosaic.ValueIdx Idealize.SL.Sem
open Idealize.ShloMosaic.Pipeline (Dat)
open Cert.Lib.RowScatter

variable (m : (ℓ : Loc nD τ sig) → Buf (Elt Ideal) ℓ) (ρ : Dev nD → PrngReg)

/-! ## What each item leaves alone -/

theorem X6_v26 (c : Dev nD) : X6 m ρ c main_v26 = X5 m ρ c main_v26 :=
  (W6_arr m ρ c 0).trans (((dat1 (X5 m ρ) c).arrAt_in 0 rfl _).trans (A_eq1 (X5 m ρ) c 0))
theorem X6_v15 (c : Dev nD) : X6 m ρ c main_v15 = X5 m ρ c main_v15 :=
  (W6_arr m ρ c 1).trans (((dat1 (X5 m ρ) c).arrAt_in 1 rfl _).trans (A_eq1 (X5 m ρ) c 1))
theorem X6_v27 (c : Dev nD) : X6 m ρ c main_v27 = X5 m ρ c main_v27 :=
  (W6_arr m ρ c 2).trans (((dat1 (X5 m ρ) c).arrAt_in 2 rfl _).trans (A_eq1 (X5 m ρ) c 2))
theorem X6_v28 (c : Dev nD) : X6 m ρ c main_v28 = X5 m ρ c main_v28 := W6_of_ne m ρ c main_v28 (by decide)
theorem X6_v29 (c : Dev nD) : X6 m ρ c main_v29 = X5 m ρ c main_v29 := W6_of_ne m ρ c main_v29 (by decide)
theorem X6_v30_0 (c : Dev nD) : X6 m ρ c main_v30_0 = (dat1 (X5 m ρ) c).arrAt 3 cfg1.N := W6_arr m ρ c 3
theorem X6_v30_1 (c : Dev nD) : X6 m ρ c main_v30_1 = (dat1 (X5 m ρ) c).arrAt 4 cfg1.N := W6_arr m ρ c 4
theorem X5_v15 (c : Dev nD) : X5 m ρ c main_v15 = X4 m ρ c main_v15 :=
  StableHlo.after_of_writes_sub hostOps1 _ hostOps1_writes (by decide : main_v15 ∉ hostOps1_W)
theorem X4_v15 (c : Dev nD) : X4 m ρ c main_v15 = X3 m ρ c main_v15 :=
  (W4_arr m ρ c 2).trans (((dat0 (X3 m ρ) c).arrAt_in 2 rfl _).trans (A_eq0 (X3 m ρ) c 2))
theorem X4_v16 (c : Dev nD) : X4 m ρ c main_v16 = (dat0 (X3 m ρ) c).arrAt 3 cfg0.N := W4_arr m ρ c 3
/-- A buffer the first call does not name reaches the fourth stretch as the first three stretches left it. -/
theorem X4_of_ne (c : Dev nD) (b : Ref sig .tc) (hb : ∀ w, Pipeline.arrRef spec0 w ≠ b) : X4 m ρ c b = X3 m ρ c b := W4_of_ne m ρ c b hb
/-- An argument array reaches the first call as launched. -/
theorem X3_of_arg (c : Dev nD) (b : Ref sig .tc) (h0 : b ∉ hostOps0_W) (h1 : b ∉ hostOps0_1_W) (h2 : b ∉ hostOps0_2_W) :
    X3 m ρ c b = m ((c : Thread nD τ).loc b) :=
  (StableHlo.after_of_writes_sub hostOps0_2 _ hostOps0_2_writes h2).trans
    ((StableHlo.after_of_writes_sub hostOps0_1 _ hostOps0_1_writes h1).trans
      ((StableHlo.after_of_writes_sub hostOps0 _ hostOps0_writes h0).trans rfl))

/-! ## The small re-layouts -/

/-- The degree column, as the first call finds it, is the vector the second stretch left in `main_v14`, one entry per row. -/
theorem X3_v15_apply (c : Dev nD) (D : S50000x1.Idx → EReal) (d : S50000.Idx → EReal)
    (hD : D = X3 m ρ c main_v15) (hd : d = W2 m ρ c (Proc.devRef .tc main_v14)) (n : Fin 50000) :
    D (ix2 n (0 : Fin 1)) = d (ix1 n) := by
  subst hD hd
  show StableHlo.after hostOps0_2 (W2 m ρ c) (Proc.devRef .tc main_v15) (ix2 n (0 : Fin 1)) = W2 m ρ c (Proc.devRef .tc main_v14) (ix1 n)
  generalize W2 m ρ c = Wv
  read_fold
  exact shapeCast_apply _ _ _ _ (by
    show (S50000.rowMajor (ix1 n)).val = (S50000x1.rowMajor (ix2 n (0 : Fin 1))).val
    rw [Shape.rowMajor_val_one, Shape.rowMajor_val_two]
    show n.val = n.val * 1 + (0 : Fin 1).val
    simp)

/-- A `[128]` argument vector re-laid as a `[1, 128]` row by the fourth stretch: entry `(0, j)` is entry `j`. -/
theorem X5_row_apply (c : Dev nD) (a : Ref sig .tc) (r : Ref sig .tc) (B : S1x128.Idx → EReal) (b : S128.Idx → EReal)
    (hr : (a = main_arg3 ∧ r = main_v27) ∨ (a = main_arg4 ∧ r = main_v28) ∨ (a = main_arg5 ∧ r = main_v29))
    (hB : HEq B (X5 m ρ c r)) (hb : HEq b (m ((c : Thread nD τ).loc a))) (j : Fin 128) :
    B (ix2 (0 : Fin 1) j) = b (ix1 j) := by
  have key : ∀ (Wv : Valuation τ sig (Elt Ideal)),
      (StableHlo.after hostOps1 Wv (Proc.devRef .tc main_v27) : S1x128.Idx → EReal) (ix2 (0 : Fin 1) j) = (Wv (Proc.devRef .tc main_arg3) : S128.Idx → EReal) (ix1 j)
      ∧ (StableHlo.after hostOps1 Wv (Proc.devRef .tc main_v28) : S1x128.Idx → EReal) (ix2 (0 : Fin 1) j) = (Wv (Proc.devRef .tc main_arg4) : S128.Idx → EReal) (ix1 j)
      ∧ (StableHlo.after hostOps1 Wv (Proc.devRef .tc main_v29) : S1x128.Idx → EReal) (ix2 (0 : Fin 1) j) = (Wv (Proc.devRef .tc main_arg5) : S128.Idx → EReal) (ix1 j) := by
    intro Wv
    refine ⟨?_, ?_, ?_⟩ <;> (read_fold; exact shapeCast_a_1a_apply _ _ _ _)
  have hW4 : ∀ b : Ref sig .tc, b ∉ hostOps0_W → b ∉ hostOps0_1_W → b ∉ hostOps0_2_W → (∀ w, Pipeline.arrRef spec0 w ≠ b) →
      W4 m ρ c (Proc.devRef .tc b) = m ((c : Thread nD τ).loc b) := fun b h0 h1 h2 hne =>
    (X4_of_ne m ρ c b hne).trans (X3_of_arg m ρ c b h0 h1 h2)
  rcases hr with ⟨rfl, rfl⟩ | ⟨rfl, rfl⟩ | ⟨rfl, rfl⟩
  · obtain rfl := eq_of_heq hB; obtain rfl := eq_of_heq hb
    exact ((key (W4 m ρ c)).1).trans (by rw [hW4 main_arg3 (by decide) (by decide) (by decide) (by decide)])
  · obtain rfl := eq_of_heq hB; obtain rfl := eq_of_heq hb
    exact ((key (W4 m ρ c)).2.1).trans (by rw [hW4 main_arg4 (by decide) (by decide) (by decide) (by decide)])
  · obtain rfl := eq_of_heq hB; obtain rfl := eq_of_heq hb
    exact ((key (W4 m ρ c)).2.2).trans (by rw [hW4 main_arg5 (by decide) (by decide) (by decide) (by decide)])

/-! ## The fourth stretch: the gather of scaled rows and their scatter-add -/

/-- Row `n` of the aggregated array: the sum over the edges whose raw target index is `n` of the row of the first call's
    output at the edge's source index (made non-negative, then cut into the table). -/
theorem X5_v26_apply (c : Dev nD) (A : S50000x128.Idx → EReal) (Hs : S50000x128.Idx → EReal) (rowW colR : IVec S650000x1 32)
    (hA : A = X5 m ρ c main_v26) (hHs : Hs = X4 m ρ c main_v16) (hrow : rowW = X5 m ρ c main_v22) (hcol : colR = X5 m ρ c main_v25)
    (n : Fin 50000) (j : Fin 128) :
    A (ix2 n j) = ∑ e ∈ landsOn colR 50000 n, Hs (ix2 (gatherRow 50000 (by decide) rowW e) j) := by
  have key : ∀ (Wv : Valuation τ sig (Elt Ideal)) (A Hs : S50000x128.Idx → EReal) (rowW colR : IVec S650000x1 32),
      A = StableHlo.after hostOps1 Wv (Proc.devRef .tc main_v26) → Hs = Wv (Proc.devRef .tc main_v16) →
      rowW = StableHlo.after hostOps1 Wv (Proc.devRef .tc main_v22) → colR = StableHlo.after hostOps1 Wv (Proc.devRef .tc main_v25) →
      A (ix2 n j) = ∑ e ∈ landsOn colR 50000 n, Hs (ix2 (gatherRow 50000 (by decide) rowW e) j) := by
    intro Wv A Hs rowW colR hA hHs hrow hcol
    subst hA hHs hrow hcol
    read_fold
    refine (scatterAdd_rows_apply (N := 50000) (M := 650000) (C := 128) _ _ _ _ n j).trans ?_
    rw [show (broadcastInDim S50000x128 ![] bcast_S_S50000x128 (constant (F := Ideal) S_ .f32 0x00000000#32) : S50000x128.Idx → EReal) (ix2 n j) = 0 from Ideal.ofBits_zero_f32,
      zero_add]
    exact Finset.sum_congr rfl (fun e _ => gather_rows_apply (by decide) _ _ _ e j)
  exact key (W4 m ρ c) A Hs rowW colR hA hHs hrow hcol

end Cert.KernelIdeal.HandHost

end
-- ==== Proof.KIShared.lean ====
/-
  Both programs begin with the same host operations on the edge list: the source and target index columns (the two rows
  of the edge list with the self-loops appended), and the source column made non-negative for the gathers. Here: what the idealized kernel
  program holds in those buffers IS, term for term, what the reference's stages compute from the same edge list; and
  the first call's matrix product, entry by entry, is the reference's `dot_general`.
-/
import proofs.«123185_j37778532336358_2_alg».proof.Proof.KIHost
import proofs.«123185_j37778532336358_2_alg».proof.Proof.RefReadP

set_option maxRecDepth 16384

noncomputable section

namespace Cert.KernelIdeal.HandShared

open Cert.KernelIdeal Cert.KernelIdeal.Gen Cert.KernelIdeal.HandRun Cert.KernelIdeal.HandHost
open Idealize.ShloMosaic Idealize.ShloMosaic.TcCoe Idealize.ShloMosaic.ValueIdx Idealize.SL.Sem
open Cert.ReferenceIdeal.ReadP

variable (m : (ℓ : Loc nD τ sig) → Buf (Elt Ideal) ℓ) (ρ : Dev nD → PrngReg)

/-- The edge list as launched. -/
abbrev ei (c : Dev nD) : (⟨Cert.ReferenceIdeal.S2x600000, .i32⟩ : BufTy).Contents (Elt Ideal) := m ((c : Thread nD τ).loc main_arg1)

/-- The source index column (edge sources, then the self-loops), as the fourth stretch finds it. -/
theorem W4_v3 (c : Dev nD) : W4 m ρ c (Proc.devRef .tc main_v3) = val_main_v4 (F := Ideal) (ei m c) := by
  refine (X4_of_ne m ρ c main_v3 (by decide)).trans ?_
  show StableHlo.after hostOps0_2 (StableHlo.after hostOps0_1 (StableHlo.after hostOps0 (W0 m ρ c))) (Proc.devRef .tc main_v3) = _
  read_fold
  rfl

/-- The target index column, as the fourth stretch finds it. -/
theorem W4_v6 (c : Dev nD) : W4 m ρ c (Proc.devRef .tc main_v6) = val_main_v7 (F := Ideal) (ei m c) := by
  refine (X4_of_ne m ρ c main_v6 (by decide)).trans ?_
  show StableHlo.after hostOps0_2 (StableHlo.after hostOps0_1 (StableHlo.after hostOps0 (W0 m ρ c))) (Proc.devRef .tc main_v6) = _
  read_fold
  rfl

/-- The source column made non-negative, as a `[650000, 1]` column: what the kernel program's gather reads. -/
theorem row_shared (c : Dev nD) : X5 m ρ c main_v22 = val_main_v36 (F := Ideal) (ei m c) := by
  show StableHlo.after hostOps1 (W4 m ρ c) (Proc.devRef .tc main_v22) = _
  read_fold
  rw [W4_v3 m ρ c]
  rfl

/-- The raw target column as a `[650000, 1]` column: what the kernel program's scatter-add reads. -/
theorem col_shared (c : Dev nD) : X5 m ρ c main_v25 = val_main_v42 (F := Ideal) (ei m c) := by
  show StableHlo.after hostOps1 (W4 m ρ c) (Proc.devRef .tc main_v25) = _
  read_fold
  rw [W4_v6 m ρ c]
  rfl

end Cert.KernelIdeal.HandShared

end
-- ==== Proof.KIDis.lean ====
/-
  The inverse square roots of the degrees are one function of the edge list in both programs.

  The idealized kernel program computes them by the same host operations as the reference: the degrees by a scatter-add
  of ones at the target column into zeros, the comparison of the degrees with zero, their inverse square roots, and a
  select between the inverse square root and zero. The select sits in an outlined function, whose operations move their
  operands and result between a buffer's own type and the value's type; at literal buffers those moves are the identity.
  So: first the outlined select over ANY contents of the buffers it reads is the plain select of those contents
  (`where_clean`); then the three buffers it reads hold, after the first stretch, the reference's comparison, inverse
  square root and zero constant of the same edge list; together, the buffer the select writes holds the reference's
  factors.
-/
import proofs.«123185_j37778532336358_2_alg».proof.Proof.KIHost
import proofs.«123185_j37778532336358_2_alg».proof.Proof.RefReadP

set_option maxRecDepth 16384

noncomputable section

namespace Cert.KernelIdeal.HandDis

open Cert.KernelIdeal Cert.KernelIdeal.Gen Cert.KernelIdeal.HandRun Cert.KernelIdeal.HandHost
open Idealize.ShloMosaic Idealize.ShloMosaic.TcCoe Idealize.ShloMosaic.ValueIdx Idealize.SL.Sem
open Cert.ReferenceIdeal.ReadP

variable (m : (ℓ : Loc nD τ sig) → Buf (Elt Ideal) ℓ) (ρ : Dev nD → PrngReg)

/-- The outlined select over any contents of the buffers: the plain select of the comparison's buffer, the inverse square
    roots' buffer and the broadcast of the zero constant's buffer. -/
theorem where_clean (V1 : Valuation τ sig (Elt Ideal)) :
    StableHlo.after hostOps0_1 V1 (Proc.devRef .tc main_v14)
      = (select (V1 (Proc.devRef .tc main_v12) : S50000.Idx → BitVec 1) (V1 (Proc.devRef .tc main_v13) : S50000.Idx → EReal)
          (broadcastInDim S50000 ![] bcast_S_S50000 (V1 (Proc.devRef .tc main_cst_2) : S_.Idx → EReal)) : S50000.Idx → EReal) := by
  read_fold
  rfl

/-- After the first stretch the comparison's buffer holds the reference's comparison of the degrees with zero. -/
theorem W1_v12 (c : Dev nD) :
    StableHlo.after hostOps0 (W0 m ρ c) (Proc.devRef .tc main_v12)
      = val_main_v13 (F := Ideal) (m ((c : Thread nD τ).loc main_arg1) : (⟨Cert.ReferenceIdeal.S2x600000, .i32⟩ : BufTy).Contents (Elt Ideal)) := by
  read_fold
  rfl

/-- After the first stretch the inverse square roots' buffer holds the reference's inverse square roots of the degrees. -/
theorem W1_v13 (c : Dev nD) :
    StableHlo.after hostOps0 (W0 m ρ c) (Proc.devRef .tc main_v13)
      = val_main_v14 (F := Ideal) (m ((c : Thread nD τ).loc main_arg1) : (⟨Cert.ReferenceIdeal.S2x600000, .i32⟩ : BufTy).Contents (Elt Ideal)) := by
  read_fold
  rfl

/-- After the first stretch the zero constant's buffer holds the reference's zero constant. -/
theorem W1_cst_2 (c : Dev nD) :
    StableHlo.after hostOps0 (W0 m ρ c) (Proc.devRef .tc main_cst_2) = val_main_cst_2 (F := Ideal) := by
  read_fold
  rfl

/-- THE FACTORS ARE SHARED: the buffer the outlined select writes holds the reference's inverse square roots of the degrees
    (zero where the degree is not positive) of the same edge list. -/
theorem dis_shared (c : Dev nD) :
    W2 m ρ c (Proc.devRef .tc main_v14)
      = val_main_v15 (F := Ideal) (m ((c : Thread nD τ).loc main_arg1) : (⟨Cert.ReferenceIdeal.S2x600000, .i32⟩ : BufTy).Contents (Elt Ideal)) := by
  show StableHlo.after hostOps0_1 (StableHlo.after hostOps0 (W0 m ρ c)) (Proc.devRef .tc main_v14) = _
  rw [where_clean, W1_v12, W1_v13, W1_cst_2]
  rfl

end Cert.KernelIdeal.HandDis

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.KIPay.lean ====
/-
  The kernels' stored values read at one entry, at the ideal values.

  Each kernel body stores a pure term of the blocks it has loaded. Here every such term is read at an entry given by
  its coordinates: the product block is a sum over the contraction coordinate times the row's scale; the running
  column sums add, to the accumulator's entry, a sum over the block's rows; the normalisation is pointwise in the
  row's aggregate and the column's statistics.
-/
import proofs.«123185_j37778532336358_2_alg».proof.Proof.Gen.KernelIdeal.Skeleton
import proofs.«123185_j37778532336358_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Two layout readings -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the rows of a `[5000, 128]` block inserts at row `r` above column `j` is `(r, j)`. -/
theorem lift_rows (h : S5000x128.Reduces [0] S128) (j : Fin 128) (r : Fin 5000) :
    h.lift (ix1 j) r = ix2 r j := by
  funext a
  apply Fin.ext
  match a with
  | ⟨0, _⟩ => rfl
  | ⟨1, _⟩ => rfl

/-- The column sums of a `[5000, 128]` block, kept as a `[1, 128]` row, read at column `j`. -/
theorem colsum_apply (src : FVec Ideal S5000x128 .f32) (h : S5000x128.Reduces [0] S128) (hφ : FKind.Formats .f32)
    (hacc : (0x00000000#32 : BitVec 32) = FKind.add.neutral .f32 hφ) (hc : S128.ShapeCasts S1x128) (j : Fin 128) :
    shapeCast S1x128 (multiReduction .add [0] S128 src 0x00000000#32 h hφ hacc) hc (ix2 (0 : Fin 1) j)
      = ∑ r : Fin 5000, src (ix2 r j) := by
  refine (shapeCast_a_1a_apply _ hc (0 : Fin 1) j).trans ?_
  refine (Ideal.multiReduction_add_single src _ h hφ hacc (ix1 j)).trans ?_
  exact Finset.sum_congr rfl fun r _ => congrArg src (lift_rows h j r)

/-! ## The first kernel: the product block, each row scaled -/

theorem pay0_apply (x : Vec Ideal S5000x256 .f32) (w : Vec Ideal S256x128 .f32) (d : Vec Ideal S5000x1 .f32)
    (r : Fin 5000) (j : Fin 128) :
    k0_pay1 (F := Ideal) x w d (ix2 r j) = (∑ k : Fin 256, x (ix2 r k) * w (ix2 k j)) * d (ix2 r (0 : Fin 1)) := by
  unfold k0_pay1
  show matmul (F := Ideal) dot_S5000x256_S256x128_S5000x128_1_0_0_1_n_n none (truncf (F := Ideal) .bf16 x bitsLt_bf16_f32)
          (truncf (F := Ideal) .bf16 w bitsLt_bf16_f32) (constant (F := Ideal) S5000x128 .f32 0x00000000#32) (ix2 r j)
      * broadcastTo S5000x128 (shapeCast S5000x1 d shapeCasts_S5000x1_S5000x1) broadcasts_S5000x1_S5000x128 (ix2 r j) = _
  rw [shapeCast_self, broadcastTo_a1_ab_apply]
  refine congrArg (· * d (ix2 r (0 : Fin 1))) ?_
  exact Cert.Lib.PlainDot.matmul_zero_apply (M := 5000) (K := 256) (N := 128) none
    (truncf (F := Ideal) .bf16 x bitsLt_bf16_f32) (truncf (F := Ideal) .bf16 w bitsLt_bf16_f32) r j

/-! ## The second kernel: the running column sums and the statistics -/

theorem pay1_apply (j : Fin 128) : k1_pay1 (F := Ideal) (ix2 (0 : Fin 1) j) = 0 := by
  unfold k1_pay1
  rw [shapeCast_self]
  exact Ideal.ofBits_zero_f32

theorem pay2_apply (j : Fin 128) : k1_pay2 (F := Ideal) (ix2 (0 : Fin 1) j) = 0 := by
  unfold k1_pay2
  rw [shapeCast_self]
  exact Ideal.ofBits_zero_f32

theorem pay3_apply (a : Vec Ideal S5000x128 .f32) (d : Vec Ideal S5000x1 .f32) (b : Vec Ideal S1x128 .f32)
    (r : Fin 5000) (j : Fin 128) :
    k1_pay3 (F := Ideal) a d b (ix2 r j) = a (ix2 r j) * d (ix2 r (0 : Fin 1)) + b (ix2 (0 : Fin 1) j) := by
  unfold k1_pay3
  show shapeCast S5000x128 a shapeCasts_S5000x128_S5000x128 (ix2 r j)
        * broadcastTo S5000x128 (shapeCast S5000x1 d shapeCasts_S5000x1_S5000x1) broadcasts_S5000x1_S5000x128 (ix2 r j)
      + broadcastTo S5000x128 (shapeCast S1x128 b shapeCasts_S1x128_S1x128) broadcasts_S1x128_S5000x128 (ix2 r j) = _
  rw [shapeCast_self, shapeCast_self, shapeCast_self, broadcastTo_a1_ab_apply, broadcastTo_1b_ab_apply]

theorem pay4_apply (a : Vec Ideal S5000x128 .f32) (d : Vec Ideal S5000x1 .f32) (b : Vec Ideal S1x128 .f32)
    (acc : Vec Ideal S1x128 .f32) (j : Fin 128) :
    k1_pay4 (F := Ideal) a d b acc (ix2 (0 : Fin 1) j)
      = acc (ix2 (0 : Fin 1) j) + ∑ r : Fin 5000, k1_pay3 (F := Ideal) a d b (ix2 r j) := by
  unfold k1_pay4
  rw [shapeCast_self]
  exact congrArg (acc (ix2 (0 : Fin 1) j) + ·) (colsum_apply (k1_pay3 (F := Ideal) a d b) _ _ _ _ j)

theorem pay5_apply (a : Vec Ideal S5000x128 .f32) (d : Vec Ideal S5000x1 .f32) (b : Vec Ideal S1x128 .f32)
    (acc : Vec Ideal S1x128 .f32) (j : Fin 128) :
    k1_pay5 (F := Ideal) a d b acc (ix2 (0 : Fin 1) j)
      = acc (ix2 (0 : Fin 1) j)
        + ∑ r : Fin 5000, k1_pay3 (F := Ideal) a d b (ix2 r j) * k1_pay3 (F := Ideal) a d b (ix2 r j) := by
  unfold k1_pay5
  rw [shapeCast_self]
  exact congrArg (acc (ix2 (0 : Fin 1) j) + ·)
    (colsum_apply (mulf (k1_pay3 (F := Ideal) a d b) (k1_pay3 (F := Ideal) a d b)) _ _ _ _ j)

theorem pay6_apply (s : Vec Ideal S1x128 .f32) (j : Fin 128) :
    k1_pay6 (F := Ideal) s (ix2 (0 : Fin 1) j) = Ideal.div (s (ix2 (0 : Fin 1) j)) (Ideal.ofBits .f32 0x47435000#32) := rfl

theorem pay7_apply (s q : Vec Ideal S1x128 .f32) (j : Fin 128) :
    k1_pay7 (F := Ideal) s q (ix2 (0 : Fin 1) j)
      = Ideal.div (q (ix2 (0 : Fin 1) j)) (Ideal.ofBits .f32 0x47435000#32)
        - k1_pay6 (F := Ideal) s (ix2 (0 : Fin 1) j) * k1_pay6 (F := Ideal) s (ix2 (0 : Fin 1) j) := rfl

/-! ## The third kernel: normalise, scale, shift, clamp at zero -/

theorem pay2k_apply (a : Vec Ideal S5000x128 .f32) (d : Vec Ideal S5000x1 .f32) (b v g mu be : Vec Ideal S1x128 .f32)
    (r : Fin 5000) (j : Fin 128) :
    k2_pay1 (F := Ideal) a d b v g mu be (ix2 r j)
      = max (g (ix2 (0 : Fin 1) j) * ((a (ix2 r j) * d (ix2 r (0 : Fin 1)) + b (ix2 (0 : Fin 1) j)) - mu (ix2 (0 : Fin 1) j))
              * Ideal.rsqrt (v (ix2 (0 : Fin 1) j) + Ideal.ofBits .f32 0x3727C5AC#32)
            + be (ix2 (0 : Fin 1) j)) 0 := by
  unfold k2_pay1
  show max
      (broadcastTo S5000x128 (shapeCast S1x128 g shapeCasts_S1x128_S1x128) broadcasts_S1x128_S5000x128 (ix2 r j)
          * ((shapeCast S5000x128 a shapeCasts_S5000x128_S5000x128 (ix2 r j)
                * broadcastTo S5000x128 (shapeCast S5000x1 d shapeCasts_S5000x1_S5000x1) broadcasts_S5000x1_S5000x128 (ix2 r j)
              + broadcastTo S5000x128 (shapeCast S1x128 b shapeCasts_S1x128_S1x128) broadcasts_S1x128_S5000x128 (ix2 r j))
            - broadcastTo S5000x128 (shapeCast S1x128 mu shapeCasts_S1x128_S1x128) broadcasts_S1x128_S5000x128 (ix2 r j))
        * broadcastTo S5000x128
            (rsqrt (addf (shapeCast S1x128 v shapeCasts_S1x128_S1x128) (broadcast S1x128 (Scalar.ofBits (F := Ideal) .f32 0x3727C5AC#32))))
            broadcasts_S1x128_S5000x128 (ix2 r j)
        + broadcastTo S5000x128 (shapeCast S1x128 be shapeCasts_S1x128_S1x128) broadcasts_S1x128_S5000x128 (ix2 r j))
      (Ideal.ofBits .f32 0x00000000#32) = _
  simp only [shapeCast_self, broadcastTo_a1_ab_apply, broadcastTo_1b_ab_apply, Ideal.ofBits_zero_f32]
  rfl

end Cert.KernelIdeal.Pay

end
-- ==== Proof.KIValue0.lean ====
/-
  The first call's output array as one function of its three input arrays.

  Point `t` of the grid of ten writes rows `5000·t … 5000·t + 4999` of the output; what it writes is the body's product
  block of rows `5000·t …` of the features with the whole weight matrix, each row scaled by its entry of the scale column.
  So the array ends holding, at row `n` and column `j`, the sum over `k` of features `(n, k)` times weights `(k, j)`,
  times the scale of row `n`: every row lies in the block of point `n / 5000`.
-/
import proofs.«123185_j37778532336358_2_alg».proof.Proof.KIRegion0
import proofs.«123185_j37778532336358_2_alg».proof.Proof.KIPay
import Idealize.ShloMosaic.Lib.Pipeline.Value

noncomputable section

open scoped BigOperators

namespace Cert.KernelIdeal.Value0

open Cert.KernelIdeal Cert.KernelIdeal.Gen Cert.KernelIdeal.Hand0
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The scaled product of the feature array with the weight matrix, entry by entry. -/
def H0 (X : S50000x256.Idx → EReal) (W : S256x128.Idx → EReal) (D : S50000x1.Idx → EReal) : S50000x128.Idx → EReal :=
  fun i => (∑ k : Fin 256, X (ix2 (i 0 : Fin 50000) k) * W (ix2 k (i 1 : Fin 128))) * D (ix2 (i 0 : Fin 50000) (0 : Fin 1))

theorem H0_apply (X : S50000x256.Idx → EReal) (W : S256x128.Idx → EReal) (D : S50000x1.Idx → EReal)
    (n : Fin 50000) (j : Fin 128) :
    H0 X W D (ix2 n j) = (∑ k : Fin 256, X (ix2 n k) * W (ix2 k j)) * D (ix2 n (0 : Fin 1)) := rfl

/-- The block indices over the grid: the row-blocked windows sit at block row `t`, the weight matrix at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's value at one entry of a block whose input blocks are rows `5000·q …` of the arrays: the arrays' value. -/
theorem point0 (X : S50000x256.Idx → EReal) (W : S256x128.Idx → EReal) (D : S50000x1.Idx → EReal)
    (x0 : Vec Ideal S5000x256 .f32) (x1 : Vec Ideal S256x128 .f32) (x2 : Vec Ideal S5000x1 .f32) (q : ℕ)
    (h0 : ∀ (x : S5000x256.Idx) (k : S50000x256.Idx), (k 0).val = 5000 * q + (x 0).val → (k 1).val = (x 1).val → x0 x = X k)
    (h1 : ∀ (x : S256x128.Idx) (k : S256x128.Idx), (k 0).val = (x 0).val → (k 1).val = (x 1).val → x1 x = W k)
    (h2 : ∀ (x : S5000x1.Idx) (k : S50000x1.Idx), (k 0).val = 5000 * q + (x 0).val → (k 1).val = (x 1).val → x2 x = D k)
    (y : S5000x128.Idx) (i : S50000x128.Idx) (hi0 : (i 0).val = 5000 * q + (y 0).val) (hi1 : (i 1).val = (y 1).val) :
    k0_pay1 (F := Ideal) x0 x1 x2 y = H0 X W D i := by
  obtain ⟨r, j, rfl⟩ : ∃ (r : Fin 5000) (j : Fin 128), y = ix2 r j := ⟨y 0, y 1, eq_ix2 y⟩
  obtain ⟨n, j', rfl⟩ : ∃ (n : Fin 50000) (j' : Fin 128), i = ix2 n j' := ⟨i 0, i 1, eq_ix2 i⟩
  have hn : n.val = 5000 * q + r.val := hi0
  have hj : j' = j := Fin.ext hi1
  subst hj
  rw [Pay.pay0_apply, H0_apply, h2 (ix2 r (0 : Fin 1)) (ix2 n (0 : Fin 1)) hn rfl]
  refine congrArg (· * D (ix2 n (0 : Fin 1))) ?_
  exact Finset.sum_congr rfl fun k _ => by
    rw [h0 (ix2 r k) (ix2 n k) hn rfl, h1 (ix2 k j') (ix2 k j') rfl rfl]

/-- The feature window's block at point `t` is rows `5000·t …` of the feature array. -/
theorem iblk0_0_apply (c : Dev nD) (t : Fin cfg0.N) (x : S5000x256.Idx) (k : S50000x256.Idx)
    (hk0 : (k 0).val = 5000 * t.val + (x 0).val) (hk1 : (k 1).val = (x 1).val) :
    (iblk0 V c 0 t : Vec Ideal S5000x256 .f32) x = (V c main_arg0 : S50000x256.Idx → EReal) k := by
  obtain ⟨e0, e1, -⟩ := idx_facts0 t
  unfold iblk0
  rw [View.read_apply]
  show (V c main_arg0 : S50000x256.Idx → EReal) _ = _
  refine congrArg (V c main_arg0 : S50000x256.Idx → EReal) ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 256 + 1 * (x 1).val = (k 1).val; rw [e1, hk1]; omega

/-- The weight window's block at any point is the weight matrix. -/
theorem iblk0_1_apply (c : Dev nD) (t : Fin cfg0.N) (x : S256x128.Idx) (k : S256x128.Idx)
    (hk0 : (k 0).val = (x 0).val) (hk1 : (k 1).val = (x 1).val) :
    (iblk0 V c 1 t : Vec Ideal S256x128 .f32) x = (V c main_arg2 : S256x128.Idx → EReal) k := by
  obtain ⟨-, -, e0, e1, -⟩ := idx_facts0 t
  unfold iblk0
  rw [View.read_apply]
  show (V c main_arg2 : S256x128.Idx → EReal) _ = _
  refine congrArg (V c main_arg2 : S256x128.Idx → EReal) ?_
  funext a
  apply Fin.ext
  match a with
  | ⟨0, _⟩ => show win0_1.index t (0 : Fin 2) * 256 + 1 * (x 0).val = (k 0).val; rw [e0, hk0]; omega
  | ⟨1, _⟩ => show win0_1.index t (1 : Fin 2) * 128 + 1 * (x 1).val = (k 1).val; rw [e1, hk1]; omega

/-- The scale window's block at point `t` is rows `5000·t …` of the scale column. -/
theorem iblk0_2_apply (c : Dev nD) (t : Fin cfg0.N) (x : S5000x1.Idx) (k : S50000x1.Idx)
    (hk0 : (k 0).val = 5000 * t.val + (x 0).val) (hk1 : (k 1).val = (x 1).val) :
    (iblk0 V c 2 t : Vec Ideal S5000x1 .f32) x = (V c main_v15 : S50000x1.Idx → EReal) k := by
  obtain ⟨-, -, -, -, e0, e1, -⟩ := idx_facts0 t
  unfold iblk0
  rw [View.read_apply]
  show (V c main_v15 : S50000x1.Idx → EReal) _ = _
  refine congrArg (V c main_v15 : S50000x1.Idx → EReal) ?_
  funext a
  apply Fin.ext
  match a with
  | ⟨0, _⟩ => show win0_2.index t (0 : Fin 2) * 5000 + 1 * (x 0).val = (k 0).val; rw [e0, hk0]; omega
  | ⟨1, _⟩ => show win0_2.index t (1 : Fin 2) * 1 + 1 * (x 1).val = (k 1).val; rw [e1, hk1]; omega

/-- What point `t` writes back is block `t` of `H0` of the arrays as the call finds them. -/
theorem flushed0_eq (c : Dev nD) (t : Fin cfg0.N) :
    (dat0 (F := Ideal) V c).flushed 3 t
      = ((cfg0.win 3).blk t).view.read (Elt Ideal) (H0 (V c main_arg0) (V c main_arg2) (V c main_v15)) := by
  show (cfg0.win 3).cut (grid0.coords t) ((dat0 (F := Ideal) V c).after 3 t) = _
  rw [after0_3]
  unfold out0_3
  rw [View.canon_unit_zero hz]
  simp only [View.ld_unit_zero (S := S5000x256) hz, View.ld_unit_zero (S := S256x128) hz, View.ld_unit_zero (S := S5000x1) hz]
  obtain ⟨-, -, -, -, -, -, e0, e1⟩ := idx_facts0 t
  funext y
  show k0_pay1 (F := Ideal) (iblk0 V c 0 t) (iblk0 V c 1 t) (iblk0 V c 2 t) y
    = H0 (V c main_arg0) (V c main_arg2) (V c main_v15) (((cfg0.win 3).blk t).view.emb y)
  refine point0 _ _ _ _ _ _ t.val (iblk0_0_apply V c t) (iblk0_1_apply V c t) (iblk0_2_apply V c t) y _ ?_ ?_
  · show win0_3.index t (0 : Fin 2) * 5000 + 1 * (y 0).val = 5000 * t.val + (y 0).val
    rw [e0]; omega
  · show win0_3.index t (1 : Fin 2) * 128 + 1 * (y 1).val = (y 1).val
    rw [e1]; omega

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every row of the array lies in the block of the point `row / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk0]
  obtain ⟨-, -, -, -, -, -, e0, e1⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The output array after the call: `H0` of the three input arrays as the call finds them. -/
theorem final0 (c : Dev nD) :
    (dat0 (F := Ideal) V c).arrAt 3 cfg0.N = H0 (V c main_arg0) (V c main_arg2) (V c main_v15) :=
  (dat0 (F := Ideal) V c).arrAt_eq_of_cover 3 (H0 (V c main_arg0) (V c main_arg2) (V c main_v15))
    (fun t _ => flushed0_eq V c t) (cover0)

/-- The output array after the call, at row `n` and column `j`, the three input arrays named. -/
theorem final0_apply (c : Dev nD) (X : S50000x256.Idx → EReal) (W : S256x128.Idx → EReal) (D : S50000x1.Idx → EReal)
    (hX : X = V c main_arg0) (hW : W = V c main_arg2) (hD : D = V c main_v15) (n : Fin 50000) (j : Fin 128) :
    (dat0 (F := Ideal) V c).arrAt 3 cfg0.N (ix2 n j)
      = (∑ k : Fin 256, X (ix2 n k) * W (ix2 k j)) * D (ix2 n (0 : Fin 1)) := by
  subst hX hW hD
  rw [final0]
  rfl

end Cert.KernelIdeal.Value0

end
-- ==== Proof.Spec.lean ====
/-
  The specification: the two arrangements of one graph-convolution layer followed by a batch normalisation and a
  rectifier, and the law that they are one function.

  The data: a table `h` of 50000 rows and 128 columns (the transformed features), a column `dis` of 50000 scale
  factors (the inverse square roots of the degrees), 650000 edges `e`, each with a source row `r e`, a target row
  `c e` (both read by a gather, so clamped into the table), and, for each row `n`, the set `L n` of the edges
  whose update lands on `n`; a bias `b`, a gain `γ` and a shift `β` of 128 entries each.

  * The first arrangement scales each edge's message by both factors and then adds:
      out n j = (∑ e ∈ L n, h (r e) j * (dis (r e) * dis (c e))) + b j,
      μ j = (∑ n, out n j) / 50000,   var j = (∑ n, (out n j − μ j)²) / 50000,
      result n j = max (γ j * (out n j − μ j) * rsqrt (var j + ε) + β j) 0.
  * The second scales the rows before the gather and the sums after the scatter, and takes the variance from the
    sum of squares:
      val n j = (∑ e ∈ L n, h (r e) j * dis (r e)) * dis n + b j,
      μ' j = (∑ n, val n j) / 50000,   var' j = (∑ n, val n j * val n j) / 50000 − μ' j * μ' j,
      result' n j = max (γ j * (val n j − μ' j) * rsqrt (var' j + ε) + β j) 0.

  They agree when every entry of `h`, `dis` and `b` is a real number and every edge that lands on `n` has target row
  `n`: then `out = val` (a finite sum of reals distributes over the common factor `dis n`), so `μ = μ'`, and
  `var = var'` because the mean of the squared deviations is the mean of the squares less the square of the mean.
  The sums start from nothing (the programs' initial zeros are already removed), `ε` stays the float word it is
  written as, and the divisor is the float word of 50000, read once as the real 50000.
-/
import Idealize.ShloMosaic.PureOps.Ideal
import Idealize.ShloMosaic.PureOps.Ideal.Laws
import Idealize.ShloMosaic.Lib.ValueIdx
import proofs.«123185_j37778532336358_2_alg».proof.Proof.LibRowScatter

noncomputable section

open scoped BigOperators

namespace Cert.Spec

open Idealize.ShloMosaic Idealize.ShloMosaic.ValueIdx Cert.Lib.RowScatter

/-! ## Constants and general facts -/

/-- The float word of the divisor denotes the real 50000. -/
theorem ofBits_50000 : Ideal.ofBits .f32 0x47435000#32 = ((50000 : ℝ) : EReal) := by
  simp [Ideal.ofBits, Ideal.ieee, -EReal.coe_mul]; norm_num

/-- The table has a row. -/
theorem N_pos : 0 < 50000 := by norm_num

/-- The coercion of the reals into the extended reals goes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by the divisor's float word is the real quotient. -/
theorem div_50000 (x : ℝ) : Ideal.div (x : EReal) (Ideal.ofBits .f32 0x47435000#32) = ((x * (1 / 50000) : ℝ) : EReal) := by
  rw [ofBits_50000, Ideal.div_coe (by norm_num : (50000 : ℝ) ≠ 0), ← EReal.coe_mul]

/-- Over the reals, the mean of the squared deviations from the mean is the mean of the squares less the square of
    the mean: with `μ = (∑ o) / N`, `∑ (o − μ)² = ∑ o² − 2 μ ∑ o + N μ² = ∑ o² − N μ²`. -/
theorem mean_sq_dev {ι : Type*} [Fintype ι] (o : ι → ℝ) (N : ℝ) (hN : (Fintype.card ι : ℝ) = N) (hN0 : N ≠ 0) :
    (∑ n, (o n - (∑ n, o n) * (1 / N)) * (o n - (∑ n, o n) * (1 / N))) * (1 / N)
      = (∑ n, o n * o n) * (1 / N) - ((∑ n, o n) * (1 / N)) * ((∑ n, o n) * (1 / N)) := by
  generalize hμ : (∑ n, o n) * (1 / N) = μ
  have hS : ∑ n, o n = N * μ := by rw [← hμ]; field_simp
  have h1 : ∑ n, (o n - μ) * (o n - μ) = ∑ n, o n * o n - 2 * μ * ∑ n, o n + N * (μ * μ) := by
    have e : ∀ n, (o n - μ) * (o n - μ) = o n * o n - 2 * μ * o n + μ * μ := fun n => by ring
    simp only [e, Finset.sum_add_distrib, Finset.sum_sub_distrib, ← Finset.mul_sum, Finset.sum_const,
      Finset.card_univ, nsmul_eq_mul, hN]
    ring
  rw [h1, hS]
  field_simp
  ring

/-- A sum over the 50000 rows is the sum over the 10 blocks of 5000 rows of the sums inside the blocks, however the
    row `5000 · t + r` of block `t` is spelt. -/
theorem sum_blocks {M : Type*} [AddCommMonoid M] (f : Fin 50000 → M) (g : Fin 10 → Fin 5000 → Fin 50000)
    (hg : ∀ t r, (g t r).val = 5000 * t.val + r.val) :
    ∑ t : Fin 10, ∑ r : Fin 5000, f (g t r) = ∑ n : Fin 50000, f n := by
  rw [← Fintype.sum_prod_type']
  rw [← Equiv.sum_comp (finProdFinEquiv : Fin 10 × Fin 5000 ≃ Fin (10 * 5000)) (fun n => f ⟨n.val, n.isLt⟩)]
  refine Finset.sum_congr rfl (fun x _ => congrArg f (Fin.ext ?_))
  rw [hg]
  show 5000 * x.1.val + x.2.val = x.2.val + 5000 * x.1.val
  omega

/-! ## The two arrangements, over rows, columns and edges -/

section Core

variable (h : Fin 50000 → Fin 128 → EReal) (dis : Fin 50000 → EReal)
  (r c : Fin 650000 → Fin 50000) (L : Fin 50000 → Finset (Fin 650000)) (b γ β : Fin 128 → EReal)

/-- The shared end: normalise `v` by the mean `μ` and the variance `var`, apply the gain `g` and the shift `s`, and
    cut at zero. `ε` is the float word `0x3727C5AC`, never evaluated. -/
def bnRelu (g s v μ var : EReal) : EReal :=
  max (g * (v - μ) * Ideal.rsqrt (var + Ideal.ofBits .f32 0x3727C5AC#32) + s) 0

/-- First arrangement: the aggregated messages, each scaled by both factors, plus the bias. -/
def refOut (n : Fin 50000) (j : Fin 128) : EReal :=
  (∑ e ∈ L n, h (r e) j * (dis (r e) * dis (c e))) + b j

/-- First arrangement: the column mean. -/
def refMean (j : Fin 128) : EReal :=
  Ideal.div (∑ n : Fin 50000, refOut h dis r c L b n j) (Ideal.ofBits .f32 0x47435000#32)

/-- First arrangement: the column variance, the mean of the squared deviations. -/
def refVar (j : Fin 128) : EReal :=
  Ideal.div (∑ n : Fin 50000, (refOut h dis r c L b n j - refMean h dis r c L b j)
      * (refOut h dis r c L b n j - refMean h dis r c L b j)) (Ideal.ofBits .f32 0x47435000#32)

/-- First arrangement: the result. -/
def refG (n : Fin 50000) (j : Fin 128) : EReal :=
  bnRelu (γ j) (β j) (refOut h dis r c L b n j) (refMean h dis r c L b j) (refVar h dis r c L b j)

/-- Second arrangement: rows scaled before the gather, the sum scaled after the scatter, plus the bias. -/
def kerVal (n : Fin 50000) (j : Fin 128) : EReal :=
  (∑ e ∈ L n, h (r e) j * dis (r e)) * dis n + b j

/-- Second arrangement: the column mean. -/
def kerMean (j : Fin 128) : EReal :=
  Ideal.div (∑ n : Fin 50000, kerVal h dis r L b n j) (Ideal.ofBits .f32 0x47435000#32)

/-- Second arrangement: the column variance, the mean of the squares less the square of the mean. -/
def kerVar (j : Fin 128) : EReal :=
  Ideal.div (∑ n : Fin 50000, kerVal h dis r L b n j * kerVal h dis r L b n j) (Ideal.ofBits .f32 0x47435000#32)
    - kerMean h dis r L b j * kerMean h dis r L b j

/-- Second arrangement: the result. -/
def kerG (n : Fin 50000) (j : Fin 128) : EReal :=
  bnRelu (γ j) (β j) (kerVal h dis r L b n j) (kerMean h dis r L b j) (kerVar h dis r L b j)

end Core

/-! ## The law -/

section Law

variable (hr : Fin 50000 → Fin 128 → ℝ) (dr : Fin 50000 → ℝ)
  (r c : Fin 650000 → Fin 50000) (L : Fin 50000 → Finset (Fin 650000)) (br : Fin 128 → ℝ)

/-- The common value of the two arrangements before the normalisation, as a real. -/
def outR (n : Fin 50000) (j : Fin 128) : ℝ := (∑ e ∈ L n, hr (r e) j * dr (r e)) * dr n + br j

theorem refOut_coe (hc : ∀ n, ∀ e ∈ L n, c e = n) (n : Fin 50000) (j : Fin 128) :
    refOut (fun n j => (hr n j : EReal)) (fun n => (dr n : EReal)) r c L (fun j => (br j : EReal)) n j
      = ((outR hr dr r L br n j : ℝ) : EReal) := by
  unfold refOut outR
  rw [Finset.sum_mul, EReal.coe_add, coe_sum]
  congr 1
  refine Finset.sum_congr rfl (fun e he => ?_)
  rw [hc n e he, EReal.coe_mul, EReal.coe_mul, mul_assoc]

theorem kerVal_coe (n : Fin 50000) (j : Fin 128) :
    kerVal (fun n j => (hr n j : EReal)) (fun n => (dr n : EReal)) r L (fun j => (br j : EReal)) n j
      = ((outR hr dr r L br n j : ℝ) : EReal) := by
  unfold kerVal outR
  rw [EReal.coe_add, EReal.coe_mul, coe_sum]
  simp only [EReal.coe_mul]

end Law

/-- THE LAW: with real entries in the table, the factors and the bias, and every edge that lands on a row having
    that row as its target, the two arrangements are one function. -/
theorem refG_eq_kerG (h : Fin 50000 → Fin 128 → EReal) (dis : Fin 50000 → EReal)
    (r c : Fin 650000 → Fin 50000) (L : Fin 50000 → Finset (Fin 650000)) (b γ β : Fin 128 → EReal)
    (hh : ∀ n j, ∃ x : ℝ, h n j = (x : EReal)) (hd : ∀ n, ∃ x : ℝ, dis n = (x : EReal))
    (hb : ∀ j, ∃ x : ℝ, b j = (x : EReal)) (hc : ∀ n, ∀ e ∈ L n, c e = n) :
    refG h dis r c L b γ β = kerG h dis r L b γ β := by
  choose hr hh using hh
  choose dr hd using hd
  choose br hb using hb
  obtain rfl : h = fun n j => (hr n j : EReal) := funext fun n => funext fun j => hh n j
  obtain rfl : dis = fun n => (dr n : EReal) := funext hd
  obtain rfl : b = fun j => (br j : EReal) := funext hb
  funext n j
  have hmean : refMean (fun n j => (hr n j : EReal)) (fun n => (dr n : EReal)) r c L (fun j => (br j : EReal)) j
      = kerMean (fun n j => (hr n j : EReal)) (fun n => (dr n : EReal)) r L (fun j => (br j : EReal)) j := by
    unfold refMean kerMean
    simp only [refOut_coe hr dr r c L br hc, kerVal_coe]
  have hvar : refVar (fun n j => (hr n j : EReal)) (fun n => (dr n : EReal)) r c L (fun j => (br j : EReal)) j
      = kerVar (fun n j => (hr n j : EReal)) (fun n => (dr n : EReal)) r L (fun j => (br j : EReal)) j := by
    unfold refVar kerVar refMean kerMean
    simp only [refOut_coe hr dr r c L br hc, kerVal_coe, ← coe_sum, div_50000, ← EReal.coe_sub, ← EReal.coe_mul]
    congr 1
    exact mean_sq_dev (fun n => outR hr dr r L br n j) 50000 (by simp) (by norm_num)
  unfold refG kerG
  rw [hmean, hvar, refOut_coe hr dr r c L br hc, kerVal_coe]

/-! ## The two arrangements, over the arrays -/

/-- THE FIRST ARRANGEMENT over the arrays: `h` the table, `dis` the factors, `rowIdx` and `colWIdx` the index columns
    the gathers read (the source and the target of each edge; a gather clamps them into the table: `gatherRow`),
    `colIdx` the index column the scatter-add reads (an edge lands on the row it names, or nowhere: `landsOn`). -/
def RefG (h : FVec Ideal ⟨2, ![50000, 128]⟩ .f32) (dis : FVec Ideal ⟨1, ![50000]⟩ .f32)
    (rowIdx colWIdx colIdx : IVec ⟨2, ![650000, 1]⟩ 32) (b γ β : FVec Ideal ⟨1, ![128]⟩ .f32) :
    FVec Ideal ⟨2, ![50000, 128]⟩ .f32 :=
  fun i => refG (fun n j => h (ix2 n j)) (fun n => dis (ix1 n)) (gatherRow 50000 N_pos rowIdx)
    (gatherRow 50000 N_pos colWIdx) (landsOn colIdx 50000) (fun j => b (ix1 j)) (fun j => γ (ix1 j))
    (fun j => β (ix1 j)) (i 0) (i 1)

/-- THE SECOND ARRANGEMENT over the arrays: the same table, factors and index columns; the target of an edge is not
    read. -/
def KerG (h : FVec Ideal ⟨2, ![50000, 128]⟩ .f32) (dis : FVec Ideal ⟨1, ![50000]⟩ .f32)
    (rowIdx colIdx : IVec ⟨2, ![650000, 1]⟩ 32) (b γ β : FVec Ideal ⟨1, ![128]⟩ .f32) :
    FVec Ideal ⟨2, ![50000, 128]⟩ .f32 :=
  fun i => kerG (fun n j => h (ix2 n j)) (fun n => dis (ix1 n)) (gatherRow 50000 N_pos rowIdx)
    (landsOn colIdx 50000) (fun j => b (ix1 j)) (fun j => γ (ix1 j)) (fun j => β (ix1 j)) (i 0) (i 1)

/-- The first arrangement read at row `n` and column `j`. -/
theorem RefG_apply (h : FVec Ideal ⟨2, ![50000, 128]⟩ .f32) (dis : FVec Ideal ⟨1, ![50000]⟩ .f32)
    (rowIdx colWIdx colIdx : IVec ⟨2, ![650000, 1]⟩ 32) (b γ β : FVec Ideal ⟨1, ![128]⟩ .f32)
    (n : Fin 50000) (j : Fin 128) :
    RefG h dis rowIdx colWIdx colIdx b γ β (ix2 n j)
      = refG (fun n j => h (ix2 n j)) (fun n => dis (ix1 n)) (gatherRow 50000 N_pos rowIdx)
          (gatherRow 50000 N_pos colWIdx) (landsOn colIdx 50000) (fun j => b (ix1 j)) (fun j => γ (ix1 j))
          (fun j => β (ix1 j)) n j := rfl

/-- The second arrangement read at row `n` and column `j`. -/
theorem KerG_apply (h : FVec Ideal ⟨2, ![50000, 128]⟩ .f32) (dis : FVec Ideal ⟨1, ![50000]⟩ .f32)
    (rowIdx colIdx : IVec ⟨2, ![650000, 1]⟩ 32) (b γ β : FVec Ideal ⟨1, ![128]⟩ .f32)
    (n : Fin 50000) (j : Fin 128) :
    KerG h dis rowIdx colIdx b γ β (ix2 n j)
      = kerG (fun n j => h (ix2 n j)) (fun n => dis (ix1 n)) (gatherRow 50000 N_pos rowIdx)
          (landsOn colIdx 50000) (fun j => b (ix1 j)) (fun j => γ (ix1 j)) (fun j => β (ix1 j)) n j := rfl

/-- THE LAW over the arrays: real entries in `h`, `dis` and `b`, and every edge that lands on a row (by `colIdx`) having
    that row as its clamped target (by `colWIdx`). -/
theorem RefG_eq_KerG (h : FVec Ideal ⟨2, ![50000, 128]⟩ .f32) (dis : FVec Ideal ⟨1, ![50000]⟩ .f32)
    (rowIdx colWIdx colIdx : IVec ⟨2, ![650000, 1]⟩ 32) (b γ β : FVec Ideal ⟨1, ![128]⟩ .f32)
    (hh : ∀ (n : Fin 50000) (j : Fin 128), ∃ x : ℝ, h (ix2 n j) = (x : EReal))
    (hd : ∀ n : Fin 50000, ∃ x : ℝ, dis (ix1 n) = (x : EReal))
    (hb : ∀ j : Fin 128, ∃ x : ℝ, b (ix1 j) = (x : EReal))
    (hc : ∀ n : Fin 50000, ∀ e ∈ landsOn colIdx 50000 n, gatherRow 50000 N_pos colWIdx e = n) :
    RefG h dis rowIdx colWIdx colIdx b γ β = KerG h dis rowIdx colIdx b γ β := by
  funext i
  unfold RefG KerG
  rw [refG_eq_kerG _ _ _ _ _ _ _ _ hh hd hb hc]

end Cert.Spec

end
-- ==== Proof.KIValue1.lean ====
/-
  What the statistics call leaves in its two output arrays, as functions of the three arrays it reads.

  Write `y n j = a (n, j) · d n + b j` for the value the body forms at row `n` and column `j`. Point `t` of the grid of
  ten reads rows `5000·t … 5000·t + 4999`; the first accumulator gains the column sums of `y` over those rows, the
  second the column sums of `y·y`. After the last point the accumulators therefore hold the sums over all 50000
  rows, and the two outputs, written once at the last point, are the first sum divided by 50000 and the second sum
  divided by 50000 less the square of the first quotient. Sums of extended reals form a commutative monoid, so no
  finiteness enters.
-/
import proofs.«123185_j37778532336358_2_alg».proof.Proof.KIRegion1
import proofs.«123185_j37778532336358_2_alg».proof.Proof.KIPay
import proofs.«123185_j37778532336358_2_alg».proof.Proof.Spec
import Idealize.ShloMosaic.Lib.Pipeline.Value

noncomputable section

open scoped BigOperators

namespace Cert.KernelIdeal.Value1

open Cert.KernelIdeal Cert.KernelIdeal.Gen Cert.KernelIdeal.Hand1
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The value the body forms, row by row -/

/-- The value at row `m` (a natural number; zero past the table) and column `j`: the aggregate times the row's scale,
    plus the column's bias. -/
def yN (A : S50000x128.Idx → EReal) (D : S50000x1.Idx → EReal) (B : S1x128.Idx → EReal) (j : Fin 128) (m : ℕ) : EReal :=
  if h : m < 50000 then A (ix2 (⟨m, h⟩ : Fin 50000) j) * D (ix2 (⟨m, h⟩ : Fin 50000) (0 : Fin 1)) + B (ix2 (0 : Fin 1) j) else 0

theorem yN_of_lt (A : S50000x128.Idx → EReal) (D : S50000x1.Idx → EReal) (B : S1x128.Idx → EReal) (j : Fin 128) (m : ℕ) (h : m < 50000) :
    yN A D B j m = A (ix2 (⟨m, h⟩ : Fin 50000) j) * D (ix2 (⟨m, h⟩ : Fin 50000) (0 : Fin 1)) + B (ix2 (0 : Fin 1) j) := dif_pos h

/-- Ten blocks of 5000 rows are the 50000 rows. -/
theorem sum_rows (f : ℕ → EReal) (g : Fin 50000 → EReal) (hfg : ∀ n : Fin 50000, f n.val = g n) :
    ∑ t ∈ Finset.range 10, ∑ r : Fin 5000, f (5000 * t + r.val) = ∑ n : Fin 50000, g n := by
  rw [Finset.sum_range]
  rw [← Cert.Spec.sum_blocks g (fun t r => ⟨5000 * t.val + r.val, by have := t.isLt; have := r.isLt; omega⟩) (fun _ _ => rfl)]
  exact Finset.sum_congr rfl fun t _ => Finset.sum_congr rfl fun r _ =>
    hfg ⟨5000 * t.val + r.val, by have := t.isLt; have := r.isLt; omega⟩

/-! ## The blocks the body reads -/

/-- The block indices over the grid: the two row-blocked windows sit at block row `t`; the bias and the two outputs
    at their one block. -/
theorem idx_facts1_0 : ∀ t : Fin cfg1.N, win1_0.index t (0 : Fin 2) = t.val ∧ win1_0.index t (1 : Fin 2) = 0 :=
  (by decide +kernel : ∀ t : Fin grid1.N, _)
theorem idx_facts1_1 : ∀ t : Fin cfg1.N, win1_1.index t (0 : Fin 2) = t.val ∧ win1_1.index t (1 : Fin 2) = 0 :=
  (by decide +kernel : ∀ t : Fin grid1.N, _)
theorem idx_facts1_2 : ∀ t : Fin cfg1.N, win1_2.index t (0 : Fin 2) = 0 ∧ win1_2.index t (1 : Fin 2) = 0 :=
  (by decide +kernel : ∀ t : Fin grid1.N, _)
theorem idx_facts1_3 : ∀ t : Fin cfg1.N, win1_3.index t (0 : Fin 2) = 0 ∧ win1_3.index t (1 : Fin 2) = 0 :=
  (by decide +kernel : ∀ t : Fin grid1.N, _)
theorem idx_facts1_4 : ∀ t : Fin cfg1.N, win1_4.index t (0 : Fin 2) = 0 ∧ win1_4.index t (1 : Fin 2) = 0 :=
  (by decide +kernel : ∀ t : Fin grid1.N, _)

/-- The aggregate window's block at point `t` is rows `5000·t …` of the aggregate array. -/
theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v26 : S50000x128.Idx → EReal) k := by
  obtain ⟨e0, e1⟩ := idx_facts1_0 t
  unfold iblk1
  rw [View.read_apply]
  show (V c main_v26 : S50000x128.Idx → EReal) _ = _
  refine congrArg (V c main_v26 : S50000x128.Idx → EReal) ?_
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The scale window's block at point `t` is rows `5000·t …` of the scale column. -/
theorem iblk1_1_apply (c : Dev nD) (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = (V c main_v15 : S50000x1.Idx → EReal) k := by
  obtain ⟨e0, e1⟩ := idx_facts1_1 t
  unfold iblk1
  rw [View.read_apply]
  show (V c main_v15 : S50000x1.Idx → EReal) _ = _
  refine congrArg (V c main_v15 : S50000x1.Idx → EReal) ?_
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 1 + 1 * (x 1).val = (k 1).val; rw [e1, hk1]; omega

/-- The bias window's block at any point is the bias row. -/
theorem iblk1_2_apply (c : Dev nD) (t : Fin cfg1.N) (x : S1x128.Idx) (k : S1x128.Idx)
    (hk0 : (k 0).val = (x 0).val) (hk1 : (k 1).val = (x 1).val) :
    (iblk1 V c 2 t : Vec Ideal S1x128 .f32) x = (V c main_v27 : S1x128.Idx → EReal) k := by
  obtain ⟨e0, e1⟩ := idx_facts1_2 t
  unfold iblk1
  rw [View.read_apply]
  show (V c main_v27 : S1x128.Idx → EReal) _ = _
  refine congrArg (V c main_v27 : S1x128.Idx → EReal) ?_
  funext a
  apply Fin.ext
  match a with
  | ⟨0, _⟩ => show win1_2.index t (0 : Fin 2) * 1 + 1 * (x 0).val = (k 0).val; rw [e0, hk0]; omega
  | ⟨1, _⟩ => show win1_2.index t (1 : Fin 2) * 128 + 1 * (x 1).val = (k 1).val; rw [e1, hk1]; omega

/-! ## One point's contribution -/

/-- The body's value at one entry of a block whose input blocks are rows `5000·q …` of the arrays. -/
theorem point3 (A : S50000x128.Idx → EReal) (D : S50000x1.Idx → EReal) (B : S1x128.Idx → EReal)
    (x0 : Vec Ideal S5000x128 .f32) (x1 : Vec Ideal S5000x1 .f32) (x2 : Vec Ideal S1x128 .f32) (q : ℕ)
    (h0 : ∀ (x : S5000x128.Idx) (k : S50000x128.Idx), (k 0).val = 5000 * q + (x 0).val → (k 1).val = (x 1).val → x0 x = A k)
    (h1 : ∀ (x : S5000x1.Idx) (k : S50000x1.Idx), (k 0).val = 5000 * q + (x 0).val → (k 1).val = (x 1).val → x1 x = D k)
    (h2 : ∀ (x : S1x128.Idx) (k : S1x128.Idx), (k 0).val = (x 0).val → (k 1).val = (x 1).val → x2 x = B k)
    (hq : q < 10) (r : Fin 5000) (j : Fin 128) :
    k1_pay3 (F := Ideal) x0 x1 x2 (ix2 r j) = yN A D B j (5000 * q + r.val) := by
  have hm : 5000 * q + r.val < 50000 := by have := r.isLt; omega
  rw [Pay.pay3_apply, yN_of_lt A D B j _ hm,
    h0 (ix2 r j) (ix2 (⟨5000 * q + r.val, hm⟩ : Fin 50000) j) rfl rfl,
    h1 (ix2 r (0 : Fin 1)) (ix2 (⟨5000 * q + r.val, hm⟩ : Fin 50000) (0 : Fin 1)) rfl rfl,
    h2 (ix2 (0 : Fin 1) j) (ix2 (0 : Fin 1) j) rfl rfl]

/-- The first accumulator's entry after a point: what it held plus the block's column sum. -/
theorem step_sum (A : S50000x128.Idx → EReal) (D : S50000x1.Idx → EReal) (B : S1x128.Idx → EReal)
    (x0 : Vec Ideal S5000x128 .f32) (x1 : Vec Ideal S5000x1 .f32) (x2 : Vec Ideal S1x128 .f32) (q : ℕ)
    (h0 : ∀ (x : S5000x128.Idx) (k : S50000x128.Idx), (k 0).val = 5000 * q + (x 0).val → (k 1).val = (x 1).val → x0 x = A k)
    (h1 : ∀ (x : S5000x1.Idx) (k : S50000x1.Idx), (k 0).val = 5000 * q + (x 0).val → (k 1).val = (x 1).val → x1 x = D k)
    (h2 : ∀ (x : S1x128.Idx) (k : S1x128.Idx), (k 0).val = (x 0).val → (k 1).val = (x 1).val → x2 x = B k)
    (hq : q < 10) (acc : Vec Ideal S1x128 .f32) (S : EReal) (j : Fin 128) (hS : acc (ix2 (0 : Fin 1) j) = S) :
    k1_pay4 (F := Ideal) x0 x1 x2 acc (ix2 (0 : Fin 1) j) = S + ∑ r : Fin 5000, yN A D B j (5000 * q + r.val) := by
  rw [Pay.pay4_apply, hS]
  exact congrArg (S + ·) (Finset.sum_congr rfl fun r _ => point3 A D B x0 x1 x2 q h0 h1 h2 hq r j)

/-- The second accumulator's entry after a point: what it held plus the block's column sum of squares. -/
theorem step_sq (A : S50000x128.Idx → EReal) (D : S50000x1.Idx → EReal) (B : S1x128.Idx → EReal)
    (x0 : Vec Ideal S5000x128 .f32) (x1 : Vec Ideal S5000x1 .f32) (x2 : Vec Ideal S1x128 .f32) (q : ℕ)
    (h0 : ∀ (x : S5000x128.Idx) (k : S50000x128.Idx), (k 0).val = 5000 * q + (x 0).val → (k 1).val = (x 1).val → x0 x = A k)
    (h1 : ∀ (x : S5000x1.Idx) (k : S50000x1.Idx), (k 0).val = 5000 * q + (x 0).val → (k 1).val = (x 1).val → x1 x = D k)
    (h2 : ∀ (x : S1x128.Idx) (k : S1x128.Idx), (k 0).val = (x 0).val → (k 1).val = (x 1).val → x2 x = B k)
    (hq : q < 10) (acc : Vec Ideal S1x128 .f32) (S : EReal) (j : Fin 128) (hS : acc (ix2 (0 : Fin 1) j) = S) :
    k1_pay5 (F := Ideal) x0 x1 x2 acc (ix2 (0 : Fin 1) j)
      = S + ∑ r : Fin 5000, yN A D B j (5000 * q + r.val) * yN A D B j (5000 * q + r.val) := by
  rw [Pay.pay5_apply, hS]
  exact congrArg (S + ·) (Finset.sum_congr rfl fun r _ => by rw [point3 A D B x0 x1 x2 q h0 h1 h2 hq r j])

/-! ## The accumulators after each point -/

/-- After point `n` the accumulators hold, at column `j`, the sums over the rows of the blocks `0 … n`. -/
theorem acc1_sums (c : Dev nD) (j : Fin 128) : ∀ (n : ℕ) (hn : n < cfg1.N),
    ((acc1 (F := Ideal) V c n hn).1 : Vec Ideal S1x128 .f32) (ix2 (0 : Fin 1) j)
        = ∑ t ∈ Finset.range (n + 1), ∑ r : Fin 5000, yN (V c main_v26) (V c main_v15) (V c main_v27) j (5000 * t + r.val)
    ∧ ((acc1 (F := Ideal) V c n hn).2 : Vec Ideal S1x128 .f32) (ix2 (0 : Fin 1) j)
        = ∑ t ∈ Finset.range (n + 1), ∑ r : Fin 5000,
            yN (V c main_v26) (V c main_v15) (V c main_v27) j (5000 * t + r.val) * yN (V c main_v26) (V c main_v15) (V c main_v27) j (5000 * t + r.val)
  | 0, hn => by
    constructor
    · show k1_pay4 (F := Ideal) (iblk1 V c 0 ⟨0, hn⟩) (iblk1 V c 1 ⟨0, hn⟩) (iblk1 V c 2 ⟨0, hn⟩) (k1_pay1 (F := Ideal)) (ix2 (0 : Fin 1) j) = _
      refine (step_sum _ _ _ _ _ _ 0 (iblk1_0_apply V c ⟨0, hn⟩) (iblk1_1_apply V c ⟨0, hn⟩) (iblk1_2_apply V c ⟨0, hn⟩) (by omega) _ 0 j (Pay.pay1_apply j)).trans ?_
      rw [Finset.sum_range_one, zero_add]
    · show k1_pay5 (F := Ideal) (iblk1 V c 0 ⟨0, hn⟩) (iblk1 V c 1 ⟨0, hn⟩) (iblk1 V c 2 ⟨0, hn⟩) (k1_pay2 (F := Ideal)) (ix2 (0 : Fin 1) j) = _
      refine (step_sq _ _ _ _ _ _ 0 (iblk1_0_apply V c ⟨0, hn⟩) (iblk1_1_apply V c ⟨0, hn⟩) (iblk1_2_apply V c ⟨0, hn⟩) (by omega) _ 0 j (Pay.pay2_apply j)).trans ?_
      rw [Finset.sum_range_one, zero_add]
  | n + 1, hn => by
    obtain ⟨ih1, ih2⟩ := acc1_sums c j n (Nat.lt_of_succ_lt hn)
    have hq : n + 1 < 10 := lt_of_lt_of_eq hn (show cfg1.N = 10 from N_1)
    constructor
    · show k1_pay4 (F := Ideal) (iblk1 V c 0 ⟨n + 1, hn⟩) (iblk1 V c 1 ⟨n + 1, hn⟩) (iblk1 V c 2 ⟨n + 1, hn⟩) (acc1 (F := Ideal) V c n (Nat.lt_of_succ_lt hn)).1 (ix2 (0 : Fin 1) j) = _
      refine (step_sum _ _ _ _ _ _ (n + 1) (iblk1_0_apply V c ⟨n + 1, hn⟩) (iblk1_1_apply V c ⟨n + 1, hn⟩) (iblk1_2_apply V c ⟨n + 1, hn⟩) hq _ _ j ih1).trans ?_
      rw [Finset.sum_range_succ _ (n + 1)]
    · show k1_pay5 (F := Ideal) (iblk1 V c 0 ⟨n + 1, hn⟩) (iblk1 V c 1 ⟨n + 1, hn⟩) (iblk1 V c 2 ⟨n + 1, hn⟩) (acc1 (F := Ideal) V c n (Nat.lt_of_succ_lt hn)).2 (ix2 (0 : Fin 1) j) = _
      refine (step_sq _ _ _ _ _ _ (n + 1) (iblk1_0_apply V c ⟨n + 1, hn⟩) (iblk1_1_apply V c ⟨n + 1, hn⟩) (iblk1_2_apply V c ⟨n + 1, hn⟩) hq _ _ j ih2).trans ?_
      rw [Finset.sum_range_succ _ (n + 1)]

/-- The last point. -/
theorem h9 : 9 < cfg1.N := by rw [show cfg1.N = 10 from N_1]; decide

/-- After the last point the first accumulator holds the column sums over all rows, -/
theorem acc1_total_sum (c : Dev nD) (A : S50000x128.Idx → EReal) (D : S50000x1.Idx → EReal) (B : S1x128.Idx → EReal)
    (hA : A = V c main_v26) (hD : D = V c main_v15) (hB : B = V c main_v27) (j : Fin 128) :
    ((acc1 (F := Ideal) V c 9 h9).1 : Vec Ideal S1x128 .f32) (ix2 (0 : Fin 1) j)
      = ∑ n : Fin 50000, (A (ix2 n j) * D (ix2 n (0 : Fin 1)) + B (ix2 (0 : Fin 1) j)) := by
  rw [(acc1_sums V c j 9 h9).1, ← hA, ← hD, ← hB]
  exact sum_rows (fun m => yN A D B j m) (fun n : Fin 50000 => A (ix2 n j) * D (ix2 n (0 : Fin 1)) + B (ix2 (0 : Fin 1) j))
    fun n => yN_of_lt A D B j n.val n.isLt

/-- and the second the column sums of squares. -/
theorem acc1_total_sq (c : Dev nD) (A : S50000x128.Idx → EReal) (D : S50000x1.Idx → EReal) (B : S1x128.Idx → EReal)
    (hA : A = V c main_v26) (hD : D = V c main_v15) (hB : B = V c main_v27) (j : Fin 128) :
    ((acc1 (F := Ideal) V c 9 h9).2 : Vec Ideal S1x128 .f32) (ix2 (0 : Fin 1) j)
      = ∑ n : Fin 50000, (A (ix2 n j) * D (ix2 n (0 : Fin 1)) + B (ix2 (0 : Fin 1) j)) * (A (ix2 n j) * D (ix2 n (0 : Fin 1)) + B (ix2 (0 : Fin 1) j)) := by
  rw [(acc1_sums V c j 9 h9).2, ← hA, ← hD, ← hB]
  exact sum_rows (fun m => yN A D B j m * yN A D B j m)
    (fun n : Fin 50000 => (A (ix2 n j) * D (ix2 n (0 : Fin 1)) + B (ix2 (0 : Fin 1) j)) * (A (ix2 n j) * D (ix2 n (0 : Fin 1)) + B (ix2 (0 : Fin 1) j)))
    fun n => congrArg₂ (· * ·) (yN_of_lt A D B j n.val n.isLt) (yN_of_lt A D B j n.val n.isLt)

/-! ## From the one block to the array -/

/-- What the call leaves in the first output array: the mean's row. -/
def G3 (c : Dev nD) : S1x128.Idx → EReal := k1_pay6 (F := Ideal) (acc1 (F := Ideal) V c 9 h9).1
/-- What the call leaves in the second output array: the variance's row. -/
def G4 (c : Dev nD) : S1x128.Idx → EReal := k1_pay7 (F := Ideal) (acc1 (F := Ideal) V c 9 h9).1 (acc1 (F := Ideal) V c 9 h9).2

/-- A point that writes an output back is the last. -/
theorem last_of_flush3 (t : Fin cfg1.N) (hf : (cfg1.win 3).flush t = true) : t = ⟨9, h9⟩ := by
  have h := (flush1_3 t).mp hf
  have hN : t.val < 10 := lt_of_lt_of_eq t.isLt (show cfg1.N = 10 from N_1)
  exact Fin.ext (by show t.val = 9; omega)
theorem last_of_flush4 (t : Fin cfg1.N) (hf : (cfg1.win 4).flush t = true) : t = ⟨9, h9⟩ := by
  have h := (flush1_4 t).mp hf
  have hN : t.val < 10 := lt_of_lt_of_eq t.isLt (show cfg1.N = 10 from N_1)
  exact Fin.ext (by show t.val = 9; omega)

/-- What the last point writes back into the first output is the one block of `G3`. -/
theorem flushed3_eq (c : Dev nD) (t : Fin cfg1.N) (hf : (cfg1.win 3).flush t = true) :
    (dat1 (F := Ideal) V c).flushed 3 t = ((cfg1.win 3).blk t).view.read (Elt Ideal) (G3 V c) := by
  obtain rfl := last_of_flush3 t hf
  show (cfg1.win 3).cut (grid1.coords ⟨9, h9⟩) ((dat1 (F := Ideal) V c).after 3 ⟨9, h9⟩) = _
  rw [after1_3]
  obtain ⟨e0, e1⟩ := idx_facts1_3 ⟨9, h9⟩
  funext y
  show k1_pay6 (F := Ideal) (acc1 (F := Ideal) V c 9 h9).1 y = G3 V c (((cfg1.win 3).blk ⟨9, h9⟩).view.emb y)
  unfold G3
  refine congrArg (k1_pay6 (F := Ideal) (acc1 (F := Ideal) V c 9 h9).1) ?_
  funext a
  apply Fin.ext
  match a with
  | ⟨0, _⟩ => show (y 0).val = win1_3.index ⟨9, h9⟩ (0 : Fin 2) * 1 + 1 * (y 0).val; rw [e0]; omega
  | ⟨1, _⟩ => show (y 1).val = win1_3.index ⟨9, h9⟩ (1 : Fin 2) * 128 + 1 * (y 1).val; rw [e1]; omega

theorem flushed4_eq (c : Dev nD) (t : Fin cfg1.N) (hf : (cfg1.win 4).flush t = true) :
    (dat1 (F := Ideal) V c).flushed 4 t = ((cfg1.win 4).blk t).view.read (Elt Ideal) (G4 V c) := by
  obtain rfl := last_of_flush4 t hf
  show (cfg1.win 4).cut (grid1.coords ⟨9, h9⟩) ((dat1 (F := Ideal) V c).after 4 ⟨9, h9⟩) = _
  rw [after1_4]
  obtain ⟨e0, e1⟩ := idx_facts1_4 ⟨9, h9⟩
  funext y
  show k1_pay7 (F := Ideal) (acc1 (F := Ideal) V c 9 h9).1 (acc1 (F := Ideal) V c 9 h9).2 y = G4 V c (((cfg1.win 4).blk ⟨9, h9⟩).view.emb y)
  unfold G4
  refine congrArg (k1_pay7 (F := Ideal) (acc1 (F := Ideal) V c 9 h9).1 (acc1 (F := Ideal) V c 9 h9).2) ?_
  funext a
  apply Fin.ext
  match a with
  | ⟨0, _⟩ => show (y 0).val = win1_4.index ⟨9, h9⟩ (0 : Fin 2) * 1 + 1 * (y 0).val; rw [e0]; omega
  | ⟨1, _⟩ => show (y 1).val = win1_4.index ⟨9, h9⟩ (1 : Fin 2) * 128 + 1 * (y 1).val; rw [e1]; omega

/-- An index of an output array is in a point's block iff each coordinate is in the block's range on its axis. -/
theorem mem_blk3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v30_0).slice (win1_3.rect t)).set ↔ _
  rw [View.set_slice_whole, Rect.mem_set_unit]
  exact Iff.rfl
theorem mem_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v30_1).slice (win1_4.rect t)).set ↔ _
  rw [View.set_slice_whole, Rect.mem_set_unit]
  exact Iff.rfl

/-- The one block, written back at the last point, is the whole array. -/
theorem cover3 (i : S1x128.Idx) : ∃ t : Fin cfg1.N, (cfg1.win 3).flush t = true ∧ i ∈ ((cfg1.win 3).blk t).view.set := by
  have hi0 : (i 0).val < 1 := (i 0).isLt
  have hi1 : (i 1).val < 128 := (i 1).isLt
  refine ⟨⟨9, h9⟩, (flush1_3 _).mpr rfl, ?_⟩
  rw [mem_blk3]
  obtain ⟨e0, e1⟩ := idx_facts1_3 ⟨9, h9⟩
  intro a
  match a with
  | ⟨0, _⟩ =>
    show win1_3.index _ (0 : Fin 2) * 1 ≤ (i 0).val ∧ (i 0).val < win1_3.index _ (0 : Fin 2) * 1 + 1
    rw [e0]; omega
  | ⟨1, _⟩ =>
    show win1_3.index _ (1 : Fin 2) * 128 ≤ (i 1).val ∧ (i 1).val < win1_3.index _ (1 : Fin 2) * 128 + 128
    rw [e1]; omega
theorem cover4 (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  refine ⟨⟨9, h9⟩, (flush1_4 _).mpr rfl, ?_⟩
  rw [mem_blk4]
  obtain ⟨e0, e1⟩ := idx_facts1_4 ⟨9, h9⟩
  intro a
  match a with
  | ⟨0, _⟩ =>
    show win1_4.index _ (0 : Fin 2) * 1 ≤ (i 0).val ∧ (i 0).val < win1_4.index _ (0 : Fin 2) * 1 + 1
    rw [e0]; omega
  | ⟨1, _⟩ =>
    show win1_4.index _ (1 : Fin 2) * 128 ≤ (i 1).val ∧ (i 1).val < win1_4.index _ (1 : Fin 2) * 128 + 128
    rw [e1]; omega

/-- The two output arrays after the call. -/
theorem final3 (c : Dev nD) : (dat1 (F := Ideal) V c).arrAt 3 cfg1.N = G3 V c :=
  (dat1 (F := Ideal) V c).arrAt_eq_of_cover 3 (G3 V c) (fun t hf => flushed3_eq V c t hf) cover3
theorem final4 (c : Dev nD) : (dat1 (F := Ideal) V c).arrAt 4 cfg1.N = G4 V c :=
  (dat1 (F := Ideal) V c).arrAt_eq_of_cover 4 (G4 V c) (fun t hf => flushed4_eq V c t hf) cover4

/-! ## The two outputs, entry by entry -/

/-- The first output at column `j`: the column sum of the values over all rows, divided by the row count. -/
theorem mean_apply (c : Dev nD) (Mn : S1x128.Idx → EReal) (A : S50000x128.Idx → EReal) (D : S50000x1.Idx → EReal) (B : S1x128.Idx → EReal)
    (hMn : Mn = (dat1 (F := Ideal) V c).arrAt 3 cfg1.N) (hA : A = V c main_v26) (hD : D = V c main_v15) (hB : B = V c main_v27) (j : Fin 128) :
    Mn (ix2 (0 : Fin 1) j)
      = Ideal.div (∑ n : Fin 50000, (A (ix2 n j) * D (ix2 n (0 : Fin 1)) + B (ix2 (0 : Fin 1) j))) (Ideal.ofBits .f32 0x47435000#32) := by
  rw [hMn, final3]
  show k1_pay6 (F := Ideal) (acc1 (F := Ideal) V c 9 h9).1 (ix2 (0 : Fin 1) j) = _
  rw [Pay.pay6_apply, acc1_total_sum V c A D B hA hD hB j]

/-- The second output at column `j`: the column sum of the squared values divided by the row count, less the square
    of the first output. -/
theorem var_apply (c : Dev nD) (Vr : S1x128.Idx → EReal) (A : S50000x128.Idx → EReal) (D : S50000x1.Idx → EReal) (B : S1x128.Idx → EReal)
    (hVr : Vr = (dat1 (F := Ideal) V c).arrAt 4 cfg1.N) (hA : A = V c main_v26) (hD : D = V c main_v15) (hB : B = V c main_v27) (j : Fin 128) :
    Vr (ix2 (0 : Fin 1) j)
      = Ideal.div (∑ n : Fin 50000, (A (ix2 n j) * D (ix2 n (0 : Fin 1)) + B (ix2 (0 : Fin 1) j)) * (A (ix2 n j) * D (ix2 n (0 : Fin 1)) + B (ix2 (0 : Fin 1) j))) (Ideal.ofBits .f32 0x47435000#32)
        - Ideal.div (∑ n : Fin 50000, (A (ix2 n j) * D (ix2 n (0 : Fin 1)) + B (ix2 (0 : Fin 1) j))) (Ideal.ofBits .f32 0x47435000#32)
          * Ideal.div (∑ n : Fin 50000, (A (ix2 n j) * D (ix2 n (0 : Fin 1)) + B (ix2 (0 : Fin 1) j))) (Ideal.ofBits .f32 0x47435000#32) := by
  rw [hVr, final4]
  show k1_pay7 (F := Ideal) (acc1 (F := Ideal) V c 9 h9).1 (acc1 (F := Ideal) V c 9 h9).2 (ix2 (0 : Fin 1) j) = _
  rw [Pay.pay7_apply, Pay.pay6_apply, acc1_total_sum V c A D B hA hD hB j, acc1_total_sq V c A D B hA hD hB j]

end Cert.KernelIdeal.Value1

end
-- ==== Proof.KIValue2.lean ====
/-
  The third call's output array as one function of its seven input arrays.

  Point `t` of the grid of ten writes rows `5000·t … 5000·t + 4999` of the output; what it writes is the body's
  normalisation of rows `5000·t …` of the aggregate (each row scaled by its entry of the scale column, the bias row added)
  by the mean, variance, scale and shift rows, clamped below at zero. So the array ends holding that expression at every
  row `n` and column `j`: every row lies in the block of point `n / 5000`.
-/
import proofs.«123185_j37778532336358_2_alg».proof.Proof.KIRegion2
import proofs.«123185_j37778532336358_2_alg».proof.Proof.KIPay
import Idealize.ShloMosaic.Lib.Pipeline.Value

noncomputable section

open scoped BigOperators

namespace Cert.KernelIdeal.Value2

open Cert.KernelIdeal Cert.KernelIdeal.Gen Cert.KernelIdeal.Hand2
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The normalised, scaled, shifted and clamped layer output, entry by entry: `A` the aggregate, `D` the scale column,
    `B` the bias row, `Mu` and `Vr` the mean and variance rows, `G` and `Be` the scale and shift rows. -/
def H2 (A : S50000x128.Idx → EReal) (D : S50000x1.Idx → EReal) (B Mu Vr G Be : S1x128.Idx → EReal) :
    S50000x128.Idx → EReal :=
  fun i => max (G (ix2 (0 : Fin 1) (i 1 : Fin 128))
        * ((A (ix2 (i 0 : Fin 50000) (i 1 : Fin 128)) * D (ix2 (i 0 : Fin 50000) (0 : Fin 1)) + B (ix2 (0 : Fin 1) (i 1 : Fin 128)))
            - Mu (ix2 (0 : Fin 1) (i 1 : Fin 128)))
        * Ideal.rsqrt (Vr (ix2 (0 : Fin 1) (i 1 : Fin 128)) + Ideal.ofBits .f32 0x3727C5AC#32)
      + Be (ix2 (0 : Fin 1) (i 1 : Fin 128))) 0

theorem H2_apply (A : S50000x128.Idx → EReal) (D : S50000x1.Idx → EReal) (B Mu Vr G Be : S1x128.Idx → EReal)
    (n : Fin 50000) (j : Fin 128) :
    H2 A D B Mu Vr G Be (ix2 n j)
      = max (G (ix2 (0 : Fin 1) j) * ((A (ix2 n j) * D (ix2 n (0 : Fin 1)) + B (ix2 (0 : Fin 1) j)) - Mu (ix2 (0 : Fin 1) j))
              * Ideal.rsqrt (Vr (ix2 (0 : Fin 1) j) + Ideal.ofBits .f32 0x3727C5AC#32)
            + Be (ix2 (0 : Fin 1) j)) 0 := rfl

/-! ## The block indices over the grid: the row-blocked windows sit at block row `t`, each row window at its one block -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-- The body's value at one entry of a block whose row-blocked inputs are rows `5000·q …` of their arrays: `H2` there. -/
theorem point2 (A : S50000x128.Idx → EReal) (D : S50000x1.Idx → EReal) (B Mu Vr G Be : S1x128.Idx → EReal)
    (x0 : Vec Ideal S5000x128 .f32) (x1 : Vec Ideal S5000x1 .f32) (x2 x3 x4 x5 x6 : Vec Ideal S1x128 .f32) (q : ℕ)
    (h0 : ∀ (x : S5000x128.Idx) (k : S50000x128.Idx), (k 0).val = 5000 * q + (x 0).val → (k 1).val = (x 1).val → x0 x = A k)
    (h1 : ∀ (x : S5000x1.Idx) (k : S50000x1.Idx), (k 0).val = 5000 * q + (x 0).val → (k 1).val = (x 1).val → x1 x = D k)
    (h2 : ∀ (x : S1x128.Idx) (k : S1x128.Idx), (k 0).val = (x 0).val → (k 1).val = (x 1).val → x2 x = B k)
    (h3 : ∀ (x : S1x128.Idx) (k : S1x128.Idx), (k 0).val = (x 0).val → (k 1).val = (x 1).val → x3 x = Mu k)
    (h4 : ∀ (x : S1x128.Idx) (k : S1x128.Idx), (k 0).val = (x 0).val → (k 1).val = (x 1).val → x4 x = Vr k)
    (h5 : ∀ (x : S1x128.Idx) (k : S1x128.Idx), (k 0).val = (x 0).val → (k 1).val = (x 1).val → x5 x = G k)
    (h6 : ∀ (x : S1x128.Idx) (k : S1x128.Idx), (k 0).val = (x 0).val → (k 1).val = (x 1).val → x6 x = Be k)
    (y : S5000x128.Idx) (i : S50000x128.Idx) (hi0 : (i 0).val = 5000 * q + (y 0).val) (hi1 : (i 1).val = (y 1).val) :
    k2_pay1 (F := Ideal) x0 x1 x2 x4 x5 x3 x6 y = H2 A D B Mu Vr G Be i := by
  obtain ⟨r, j, rfl⟩ : ∃ (r : Fin 5000) (j : Fin 128), y = ix2 r j := ⟨y 0, y 1, eq_ix2 y⟩
  obtain ⟨n, j', rfl⟩ : ∃ (n : Fin 50000) (j' : Fin 128), i = ix2 n j' := ⟨i 0, i 1, eq_ix2 i⟩
  have hn : n.val = 5000 * q + r.val := hi0
  have hj : j' = j := Fin.ext hi1
  subst hj
  rw [Pay.pay2k_apply, H2_apply, h0 (ix2 r j') (ix2 n j') hn rfl, h1 (ix2 r (0 : Fin 1)) (ix2 n (0 : Fin 1)) hn rfl,
    h2 (ix2 (0 : Fin 1) j') (ix2 (0 : Fin 1) j') rfl rfl, h3 (ix2 (0 : Fin 1) j') (ix2 (0 : Fin 1) j') rfl rfl,
    h4 (ix2 (0 : Fin 1) j') (ix2 (0 : Fin 1) j') rfl rfl, h5 (ix2 (0 : Fin 1) j') (ix2 (0 : Fin 1) j') rfl rfl,
    h6 (ix2 (0 : Fin 1) j') (ix2 (0 : Fin 1) j') rfl rfl]

/-! ## Each input window's block as its array -/

/-- The aggregate window's block at point `t` is rows `5000·t …` of the aggregate. -/
theorem iblk2_0_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v26 : S50000x128.Idx → EReal) k := by
  obtain ⟨e0, e1⟩ := idx2_0 t
  unfold iblk2
  rw [View.read_apply]
  show (V c main_v26 : S50000x128.Idx → EReal) _ = _
  refine congrArg (V c main_v26 : S50000x128.Idx → EReal) ?_
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The scale window's block at point `t` is rows `5000·t …` of the scale column. -/
theorem iblk2_1_apply (c : Dev nD) (t : Fin cfg2.N) (x : S5000x1.Idx) (k : S50000x1.Idx)
    (hk0 : (k 0).val = 5000 * t.val + (x 0).val) (hk1 : (k 1).val = (x 1).val) :
    (iblk2 V c 1 t : Vec Ideal S5000x1 .f32) x = (V c main_v15 : S50000x1.Idx → EReal) k := by
  obtain ⟨e0, e1⟩ := idx2_1 t
  unfold iblk2
  rw [View.read_apply]
  show (V c main_v15 : S50000x1.Idx → EReal) _ = _
  refine congrArg (V c main_v15 : S50000x1.Idx → EReal) ?_
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 1 + 1 * (x 1).val = (k 1).val; rw [e1, hk1]; omega

/-- The bias window's block at any point is the bias row. -/
theorem iblk2_2_apply (c : Dev nD) (t : Fin cfg2.N) (x : S1x128.Idx) (k : S1x128.Idx)
    (hk0 : (k 0).val = (x 0).val) (hk1 : (k 1).val = (x 1).val) :
    (iblk2 V c 2 t : Vec Ideal S1x128 .f32) x = (V c main_v27 : S1x128.Idx → EReal) k := by
  obtain ⟨e0, e1⟩ := idx2_2 t
  unfold iblk2
  rw [View.read_apply]
  show (V c main_v27 : S1x128.Idx → EReal) _ = _
  refine congrArg (V c main_v27 : S1x128.Idx → EReal) ?_
  funext a
  apply Fin.ext
  match a with
  | ⟨0, _⟩ => show win2_2.index t (0 : Fin 2) * 1 + 1 * (x 0).val = (k 0).val; rw [e0, hk0]; omega
  | ⟨1, _⟩ => show win2_2.index t (1 : Fin 2) * 128 + 1 * (x 1).val = (k 1).val; rw [e1, hk1]; omega

/-- The mean window's block at any point is the mean row. -/
theorem iblk2_3_apply (c : Dev nD) (t : Fin cfg2.N) (x : S1x128.Idx) (k : S1x128.Idx)
    (hk0 : (k 0).val = (x 0).val) (hk1 : (k 1).val = (x 1).val) :
    (iblk2 V c 3 t : Vec Ideal S1x128 .f32) x = (V c main_v30_0 : S1x128.Idx → EReal) k := by
  obtain ⟨e0, e1⟩ := idx2_3 t
  unfold iblk2
  rw [View.read_apply]
  show (V c main_v30_0 : S1x128.Idx → EReal) _ = _
  refine congrArg (V c main_v30_0 : S1x128.Idx → EReal) ?_
  funext a
  apply Fin.ext
  match a with
  | ⟨0, _⟩ => show win2_3.index t (0 : Fin 2) * 1 + 1 * (x 0).val = (k 0).val; rw [e0, hk0]; omega
  | ⟨1, _⟩ => show win2_3.index t (1 : Fin 2) * 128 + 1 * (x 1).val = (k 1).val; rw [e1, hk1]; omega

/-- The variance window's block at any point is the variance row. -/
theorem iblk2_4_apply (c : Dev nD) (t : Fin cfg2.N) (x : S1x128.Idx) (k : S1x128.Idx)
    (hk0 : (k 0).val = (x 0).val) (hk1 : (k 1).val = (x 1).val) :
    (iblk2 V c 4 t : Vec Ideal S1x128 .f32) x = (V c main_v30_1 : S1x128.Idx → EReal) k := by
  obtain ⟨e0, e1⟩ := idx2_4 t
  unfold iblk2
  rw [View.read_apply]
  show (V c main_v30_1 : S1x128.Idx → EReal) _ = _
  refine congrArg (V c main_v30_1 : S1x128.Idx → EReal) ?_
  funext a
  apply Fin.ext
  match a with
  | ⟨0, _⟩ => show win2_4.index t (0 : Fin 2) * 1 + 1 * (x 0).val = (k 0).val; rw [e0, hk0]; omega
  | ⟨1, _⟩ => show win2_4.index t (1 : Fin 2) * 128 + 1 * (x 1).val = (k 1).val; rw [e1, hk1]; omega

/-- The scale-row window's block at any point is the scale row. -/
theorem iblk2_5_apply (c : Dev nD) (t : Fin cfg2.N) (x : S1x128.Idx) (k : S1x128.Idx)
    (hk0 : (k 0).val = (x 0).val) (hk1 : (k 1).val = (x 1).val) :
    (iblk2 V c 5 t : Vec Ideal S1x128 .f32) x = (V c main_v28 : S1x128.Idx → EReal) k := by
  obtain ⟨e0, e1⟩ := idx2_5 t
  unfold iblk2
  rw [View.read_apply]
  show (V c main_v28 : S1x128.Idx → EReal) _ = _
  refine congrArg (V c main_v28 : S1x128.Idx → EReal) ?_
  funext a
  apply Fin.ext
  match a with
  | ⟨0, _⟩ => show win2_5.index t (0 : Fin 2) * 1 + 1 * (x 0).val = (k 0).val; rw [e0, hk0]; omega
  | ⟨1, _⟩ => show win2_5.index t (1 : Fin 2) * 128 + 1 * (x 1).val = (k 1).val; rw [e1, hk1]; omega

/-- The shift-row window's block at any point is the shift row. -/
theorem iblk2_6_apply (c : Dev nD) (t : Fin cfg2.N) (x : S1x128.Idx) (k : S1x128.Idx)
    (hk0 : (k 0).val = (x 0).val) (hk1 : (k 1).val = (x 1).val) :
    (iblk2 V c 6 t : Vec Ideal S1x128 .f32) x = (V c main_v29 : S1x128.Idx → EReal) k := by
  obtain ⟨e0, e1⟩ := idx2_6 t
  unfold iblk2
  rw [View.read_apply]
  show (V c main_v29 : S1x128.Idx → EReal) _ = _
  refine congrArg (V c main_v29 : S1x128.Idx → EReal) ?_
  funext a
  apply Fin.ext
  match a with
  | ⟨0, _⟩ => show win2_6.index t (0 : Fin 2) * 1 + 1 * (x 0).val = (k 0).val; rw [e0, hk0]; omega
  | ⟨1, _⟩ => show win2_6.index t (1 : Fin 2) * 128 + 1 * (x 1).val = (k 1).val; rw [e1, hk1]; omega

/-! ## From the blocks to the array -/

/-- What point `t` writes back is block `t` of `H2` of the arrays as the call finds them. -/
theorem flushed2_eq (c : Dev nD) (t : Fin cfg2.N) :
    (dat2 (F := Ideal) V c).flushed 7 t
      = ((cfg2.win 7).blk t).view.read (Elt Ideal)
          (H2 (V c main_v26) (V c main_v15) (V c main_v27) (V c main_v30_0) (V c main_v30_1) (V c main_v28) (V c main_v29)) := by
  show (cfg2.win 7).cut (grid2.coords t) ((dat2 (F := Ideal) V c).after 7 t) = _
  rw [after2_7]
  unfold out2_7
  rw [View.canon_unit_zero hz]
  simp only [View.ld_unit_zero (S := S5000x128) hz, View.ld_unit_zero (S := S5000x1) hz, View.ld_unit_zero (S := S1x128) hz]
  obtain ⟨e0, e1⟩ := idx2_7 t
  funext y
  show k2_pay1 (F := Ideal) (iblk2 V c 0 t) (iblk2 V c 1 t) (iblk2 V c 2 t) (iblk2 V c 4 t) (iblk2 V c 5 t) (iblk2 V c 3 t) (iblk2 V c 6 t) y
    = H2 (V c main_v26) (V c main_v15) (V c main_v27) (V c main_v30_0) (V c main_v30_1) (V c main_v28) (V c main_v29)
        (((cfg2.win 7).blk t).view.emb y)
  refine point2 _ _ _ _ _ _ _ _ _ _ _ _ _ _ t.val (iblk2_0_apply V c t) (iblk2_1_apply V c t) (iblk2_2_apply V c t)
    (iblk2_3_apply V c t) (iblk2_4_apply V c t) (iblk2_5_apply V c t) (iblk2_6_apply V c t) y _ ?_ ?_
  · show win2_7.index t (0 : Fin 2) * 5000 + 1 * (y 0).val = 5000 * t.val + (y 0).val
    rw [e0]; omega
  · show win2_7.index t (1 : Fin 2) * 128 + 1 * (y 1).val = (y 1).val
    rw [e1]; omega

/-- An index of the array is in point `t`'s block iff each coordinate is in the block's range on its axis. -/
theorem mem_blk2 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v31).slice (win2_7.rect t)).set ↔ _
  rw [View.set_slice_whole, Rect.mem_set_unit]
  exact Iff.rfl

/-- Every row of the array lies in the block of the point `row / 5000`. -/
theorem cover2 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_7 _, ?_⟩
  rw [mem_blk2]
  obtain ⟨e0, e1⟩ := idx2_7 ⟨(i 0).val / 5000, by rw [hN]; omega⟩
  intro a
  match a with
  | ⟨0, _⟩ =>
    show win2_7.index _ (0 : Fin 2) * 5000 ≤ (i 0).val ∧ (i 0).val < win2_7.index _ (0 : Fin 2) * 5000 + 5000
    rw [e0]; show (i 0).val / 5000 * 5000 ≤ (i 0).val ∧ (i 0).val < (i 0).val / 5000 * 5000 + 5000; omega
  | ⟨1, _⟩ =>
    show win2_7.index _ (1 : Fin 2) * 128 ≤ (i 1).val ∧ (i 1).val < win2_7.index _ (1 : Fin 2) * 128 + 128
    rw [e1]; omega

/-- The output array after the call: `H2` of the seven input arrays as the call finds them. -/
theorem final2 (c : Dev nD) :
    (dat2 (F := Ideal) V c).arrAt 7 cfg2.N
      = H2 (V c main_v26) (V c main_v15) (V c main_v27) (V c main_v30_0) (V c main_v30_1) (V c main_v28) (V c main_v29) :=
  (dat2 (F := Ideal) V c).arrAt_eq_of_cover 7
    (H2 (V c main_v26) (V c main_v15) (V c main_v27) (V c main_v30_0) (V c main_v30_1) (V c main_v28) (V c main_v29))
    (fun t _ => flushed2_eq V c t) (cover2)

/-- The output array after the call, at row `n` and column `j`, the seven input arrays named. -/
theorem final2_apply (c : Dev nD) (A : S50000x128.Idx → EReal) (D : S50000x1.Idx → EReal) (B Mu Vr G Be : S1x128.Idx → EReal)
    (hA : A = V c main_v26) (hD : D = V c main_v15) (hB : B = V c main_v27) (hMu : Mu = V c main_v30_0)
    (hVr : Vr = V c main_v30_1) (hG : G = V c main_v28) (hBe : Be = V c main_v29) (n : Fin 50000) (j : Fin 128) :
    (dat2 (F := Ideal) V c).arrAt 7 cfg2.N (ix2 n j)
      = max (G (ix2 (0 : Fin 1) j) * ((A (ix2 n j) * D (ix2 n (0 : Fin 1)) + B (ix2 (0 : Fin 1) j)) - Mu (ix2 (0 : Fin 1) j))
              * Ideal.rsqrt (Vr (ix2 (0 : Fin 1) j) + Ideal.ofBits .f32 0x3727C5AC#32)
            + Be (ix2 (0 : Fin 1) j)) 0 := by
  subst hA hD hB hMu hVr hG hBe
  rw [final2]
  rfl

end Cert.KernelIdeal.Value2

end
-- ==== Proof.KIFinal.lean ====
/-
  The idealized kernel program's result is the second arrangement of the layer (`Cert.Spec.KerG`) of the reference's own
  stages of the launch arguments.

  Row `n` of the aggregated array is the sum over the edges landing on `n` of the scaled rows of `x·W`; the second call's
  two outputs are the column mean and "mean of squares less squared mean" of `aggregated · factor + bias`, its ten
  block sums regrouped into one sum over the 50000 rows; the third call applies the normalisation, gain, shift and clamp
  entry by entry. The edge columns, the factors and the matrix product are, term for term, the reference's stages.
-/
import proofs.«123185_j37778532336358_2_alg».proof.Proof.KIShared
import proofs.«123185_j37778532336358_2_alg».proof.Proof.KIDis
import proofs.«123185_j37778532336358_2_alg».proof.Proof.KIValue0
import proofs.«123185_j37778532336358_2_alg».proof.Proof.KIValue1
import proofs.«123185_j37778532336358_2_alg».proof.Proof.KIValue2
import proofs.«123185_j37778532336358_2_alg».proof.Proof.Spec

set_option maxRecDepth 16384

noncomputable section

open scoped BigOperators

namespace Cert.KernelIdeal.HandFinal

open Cert.KernelIdeal Cert.KernelIdeal.Gen Cert.KernelIdeal.Hand0 Cert.KernelIdeal.Hand1 Cert.KernelIdeal.Hand2
open Cert.KernelIdeal.HandRun Cert.KernelIdeal.HandHost Cert.KernelIdeal.HandShared Cert.KernelIdeal.HandDis
open Idealize.ShloMosaic Idealize.ShloMosaic.TcCoe Idealize.ShloMosaic.ValueIdx Idealize.SL.Sem
open Idealize.ShloMosaic.Pipeline (Dat)
open Cert.Lib.RowScatter Cert.Spec Cert.ReferenceIdeal.ReadP

variable (m : (ℓ : Loc nD τ sig) → Buf (Elt Ideal) ℓ) (ρ : Dev nD → PrngReg) (c : Dev nD)

/-! ## The launch arguments as arrays of extended reals -/

abbrev xA : S50000x256.Idx → EReal := m ((c : Thread nD τ).loc main_arg0)
abbrev wA : S256x128.Idx → EReal := m ((c : Thread nD τ).loc main_arg2)
abbrev bA : S128.Idx → EReal := m ((c : Thread nD τ).loc main_arg3)
abbrev gA : S128.Idx → EReal := m ((c : Thread nD τ).loc main_arg4)
abbrev beA : S128.Idx → EReal := m ((c : Thread nD τ).loc main_arg5)

/-- The matrix product `x·W`, entry by entry, as the reference's stage computes it. -/
abbrev hK : Fin 50000 → Fin 128 → EReal := fun n j => val_main_v0 (F := Ideal) (xA m c) (wA m c) (ix2 n j)
/-- The degree factors. -/
abbrev disK : Fin 50000 → EReal := fun n => val_main_v15 (F := Ideal) (ei m c) (ix1 n)
/-- The source row each edge reads, and the edges landing on each row. -/
abbrev rK : Fin 650000 → Fin 50000 := gatherRow 50000 N_pos (val_main_v36 (F := Ideal) (ei m c))
abbrev LK : Fin 50000 → Finset (Fin 650000) := landsOn (val_main_v42 (F := Ideal) (ei m c)) 50000

/-- An entry of the matrix product is the inner product of a row of `x` and a column of `W`. -/
theorem hK_apply (n : Fin 50000) (j : Fin 128) : hK m c n j = ∑ k : Fin 256, xA m c (ix2 n k) * wA m c (ix2 k j) := by
  show val_main_v0 (F := Ideal) (xA m c) (wA m c) (ix2 n j) = _
  rw [val_main_v0_apply]
  refine Finset.sum_congr rfl (fun k _ => ?_)
  have el : lidx_main_v0 (ix2 n j) k = ix2 n k := funext fun a => Fin.ext (by match a with | ⟨0, _⟩ => rfl | ⟨1, _⟩ => rfl)
  have er : ridx_main_v0 (ix2 n j) k = ix2 k j := funext fun a => Fin.ext (by match a with | ⟨0, _⟩ => rfl | ⟨1, _⟩ => rfl)
  rw [el, er]

/-- The degree column the calls read is the column of degree factors. -/
theorem D_apply (D : S50000x1.Idx → EReal) (hD : D = X5 m ρ c main_v15) (n : Fin 50000) : D (ix2 n (0 : Fin 1)) = disK m c n :=
  X3_v15_apply m ρ c D (val_main_v15 (F := Ideal) (ei m c)) (hD.trans ((X5_v15 m ρ c).trans (X4_v15 m ρ c))) (dis_shared m ρ c).symm n

/-- The first call's output: row `n` of `x·W` scaled by the factor of `n`. -/
theorem Hs_apply (Hs : S50000x128.Idx → EReal) (hHs : Hs = X4 m ρ c main_v16) (n : Fin 50000) (j : Fin 128) :
    Hs (ix2 n j) = hK m c n j * disK m c n := by
  have h0 := Cert.KernelIdeal.Value0.final0_apply (X3 m ρ) c (xA m c) (wA m c) (X3 m ρ c main_v15)
    (X3_of_arg m ρ c main_arg0 (by decide) (by decide) (by decide)).symm
    (X3_of_arg m ρ c main_arg2 (by decide) (by decide) (by decide)).symm rfl n j
  rw [hHs, X4_v16 m ρ c]
  refine h0.trans ?_
  rw [hK_apply, X3_v15_apply m ρ c (X3 m ρ c main_v15) (val_main_v15 (F := Ideal) (ei m c)) rfl (dis_shared m ρ c).symm n]

/-- THE VALUE BEFORE THE NORMALISATION: aggregated row times the target factor plus the bias is the specification's. -/
theorem val_apply (A : S50000x128.Idx → EReal) (D : S50000x1.Idx → EReal) (B : S1x128.Idx → EReal)
    (hA : A = X5 m ρ c main_v26) (hD : D = X5 m ρ c main_v15) (hB : B = X5 m ρ c main_v27) (n : Fin 50000) (j : Fin 128) :
    A (ix2 n j) * D (ix2 n (0 : Fin 1)) + B (ix2 (0 : Fin 1) j)
      = kerVal (hK m c) (disK m c) (rK m c) (LK m c) (fun j => bA m c (ix1 j)) n j := by
  unfold kerVal
  rw [X5_v26_apply m ρ c A (X4 m ρ c main_v16) (val_main_v36 (F := Ideal) (ei m c)) (val_main_v42 (F := Ideal) (ei m c))
      hA rfl (row_shared m ρ c).symm (col_shared m ρ c).symm n j,
    D_apply m ρ c D hD n,
    X5_row_apply m ρ c main_arg3 main_v27 B (bA m c) (Or.inl ⟨rfl, rfl⟩) (heq_of_eq hB) HEq.rfl j]
  refine congrArg (fun s => s * disK m c n + bA m c (ix1 j)) (Finset.sum_congr rfl (fun e _ => ?_))
  exact Hs_apply m ρ c (X4 m ρ c main_v16) rfl _ j

/-! ## The second call's outputs, and the result -/

theorem mean_eq (Mu : S1x128.Idx → EReal) (hMu : Mu = X6 m ρ c main_v30_0) (j : Fin 128) :
    Mu (ix2 (0 : Fin 1) j) = kerMean (hK m c) (disK m c) (rK m c) (LK m c) (fun j => bA m c (ix1 j)) j := by
  rw [Cert.KernelIdeal.Value1.mean_apply (X5 m ρ) c Mu (X5 m ρ c main_v26) (X5 m ρ c main_v15) (X5 m ρ c main_v27)
    (hMu.trans (X6_v30_0 m ρ c)) rfl rfl rfl j]
  unfold kerMean
  exact congrArg (fun s => Ideal.div s (Ideal.ofBits .f32 0x47435000#32)) (Finset.sum_congr rfl (fun n _ => val_apply m ρ c _ _ _ rfl rfl rfl n j))

theorem var_eq (Vr : S1x128.Idx → EReal) (hVr : Vr = X6 m ρ c main_v30_1) (j : Fin 128) :
    Vr (ix2 (0 : Fin 1) j) = kerVar (hK m c) (disK m c) (rK m c) (LK m c) (fun j => bA m c (ix1 j)) j := by
  rw [Cert.KernelIdeal.Value1.var_apply (X5 m ρ) c Vr (X5 m ρ c main_v26) (X5 m ρ c main_v15) (X5 m ρ c main_v27)
    (hVr.trans (X6_v30_1 m ρ c)) rfl rfl rfl j]
  unfold kerVar kerMean
  simp only [val_apply m ρ c _ _ _ rfl rfl rfl]

/-- THE KERNEL PROGRAM'S RESULT is the second arrangement of the layer, of the reference's stages of the launch arguments. -/
theorem kernel_eq_KerG :
    (dat2 (F := Ideal) (X6 m ρ) c).arrAt 7 cfg2.N
      = KerG (val_main_v0 (F := Ideal) (xA m c) (wA m c)) (val_main_v15 (F := Ideal) (ei m c)) (val_main_v36 (F := Ideal) (ei m c))
          (val_main_v42 (F := Ideal) (ei m c)) (bA m c) (gA m c) (beA m c) := by
  funext i
  obtain ⟨n, j, rfl⟩ : ∃ (n : Fin 50000) (j : Fin 128), i = ix2 n j := ⟨i 0, i 1, eq_ix2 i⟩
  rw [KerG_apply]
  unfold kerG bnRelu
  rw [Cert.KernelIdeal.Value2.final2_apply (X6 m ρ) c (X5 m ρ c main_v26) (X5 m ρ c main_v15) (X5 m ρ c main_v27)
    (X6 m ρ c main_v30_0) (X6 m ρ c main_v30_1) (X5 m ρ c main_v28) (X5 m ρ c main_v29)
    (X6_v26 m ρ c).symm (X6_v15 m ρ c).symm (X6_v27 m ρ c).symm rfl rfl (X6_v28 m ρ c).symm (X6_v29 m ρ c).symm n j,
    val_apply m ρ c _ _ _ rfl rfl rfl n j, mean_eq m ρ c _ rfl j, var_eq m ρ c _ rfl j,
    X5_row_apply m ρ c main_arg4 main_v28 (X5 m ρ c main_v28) (gA m c) (Or.inr (Or.inl ⟨rfl, rfl⟩)) HEq.rfl HEq.rfl j,
    X5_row_apply m ρ c main_arg5 main_v29 (X5 m ρ c main_v29) (beA m c) (Or.inr (Or.inr ⟨rfl, rfl⟩)) HEq.rfl HEq.rfl j]

end Cert.KernelIdeal.HandFinal

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«123185_j37778532336358_2_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.RefValue.lean ====
/-
  The reference's run is the first arrangement of the specification.

  The reference computes the table `h = x · W`, the index columns (source and target of every edge, the graph's edges
  followed by one loop per row), the degrees by a scatter-add of ones, the factors `dis` (the inverse square root of a
  positive degree, else zero), and then: it gathers the table's rows and the two factors of every edge, multiplies,
  scatter-adds the messages onto their targets, adds the bias, and normalises every column by its mean and variance.
  Read at row `n` and column `j`, operation by operation, that is `Cert.Spec.RefG` of the table, the factors and the three
  index columns the gathers and the scatter-add read. The table, the factors and the index columns are carried as
  named functions of the inputs; they are opened only for three facts: a factor is a non-negative real (a degree is a
  finite count), an entry of the table is a real when the inputs' entries are (a finite sum of products), and an edge
  that lands on row `n` (its target word read signed is `n`) has `n` as its clamped target (a non-negative word is not
  wrapped, and the clamp does nothing below the number of rows).
-/
import proofs.«123185_j37778532336358_2_alg».proof.Proof.RefReadP
import proofs.«123185_j37778532336358_2_alg».proof.Proof.Spec
import proofs.«123185_j37778532336358_2_alg».proof.Proof.LibGather1

noncomputable section

open scoped BigOperators

namespace Cert.ReferenceIdeal.RefValue

open Cert.ReferenceIdeal Cert.ReferenceIdeal.Gen Cert.ReferenceIdeal.ReadP Idealize.ShloMosaic Idealize.ShloMosaic.ValueIdx
  Cert.Lib.RowScatter Cert.Lib.Gather1 Cert.Spec

variable (x0 : (⟨S50000x256, .f32⟩ : BufTy).Contents (Elt Ideal)) (x1 : (⟨S2x600000, .i32⟩ : BufTy).Contents (Elt Ideal))
  (x2 : (⟨S256x128, .f32⟩ : BufTy).Contents (Elt Ideal)) (x3 x4 x5 : (⟨S128, .f32⟩ : BufTy).Contents (Elt Ideal))

/-- The table `h = x · W`. -/
local notation "𝐡" => val_main_v0 (F := Ideal) x0 x2
/-- The factors. -/
local notation "𝐝" => val_main_v15 (F := Ideal) x1
/-- The wrapped source column, which the gathers of the table's rows and of the first factor read. -/
local notation "𝐫" => val_main_v36 (F := Ideal) x1
/-- The wrapped target column, which the gather of the second factor reads. -/
local notation "𝐜w" => val_main_v28 (F := Ideal) x1
/-- The target column as it is, which the scatter-add reads. -/
local notation "𝐜" => val_main_v42 (F := Ideal) x1

/-! ## The operations the generated reading leaves: two gathers of factors, the gather of rows, the scatter-add -/

/-- The two wrapped source columns are one term. -/
theorem v21_eq_v36 : val_main_v21 (F := Ideal) x1 = 𝐫 := rfl

theorem v37_at (e : Fin 650000) (j : Fin 128) :
    val_main_v37 (F := Ideal) x0 x1 x2 (ix2 e j) = 𝐡 (ix2 (gatherRow 50000 N_pos 𝐫 e) j) := by
  unfold val_main_v37
  generalize val_main_v0 (F := Ideal) x0 x2 = H
  generalize val_main_v36 (F := Ideal) x1 = I
  exact gather_rows_apply N_pos _ H I e j

theorem v22_at (e : Fin 650000) :
    val_main_v22 (F := Ideal) x1 (ix1 e) = 𝐝 (ix1 (gatherRow 50000 N_pos 𝐫 e)) := by
  rw [← v21_eq_v36]
  unfold val_main_v22
  generalize val_main_v15 (F := Ideal) x1 = D
  generalize val_main_v21 (F := Ideal) x1 = I
  exact gather1_apply N_pos _ D I e

theorem v29_at (e : Fin 650000) :
    val_main_v29 (F := Ideal) x1 (ix1 e) = 𝐝 (ix1 (gatherRow 50000 N_pos 𝐜w e)) := by
  unfold val_main_v29
  generalize val_main_v15 (F := Ideal) x1 = D
  generalize val_main_v28 (F := Ideal) x1 = I
  exact gather1_apply N_pos _ D I e

theorem v43_at (n : Fin 50000) (j : Fin 128) :
    val_main_v43 (F := Ideal) x0 x1 x2 (ix2 n j)
      = ∑ e ∈ landsOn 𝐜 50000 n, val_main_v40 (F := Ideal) x0 x1 x2 (ix2 e j) := by
  unfold val_main_v43
  generalize val_main_v40 (F := Ideal) x0 x1 x2 = Upd
  generalize val_main_v42 (F := Ideal) x1 = I
  refine (scatterAdd_rows_apply _ (val_main_v41 (F := Ideal)) I Upd n j).trans ?_
  rw [val_main_v41_apply, val_main_cst_8_apply, Ideal.ofBits_def, Ideal.ofBits_zero_f32, zero_add]

/-! ## The run, operation by operation, at row `n`, column `j`, edge `e` -/

theorem v39_at (e : Fin 650000) (j : Fin 128) :
    val_main_v39 (F := Ideal) x1 (ix2 e j)
      = 𝐝 (ix1 (gatherRow 50000 N_pos 𝐫 e)) * 𝐝 (ix1 (gatherRow 50000 N_pos 𝐜w e)) := by
  rw [val_main_v39_apply, val_main_v38_apply,
    show idx_main_v38 (idx_main_v39 (ix2 e j)) = ix1 e from
      funext fun a => Fin.ext (by match a with | ⟨0, _⟩ => rfl),
    val_main_v30_apply, Ideal.mulf_def, v22_at, v29_at]

theorem v40_at (e : Fin 650000) (j : Fin 128) :
    val_main_v40 (F := Ideal) x0 x1 x2 (ix2 e j)
      = 𝐡 (ix2 (gatherRow 50000 N_pos 𝐫 e) j)
        * (𝐝 (ix1 (gatherRow 50000 N_pos 𝐫 e)) * 𝐝 (ix1 (gatherRow 50000 N_pos 𝐜w e))) := by
  rw [val_main_v40_apply, Ideal.mulf_def, v37_at, v39_at]

theorem v45_at (n : Fin 50000) (j : Fin 128) : val_main_v45 (F := Ideal) x3 (ix2 n j) = x3 (ix1 j) := by
  rw [val_main_v45_apply, val_main_v44_apply,
    show idx_main_v44 (idx_main_v45 (ix2 n j)) = ix1 j from
      funext fun a => Fin.ext (by match a with | ⟨0, _⟩ => rfl)]

/-- The aggregated messages plus the bias. -/
theorem v46_at (n : Fin 50000) (j : Fin 128) :
    val_main_v46 (F := Ideal) x0 x1 x2 x3 (ix2 n j)
      = refOut (fun n j => 𝐡 (ix2 n j)) (fun n => 𝐝 (ix1 n)) (gatherRow 50000 N_pos 𝐫) (gatherRow 50000 N_pos 𝐜w)
          (landsOn 𝐜 50000) (fun j => x3 (ix1 j)) n j := by
  unfold refOut
  rw [val_main_v46_apply, Ideal.addf_def, v43_at, v45_at]
  exact congrArg (· + x3 (ix1 j)) (Finset.sum_congr rfl fun e _ => v40_at x0 x1 x2 e j)

/-- The column mean. -/
theorem v49_at (j : Fin 128) :
    val_main_v49 (F := Ideal) x0 x1 x2 x3 (ix1 j)
      = refMean (fun n j => 𝐡 (ix2 n j)) (fun n => 𝐝 (ix1 n)) (gatherRow 50000 N_pos 𝐫) (gatherRow 50000 N_pos 𝐜w)
          (landsOn 𝐜 50000) (fun j => x3 (ix1 j)) j := by
  unfold refMean
  rw [val_main_v49_apply, Ideal.hostDivf_def, val_main_v47_apply, val_main_v48_apply, val_main_cst_10_apply,
    val_main_cst_9_apply, Ideal.ofBits_def, Ideal.ofBits_def, Ideal.ofBits_zero_f32, zero_add]
  refine congrArg (fun s => Ideal.div s (Ideal.ofBits .f32 0x47435000#32)) (Finset.sum_congr rfl fun k _ => ?_)
  rw [show idx_main_v47 (ix1 j) k = ix2 k j from
    funext fun a => Fin.ext (by match a with | ⟨0, _⟩ => rfl | ⟨1, _⟩ => rfl), v46_at]

theorem v51_at (n : Fin 50000) (j : Fin 128) :
    val_main_v51 (F := Ideal) x0 x1 x2 x3 (ix2 n j) = val_main_v49 (F := Ideal) x0 x1 x2 x3 (ix1 j) := by
  rw [val_main_v51_apply, val_main_v50_apply,
    show idx_main_v50 (idx_main_v51 (ix2 n j)) = ix1 j from
      funext fun a => Fin.ext (by match a with | ⟨0, _⟩ => rfl)]

theorem v58_at (n : Fin 50000) (j : Fin 128) :
    val_main_v58 (F := Ideal) x0 x1 x2 x3 (ix2 n j) = val_main_v49 (F := Ideal) x0 x1 x2 x3 (ix1 j) := by
  rw [val_main_v58_apply, val_main_v57_apply,
    show idx_main_v57 (idx_main_v58 (ix2 n j)) = ix1 j from
      funext fun a => Fin.ext (by match a with | ⟨0, _⟩ => rfl)]

/-- The column variance. -/
theorem v56_at (j : Fin 128) :
    val_main_v56 (F := Ideal) x0 x1 x2 x3 (ix1 j)
      = refVar (fun n j => 𝐡 (ix2 n j)) (fun n => 𝐝 (ix1 n)) (gatherRow 50000 N_pos 𝐫) (gatherRow 50000 N_pos 𝐜w)
          (landsOn 𝐜 50000) (fun j => x3 (ix1 j)) j := by
  unfold refVar
  rw [val_main_v56_apply, Ideal.hostDivf_def, val_main_v54_apply, val_main_v55_apply, val_main_cst_12_apply,
    val_main_cst_11_apply, Ideal.ofBits_def, Ideal.ofBits_def, Ideal.ofBits_zero_f32, zero_add]
  refine congrArg (fun s => Ideal.div s (Ideal.ofBits .f32 0x47435000#32)) (Finset.sum_congr rfl fun k _ => ?_)
  rw [show idx_main_v54 (ix1 j) k = ix2 k j from
    funext fun a => Fin.ext (by match a with | ⟨0, _⟩ => rfl | ⟨1, _⟩ => rfl),
    val_main_v53_apply, Ideal.mulf_def, val_main_v52_apply, Ideal.subf_def, v51_at, v49_at, v46_at]

/-- The inverse deviation, spread over the rows. -/
theorem v67_at (n : Fin 50000) (j : Fin 128) :
    val_main_v67 (F := Ideal) x0 x1 x2 x3 (ix2 n j)
      = Ideal.rsqrt (val_main_v56 (F := Ideal) x0 x1 x2 x3 (ix1 j) + Ideal.ofBits .f32 0x3727C5AC#32) := by
  rw [val_main_v67_apply, val_main_v66_apply,
    show idx_main_v66 (idx_main_v67 (ix2 n j)) = ix1 j from
      funext fun a => Fin.ext (by match a with | ⟨0, _⟩ => rfl),
    val_main_v65_apply, Ideal.hostUnary_rsqrt_def, val_main_v64_apply, Ideal.addf_def, val_main_v63_apply,
    val_main_cst_13_apply, Ideal.ofBits_def]

theorem v61_at (n : Fin 50000) (j : Fin 128) : val_main_v61 (F := Ideal) x4 (ix2 n j) = x4 (ix1 j) := by
  rw [val_main_v61_apply, val_main_v60_apply,
    show idx_main_v60 (idx_main_v61 (ix2 n j)) = ix1 j from
      funext fun a => Fin.ext (by match a with | ⟨0, _⟩ => rfl)]

theorem v70_at (n : Fin 50000) (j : Fin 128) : val_main_v70 (F := Ideal) x5 (ix2 n j) = x5 (ix1 j) := by
  rw [val_main_v70_apply, val_main_v69_apply,
    show idx_main_v69 (idx_main_v70 (ix2 n j)) = ix1 j from
      funext fun a => Fin.ext (by match a with | ⟨0, _⟩ => rfl)]

/-- The result at row `n` and column `j`. -/
theorem v72_at (n : Fin 50000) (j : Fin 128) :
    val_main_v72 (F := Ideal) x0 x1 x2 x3 x4 x5 (ix2 n j)
      = refG (fun n j => 𝐡 (ix2 n j)) (fun n => 𝐝 (ix1 n)) (gatherRow 50000 N_pos 𝐫) (gatherRow 50000 N_pos 𝐜w)
          (landsOn 𝐜 50000) (fun j => x3 (ix1 j)) (fun j => x4 (ix1 j)) (fun j => x5 (ix1 j)) n j := by
  unfold refG bnRelu
  rw [val_main_v72_apply, Ideal.maximumf_def, val_main_call1_v0_apply, val_main_call1_cst_apply, Ideal.ofBits_def,
    Ideal.ofBits_zero_f32, val_main_v71_apply, Ideal.addf_def, val_main_v68_apply, Ideal.mulf_def,
    val_main_v62_apply, Ideal.mulf_def, val_main_v59_apply, Ideal.subf_def, v61_at, v70_at, v67_at, v58_at,
    v56_at, v49_at, v46_at]

/-- THE REFERENCE'S RUN IS THE FIRST ARRANGEMENT of the table, the factors and the index columns. -/
theorem ref_eq_RefG :
    val_main_v72 (F := Ideal) x0 x1 x2 x3 x4 x5 = RefG 𝐡 𝐝 𝐫 𝐜w 𝐜 x3 x4 x5 := by
  funext i
  obtain ⟨n, j, rfl⟩ : ∃ (n : Fin 50000) (j : Fin 128), i = ix2 n j := ⟨i 0, i 1, eq_ix2 i⟩
  rw [RefG_apply]
  exact v72_at x0 x1 x2 x3 x4 x5 n j

/-! ## Three facts about the named functions -/

/-- The float word `0x3F800000` denotes `1`. -/
theorem ofBits_one : Ideal.ofBits .f32 0x3F800000#32 = ((1 : ℝ) : EReal) := by
  simp [Ideal.ofBits, Ideal.ieee, -EReal.coe_mul]; norm_num

/-- A sum of ones is the number of its terms. -/
theorem sum_ones {ι : Type*} (S : Finset ι) : ∑ _j ∈ S, ((1 : ℝ) : EReal) = ((S.card : ℝ) : EReal) := by
  rw [← coe_sum]; simp

/-- A scatter-add of ones into zero counts the updates that land: a natural number. -/
theorem scatterAdd_ones_nat {s si su : Shape} (d : ScatterDims s si su) {w : Nat} (x : FVec Ideal s .f32) (idx : IVec si w)
    (upd : FVec Ideal su .f32) (i : s.Idx) (hx : x i = 0) (hu : ∀ j, upd j = ((1 : ℝ) : EReal)) :
    ∃ k : ℕ, Host.scatterAdd (F := Ideal) d x idx upd i = ((k : ℝ) : EReal) := by
  unfold Host.scatterAdd
  rw [Ideal.hostScatterAdd_def]
  unfold Ideal.hostScatterAdd
  rw [hx, zero_add, Finset.sum_congr rfl (fun j _ => hu j), sum_ones]
  exact ⟨_, rfl⟩

/-- The factor made from a count: the inverse square root of a positive count, zero for the count zero — a
    non-negative real. -/
theorem factor_of_nat (k : ℕ) :
    ∃ r : ℝ, 0 ≤ r ∧ Scalar.select (Ideal.cmp .ogt ((k : ℝ) : EReal) 0) (Ideal.rsqrt ((k : ℝ) : EReal)) (0 : EReal)
      = (r : EReal) := by
  by_cases hk : k = 0
  · subst hk
    refine ⟨0, le_refl _, ?_⟩
    have : Ideal.cmp .ogt (((0 : ℕ) : ℝ) : EReal) 0 = 0#1 := by simp [Ideal.cmp]
    rw [this, select_zero, EReal.coe_zero]
  · have hpos : (0 : ℝ) < (k : ℝ) := Nat.cast_pos.mpr (Nat.pos_of_ne_zero hk)
    refine ⟨(Real.sqrt (k : ℝ))⁻¹, inv_nonneg.mpr (Real.sqrt_nonneg _), ?_⟩
    have : Ideal.cmp .ogt ((k : ℝ) : EReal) 0 = 1#1 := by simp [Ideal.cmp, Nat.pos_of_ne_zero hk]
    rw [this, select_one, Ideal.rsqrt_coe, if_neg (not_lt.mpr hpos.le), if_neg hpos.ne']

/-- A FACTOR IS A NON-NEGATIVE REAL: the degree is a finite count. -/
theorem dis_real (n : Fin 50000) : ∃ r : ℝ, 0 ≤ r ∧ 𝐝 (ix1 n) = (r : EReal) := by
  obtain ⟨k, hk⟩ : ∃ k : ℕ, val_main_v11 (F := Ideal) x1 (ix1 n) = ((k : ℝ) : EReal) := by
    unfold val_main_v11
    refine scatterAdd_ones_nat _ _ _ _ _ ?_ (fun j => ?_)
    · rw [val_main_v9_apply, val_main_cst_0_apply, Ideal.ofBits_def, Ideal.ofBits_zero_f32]
    · rw [val_main_v8_apply, val_main_cst_apply, Ideal.ofBits_def, ofBits_one]
  obtain ⟨r, hr, h⟩ := factor_of_nat k
  refine ⟨r, hr, ?_⟩
  rw [val_main_v15_apply, val_main_v13_apply, val_main_v14_apply, val_main_v12_apply, val_main_cst_1_apply,
    val_main_call0_v1_apply, val_main_call0_v0_apply, val_main_cst_2_apply, Ideal.cmpf_def, Ideal.hostUnary_rsqrt_def,
    Ideal.ofBits_def, Ideal.ofBits_zero_f32, hk]
  exact h

/-- AN ENTRY OF THE TABLE IS A REAL when the entries of the two factors of the product are. -/
theorem h_real (hx0 : ∀ i, ∃ r : ℝ, x0 i = (r : EReal)) (hx2 : ∀ i, ∃ r : ℝ, x2 i = (r : EReal))
    (n : Fin 50000) (j : Fin 128) : ∃ r : ℝ, 𝐡 (ix2 n j) = (r : EReal) := by
  choose f0 h0 using hx0
  choose f2 h2 using hx2
  rw [val_main_v0_apply]
  simp only [h0, h2, ← EReal.coe_mul, ← coe_sum]
  exact ⟨_, rfl⟩

/-- AN EDGE THAT LANDS ON ROW `n` HAS `n` AS ITS CLAMPED TARGET: its target word read signed is `n`, which is not
    negative, so the wrap leaves it, and below the number of rows, so the clamp leaves it. -/
theorem lands_target (n : Fin 50000) (e : Fin 650000) (he : e ∈ landsOn 𝐜 50000 n) :
    gatherRow 50000 N_pos 𝐜w e = n := by
  unfold landsOn at he
  have he' := (Finset.mem_filter.mp he).2
  rw [val_main_v42_apply,
    show idx_main_v42 (ix2 e (0 : Fin 1)) = ix1 e from funext fun a => Fin.ext (by match a with | ⟨0, _⟩ => rfl)] at he'
  refine gatherRow_eq_of_toInt N_pos _ e n ?_
  rw [val_main_v28_apply,
    show idx_main_v28 (ix2 e (0 : Fin 1)) = ix1 e from funext fun a => Fin.ext (by match a with | ⟨0, _⟩ => rfl),
    val_main_v27_apply, val_main_v24_apply, val_main_v26_apply, val_main_v23_apply, val_main_c_4_apply,
    select_wrap_of_nonneg _ _ (by rw [he']; exact Int.natCast_nonneg _)]
  exact he'

/-! ## The reference's run in the second arrangement -/

/-- THE REFERENCE'S RUN IS THE SECOND ARRANGEMENT of its own table, factors and index columns, when the entries of
    `x`, `W` and `b` are reals. -/
theorem ref_eq_KerG (hx0 : ∀ i, ∃ r : ℝ, x0 i = (r : EReal)) (hx2 : ∀ i, ∃ r : ℝ, x2 i = (r : EReal))
    (hx3 : ∀ i, ∃ r : ℝ, x3 i = (r : EReal)) :
    val_main_v72 (F := Ideal) x0 x1 x2 x3 x4 x5 = KerG 𝐡 𝐝 𝐫 𝐜 x3 x4 x5 := by
  rw [ref_eq_RefG]
  exact RefG_eq_KerG _ _ _ _ _ _ _ _ (h_real x0 x2 hx0 hx2)
    (fun n => (dis_real x1 n).elim fun r hr => ⟨r, hr.2⟩) (fun j => hx3 (ix1 j)) (lands_target x1)

end Cert.ReferenceIdeal.RefValue

end
-- ==== Proof.Finite.lean ====
/-
  From the precondition to real entries.

  The precondition states, array by array, that every entry's absolute value is below the float word of `+∞`, and
  takes the conjunction. On the extended reals `|x| = max x (−x)` is below `⊤` exactly when `x` is neither `⊤` nor `⊥`, that
  is, a real. So, when the precondition's word is `1`, every entry of the five float arrays is a real.
-/
import proofs.«123185_j37778532336358_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx Cert.Pre_finite_inputs

/-- The result of a reduction over every axis has one index. -/
instance : Subsingleton S_.Idx := ⟨fun a b => funext fun d => d.elim0⟩

/-- The float word `0x7F800000` denotes `+∞`. -/
theorem ofBits_inf : Ideal.ofBits .f32 0x7F800000#32 = ⊤ := by
  simp [Ideal.ofBits, Ideal.ieee]

/-- An extended real whose absolute value is below `+∞` is a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, ofBits_inf] at h
  induction x using EReal.rec with
  | bot => exact absurd h (by simp [Ideal.cmp])
  | coe r => exact ⟨r, rfl⟩
  | top => exact absurd h (by simp [Ideal.cmp])

/-- One array of the precondition: every entry's absolute value is below `+∞`, so every entry is a real. -/
theorem real_of_all {s : Shape} (a : FVec Ideal s .f32) (c : FVec Ideal S_ .f32) (hc : c = constant (F := Ideal) S_ .f32 0x7F800000#32)
    (hb : S_.BroadcastsInDim s (![] : Fin 0 → Fin s.rank)) {axes : List (Fin s.rank)} (hr : s.ReducesTo axes S_)
    (init : IVec S_ 1) (hu : 0 < S_.numel)
    (e : Host.reduce IntOp.andi (cmpf .olt (Host.absf a) (broadcastInDim s ![] hb c)) init hr hu ix0 = 1#1)
    (i : s.Idx) : ∃ r : ℝ, a i = (r : EReal) := by
  have hi := Host.reduce_andi_all _ init hr hu ix0 e i
  subst hc
  refine real_of_abs_lt (a i) ?_
  rw [← hi]
  rfl

variable [Facts]

/-- THE PRECONDITION GIVES REAL ENTRIES: when the precondition's word is `1`, every entry of the five float arrays
    is a real. -/
theorem real_entries (a0 : FVec Ideal S50000x256 .f32) (a1 : IVec S2x600000 32) (a2 : FVec Ideal S256x128 .f32)
    (a3 a4 a5 : FVec Ideal S128 .f32) (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨real_of_all a0 _ rfl _ _ _ _ e0, real_of_all a2 _ rfl _ _ _ _ e2, real_of_all a3 _ rfl _ _ _ _ e3,
    real_of_all a4 _ rfl _ _ _ _ e4, real_of_all a5 _ rfl _ _ _ _ e5⟩

end Cert.Finite

end
-- ==== Proof.KIBridge.lean ====
/-
  The two results agree. From memories that agree on the six arguments, with every float argument finite: the
  reference's result is the first arrangement of the layer of its stages, which for real entries is the second
  arrangement; and the kernel program's result is that second arrangement of the same stages.
-/
import proofs.«123185_j37778532336358_2_alg».proof.Proof.KIFinal
import proofs.«123185_j37778532336358_2_alg».proof.Proof.RefValue
import proofs.«123185_j37778532336358_2_alg».proof.Proof.Finite
import proofs.«123185_j37778532336358_2_alg».proof.Proof.Gen.Pre_finite_inputs

set_option maxRecDepth 16384

noncomputable section

namespace Cert.KernelIdeal.HandBridge

open Cert.KernelIdeal Cert.KernelIdeal.Gen Cert.KernelIdeal.Hand2 Cert.KernelIdeal.HandRun Cert.KernelIdeal.HandFinal
open Idealize.ShloMosaic Idealize.ShloMosaic.TcCoe Idealize.SL.Sem

variable (m : (ℓ : Loc nD τ sig) → Buf (Elt Ideal) ℓ) (ρ : Dev nD → PrngReg)

/-- The reference's result term, of a memory agreeing with the kernel program's on the arguments, is the array the kernel
    program's third call leaves. -/
theorem reference_eq_kernel
    (m' : (ℓ : Loc Cert.ReferenceIdeal.nD Cert.ReferenceIdeal.τ Cert.ReferenceIdeal.sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = (fun _ => 1#1))
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.ValueP.res_main_v72 (F := Ideal) m' c = (dat2 (F := Ideal) (X6 m ρ) c).arrAt 7 cfg2.N := by
  obtain ⟨h0, h1, h2, h3, h4, h5⟩ := hag
  have hr := Cert.Finite.real_entries _ _ _ _ _ _ hpre
  rw [Cert.ReferenceIdeal.ReadP.val_main_v72_eq, h0, h1, h2, h3, h4, h5]
  refine (Cert.ReferenceIdeal.RefValue.ref_eq_KerG _ _ _ _ _ _ hr.1 hr.2.1 hr.2.2.1).trans ?_
  exact (kernel_eq_KerG m ρ c).symm

end Cert.KernelIdeal.HandBridge

end
-- ==== Proof.lean ====
/-
  The certificate: a graph-convolution layer (linear map, symmetric degree normalisation, aggregation over the edges with
  self-loops, bias), batch normalisation with the batch's own statistics, and a clamp at zero — a kernel program of
  three pipelined calls among host operations against a plain host reference.

  * The three frames. Each kernel program's entry function is the run of seven items (four stretches of host
    operations, three calls); every call's body is run on its buffers, the second call carrying its two running sums
    from one grid point to the next; no item writes an argument array. The reference is host operations only: its
    frame is its run with the result dropped.
  * The idealization rewrote nothing, so there is nothing to preserve.
  * The values at the exact instance. The kernel program scales the rows of `x·W` by the source-side factor before the
    gather and the aggregated rows by the target-side factor after the scatter-add, and takes the variance as the mean
    of the squares less the square of the mean; the reference scales each gathered row by the product of the two
    factors and takes the variance as the mean of the squared deviations. With finite inputs every quantity is a real
    number, the sums distribute over the factors, and the two variances are one number: index by index the results
    agree.
-/
import proofs.«123185_j37778532336358_2_alg».proof.Defs
import proofs.«123185_j37778532336358_2_alg».proof.Proof.Gen.Kernel
import proofs.«123185_j37778532336358_2_alg».proof.Proof.Gen.Kernel.Skeleton
import proofs.«123185_j37778532336358_2_alg».proof.Proof.Gen.Kernel.Launch
import proofs.«123185_j37778532336358_2_alg».proof.Proof.Gen.Kernel.Regions
import proofs.«123185_j37778532336358_2_alg».proof.Proof.Gen.Kernel.Points
import proofs.«123185_j37778532336358_2_alg».proof.Proof.Gen.KernelIdeal
import proofs.«123185_j37778532336358_2_alg».proof.Proof.Gen.KernelIdeal.Skeleton
import proofs.«123185_j37778532336358_2_alg».proof.Proof.Gen.KernelIdeal.Launch
import proofs.«123185_j37778532336358_2_alg».proof.Proof.Gen.KernelIdeal.Regions
import proofs.«123185_j37778532336358_2_alg».proof.Proof.Gen.KernelIdeal.Points
import proofs.«123185_j37778532336358_2_alg».proof.Proof.Gen.ReferenceIdeal
import proofs.«123185_j37778532336358_2_alg».proof.Proof.Gen.Pre_finite_inputs
import proofs.«123185_j37778532336358_2_alg».proof.Proof.KBRun
import proofs.«123185_j37778532336358_2_alg».proof.Proof.KIRun
import proofs.«123185_j37778532336358_2_alg».proof.Proof.KIBridge
import proofs.«123185_j37778532336358_2_alg».proof.Proof.RefRunP
import Idealize.ShloMosaic.Adequacy
import Idealize.ShloMosaic.Init

noncomputable section

namespace Cert.Proof

open Idealize.ShloMosaic Idealize.SL.Sem Cert.Kernel

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.HandRun.frame m ρ

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.HandRun.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- At the exact instance, from memories that agree on the arguments and hold finite floats, the two programs end with
    the same result array: the kernel program's is the second arrangement of the layer, the reference's the first, and
    the two arrangements are one function of finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand2.dat2 (F := Ideal) (Cert.KernelIdeal.HandRun.X6 m ρ) c).arrAt 7 Cert.KernelIdeal.cfg2.N,
    Cert.KernelIdeal.HandRun.run_result m ρ, ?_⟩
  refine (θ_run Cert.ReferenceIdeal.defs _ _).mono (fun _ h c => ⟨(h c).1.trans ?_, (h c).2⟩)
    (Cert.ReferenceIdeal.ValueP.run (F := Ideal) m' ρ')
  exact Cert.KernelIdeal.HandBridge.reference_eq_kernel m ρ m' c (hpre c) (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
